-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S160000x64 : Shape := ⟨2, ![160000, 64]⟩
abbrev S2560000 : Shape := ⟨1, ![2560000]⟩
abbrev S64x32 : Shape := ⟨2, ![64, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S160000x64 : S_.BroadcastsInDim S160000x64 (![] : Fin 0 → Fin S160000x64.rank)
  reducesTo_S160000x64_S_d0_1 : S160000x64.ReducesTo [0, 1] S_
  h_S_ : 0 < S_.numel
  bcast_S_S2560000 : S_.BroadcastsInDim S2560000 (![] : Fin 0 → Fin S2560000.rank)
  reducesTo_S2560000_S_d0 : S2560000.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S16 .f32) (main_arg10 : FVec F S32x16 .f32) (main_arg11 : FVec F S16 .f32) (main_v33 : IVec S_ 1) : IVec S_ 1 :=
  let main_v34 : FVec F S16 .f32 := Host.absf main_arg9
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S32x16 .f32 := Host.absf main_arg10
  let main_cst_14 : FVec F S_ .f32 := constant S_ .f32 0x7F800000#32
  let main_v40 : FVec F S32x16 .f32 := broadcastInDim S32x16 ![] bcast_S_S32x16 main_cst_14
  let main_v41 : IVec S32x16 1 := cmpf .olt main_v39 main_v40
  let main_c_15 : IVec S_ 1 := constantI S_ 1 1#1
  let main_v42 : IVec S_ 1 := (fun x v => Host.reduce IntOp.andi x v reducesTo_S32x16_S_d0_1 h_S_) main_v41 main_c_15
  let main_v43 : IVec S_ 1 := andi main_v38 main_v42
  let main_v44 : FVec F S16 .f32 := Host.absf main_arg11
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg6 : FVec F S64x32 .f32) (main_arg7 : FVec F S32 .f32) (main_arg8 : FVec F S32x16 .f32) (main_arg9 : FVec F S16 .f32) (main_arg10 : FVec F S32x16 .f32) (main_arg11 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S64x32 .f32 := Host.absf main_arg6
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x16 .f32 := Host.absf main_arg8
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg9 main_arg10 main_arg11 main_v33

def fn {F : FTy → Type} [FloatOps F] (main_arg0 : FVec F S160000x64 .f32) (main_arg1 : IVec S2560000 32) (main_arg2 : IVec S2560000 32) (main_arg3 : FVec F S2560000 .f32) (main_arg4 : FVec F S64x32 .f32) (main_arg5 : FVec F S32 .f32) (main_arg6 : FVec F S64x32 .f32) (main_arg7 : FVec F S32 .f32) (main_arg8 : FVec F S32x16 .f32) (main_arg9 : FVec F S16 .f32) (main_arg10 : FVec F S32x16 .f32) (main_arg11 : FVec F S16 .f32) : IVec S_ 1 :=
  let main_v0 : FVec F S160000x64 .f32 := Host.absf main_arg0
  let main_cst : FVec F S_ .f32 := constant S_ .f32 0x7F800000#32
  let main_v1 : FVec F S160000x64 .f32 := broadcastInDim S160000x64 ![] bcast_S_S160000x64 main_cst
  let main_v2 : IVec S160000x64 1 := cmpf .olt main_v0 main_v1
  let main_c : IVec S_ 1 := constantI S_ 1 1#1
  let main_v3 : IVec S_ 1 := (fun x v => Host.reduce IntOp.andi x v reducesTo_S160000x64_S_d0_1 h_S_) main_v2 main_c
  let main_v4 : FVec F S2560000 .f32 := Host.absf main_arg3
  let main_cst_0 : FVec F S_ .f32 := constant S_ .f32 0x7F800000#32
  let main_v5 : FVec F S2560000 .f32 := broadcastInDim S2560000 ![] bcast_S_S2560000 main_cst_0
  let main_v6 : IVec S2560000 1 := cmpf .olt main_v4 main_v5
  let main_c_1 : IVec S_ 1 := constantI S_ 1 1#1
  let main_v7 : IVec S_ 1 := (fun x v => Host.reduce IntOp.andi x v reducesTo_S2560000_S_d0 h_S_) main_v6 main_c_1
  let main_v8 : IVec S_ 1 := andi main_v3 main_v7
  let main_v9 : FVec F S64x32 .f32 := Host.absf main_arg4
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_v13 main_v16
-- ==== Kernel.lean ====
abbrev S160000x64 : Shape := ⟨2, ![160000, 64]⟩
abbrev S2560000 : Shape := ⟨1, ![2560000]⟩
abbrev S64x32 : Shape := ⟨2, ![64, 32]⟩
abbrev S32 : Shape := ⟨1, ![32]⟩
abbrev S32x16 : Shape := ⟨2, ![32, 16]⟩
abbrev S16 : Shape := ⟨1, ![16]⟩
abbrev S2560000x1 : Shape := ⟨2, ![2560000, 1]⟩
abbrev S_ : Shape := ⟨0, ![]⟩
abbrev S2560000x64 : Shape := ⟨2, ![2560000, 64]⟩
abbrev S1x32 : Shape := ⟨2, ![1, 32]⟩
abbrev S160000x32 : Shape := ⟨2, ![160000, 32]⟩
abbrev S3200x64 : Shape := ⟨2, ![3200, 64]⟩
abbrev S3200x32 : Shape := ⟨2, ![3200, 32]⟩
abbrev S3200 : Shape := ⟨1, ![3200]⟩
abbrev S3200x1 : Shape := ⟨2, ![3200, 1]⟩
abbrev S2560000x32 : Shape := ⟨2, ![2560000, 32]⟩
abbrev S1x16 : Shape := ⟨2, ![1, 16]⟩
abbrev S160000x16 : Shape := ⟨2, ![160000, 16]⟩
abbrev S3200x16 : Shape := ⟨2, ![3200, 16]⟩
abbrev S160000x112 : Shape := ⟨2, ![160000, 112]⟩

abbrev nBuf : Space → Nat
  | .hbm => 53
  | .vmem => 24
  | .smem => 0
  | _ => 0

abbrev bufTy : (tb : Table) → Fin (tcTables nBuf tb) → BufTy
  | .hbm, ⟨0, _⟩ => ⟨S160000x64, .f32⟩
  | .hbm, ⟨1, _⟩ => ⟨S2560000, .i32⟩
  | .hbm, ⟨2, _⟩ => ⟨S2560000, .i32⟩
  | .hbm, ⟨3, _⟩ => ⟨S2560000, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S32x16, .f32⟩
  | .hbm, ⟨11, _⟩ => ⟨S16, .f32⟩
  | .hbm, ⟨12, _⟩ => ⟨S2560000x1, .f32⟩
  | .hbm, ⟨13, _⟩ => ⟨S_, .i32⟩
  | .hbm, ⟨14, _⟩ => ⟨S2560000, .i32⟩
  | .hbm, ⟨15, _⟩ => ⟨S2560000, .i1⟩
  | .hbm, ⟨16, _⟩ => ⟨S_, .i32⟩
  | .hbm, ⟨17, _⟩ => ⟨S2560000, .i32⟩
  | .hbm, ⟨18, _⟩ => ⟨S2560000, .i32⟩
  | .hbm, ⟨19, _⟩ => ⟨S2560000, .i32⟩
  | .hbm, ⟨20, _⟩ => ⟨S2560000x1, .i32⟩
  | .hbm, ⟨21, _⟩ => ⟨S2560000x64, .f32⟩
  | .hbm, ⟨22, _⟩ => ⟨S2560000x64, .f32⟩
  | .hbm, ⟨23, _⟩ => ⟨S2560000x64, .f32⟩
  | .hbm, ⟨24, _⟩ => ⟨S_, .f32⟩
  | .hbm, ⟨25, _⟩ => ⟨S160000x64, .f32⟩
  | .hbm, ⟨26, _⟩ => ⟨S2560000x1, .i32⟩
  | .hbm, ⟨27, _⟩ => ⟨S160000x64, .f32⟩
  | .hbm, ⟨28, _⟩ => ⟨S1x32, .f32⟩
  | .hbm, ⟨29, _⟩ => ⟨S1x32, .f32⟩
  | .hbm, ⟨30, _⟩ => ⟨S160000x32, .f32⟩
  | .hbm, ⟨31, _⟩ => ⟨S160000x32, .f32⟩
  | .hbm, ⟨32, _⟩ => ⟨S2560000x1, .f32⟩
  | .hbm, ⟨33, _⟩ => ⟨S_, .i32⟩
  | .hbm, ⟨34, _⟩ => ⟨S2560000, .i32⟩
  | .hbm, ⟨35, _⟩ => ⟨S2560000, .i1⟩
  | .hbm, ⟨36, _⟩ => ⟨S_, .i32⟩
  | .hbm, ⟨37, _⟩ => ⟨S2560000, .i32⟩
  | .hbm, ⟨38, _⟩ => ⟨S2560000, .i32⟩
  | .hbm, ⟨39, _⟩ => ⟨S2560000, .i32⟩
  | .hbm, ⟨40, _⟩ => ⟨S2560000x1, .i32⟩
  | .hbm, ⟨41, _⟩ => ⟨S2560000x32, .f32⟩
  | .hbm, ⟨42, _⟩ => ⟨S2560000x32, .f32⟩
  | .hbm, ⟨43, _⟩ => ⟨S2560000x32, .f32⟩
  | .hbm, ⟨44, _⟩ => ⟨S_, .f32⟩
  | .hbm, ⟨45, _⟩ => ⟨S160000x32, .f32⟩
  | .hbm, ⟨46, _⟩ => ⟨S2560000x1, .i32⟩
  | .hbm, ⟨47, _⟩ => ⟨S160000x32, .f32⟩
  | .hbm, ⟨48, _⟩ => ⟨S1x16, .f32⟩
  | .hbm, ⟨49, _⟩ => ⟨S1x16, .f32⟩
  | .hbm, ⟨50, _⟩ => ⟨S160000x16, .f32⟩
  | .hbm, ⟨51, _⟩ => ⟨S160000x16, .f32⟩
  | .hbm, ⟨52, _⟩ => ⟨S160000x112, .f32⟩
  | .local _ .vmem, ⟨0, _⟩ => ⟨S3200x64, .f32⟩
  | .local _ .vmem, ⟨1, _⟩ => ⟨S3200x64, .f32⟩
  | .local _ .vmem, ⟨2, _⟩ => ⟨S3200x64, .f32⟩
  | .local _ .vmem, ⟨3, _⟩ => ⟨S3200x64, .f32⟩
  | .local _ .vmem, ⟨4, _⟩ => ⟨S64x32, .f32⟩
  | .local _ .vmem, ⟨5, _⟩ => ⟨S1x32, .f32⟩
  | .local _ .vmem, ⟨6, _⟩ => ⟨S64x32, .f32⟩
  | .local _ .vmem, ⟨7, _⟩ => ⟨S1x32, .f32⟩
  | .local _ .vmem, ⟨8, _⟩ => ⟨S3200x32, .f32⟩
  | .local _ .vmem, ⟨9, _⟩ => ⟨S3200x32, .f32⟩
  | .local _ .vmem, ⟨10, _⟩ => ⟨S3200x32, .f32⟩
  | .local _ .vmem, ⟨11, _⟩ => ⟨S3200x32, .f32⟩
  | .local _ .vmem, ⟨12, _⟩ => ⟨S3200x32, .f32⟩
  | .local _ .vmem, ⟨13, _⟩ => ⟨S3200x32, .f32⟩
  | .local _ .vmem, ⟨14, _⟩ => ⟨S3200x32, .f32⟩
  | .local _ .vmem, ⟨15, _⟩ => ⟨S3200x32, .f32⟩
  | .local _ .vmem, ⟨16, _⟩ => ⟨S32x16, .f32⟩
  | .local _ .vmem, ⟨17, _⟩ => ⟨S1x16, .f32⟩
  | .local _ .vmem, ⟨18, _⟩ => ⟨S32x16, .f32⟩
  | .local _ .vmem, ⟨19, _⟩ => ⟨S1x16, .f32⟩
  | .local _ .vmem, ⟨20, _⟩ => ⟨S3200x16, .f32⟩
  | .local _ .vmem, ⟨21, _⟩ => ⟨S3200x16, .f32⟩
  | .local _ .vmem, ⟨22, _⟩ => ⟨S3200x16, .f32⟩
  | .local _ .vmem, ⟨23, _⟩ => ⟨S3200x16, .f32⟩
  | _, _ => ⟨S160000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31_0 : Ref sig .tc := ⟨.hbm, 50, rfl⟩
abbrev main_v31_1 : Ref sig .tc := ⟨.hbm, 51, rfl⟩
abbrev main_v32 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3200x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3200x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S3200x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S3200x16 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S2560000_S2560000x1_0 : S2560000.BroadcastsInDim S2560000x1 (![0] : Fin 1 → Fin S2560000x1.rank)
  bcast_S_S2560000 : S_.BroadcastsInDim S2560000 (![] : Fin 0 → Fin S2560000.rank)
  bcast_S2560000x1_S2560000x64_0_1 : S2560000x1.BroadcastsInDim S2560000x64 (![0, 1] : Fin 2 → Fin S2560000x64.rank)
  bcast_S_S160000x64 : S_.BroadcastsInDim S160000x64 (![] : Fin 0 → Fin S160000x64.rank)
  shapeCasts_S32_S1x32 : S32.ShapeCasts S1x32
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S3200x32 : S1x32.Broadcasts S3200x32
  inb_S3200x32_S3200x32_0_0 : ∀ a, (![0, 0] : Fin 2 → Nat) a + S3200x32.size a ≤ S3200x32.size a
  h_S3200x32 : 0 < S3200x32.numel
  reduces_S3200x32_S3200 : S3200x32.Reduces [1] S3200
  shapeCasts_S3200_S3200x1 : S3200.ShapeCasts S3200x1
  broadcasts_S3200x1_S3200x32 : S3200x1.Broadcasts S3200x32
  bcast_S2560000x1_S2560000x32_0_1 : S2560000x1.BroadcastsInDim S2560000x32 (![0, 1] : Fin 2 → Fin S2560000x32.rank)
  bcast_S_S160000x32 : S_.BroadcastsInDim S160000x32 (![] : Fin 0 → Fin S160000x32.rank)
  shapeCasts_S16_S1x16 : S16.ShapeCasts S1x16
  shapeCasts_S3200x32_S3200x32 : S3200x32.ShapeCasts S3200x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S3200x16 : S1x16.Broadcasts S3200x16
  inb_S3200x16_S3200x16_0_0 : ∀ a, (![0, 0] : Fin 2 → Nat) a + S3200x16.size a ≤ S3200x16.size a
  h_S3200x16 : 0 < S3200x16.numel
  reduces_S3200x16_S3200 : S3200x16.Reduces [1] S3200
  broadcasts_S3200x1_S3200x16 : S3200x1.Broadcasts S3200x16
  concatenates_S160000x64_S160000x32_S160000x16_S160000x112_d1 : Shape.Concatenates [S160000x64, S160000x32, S160000x16] S160000x112 1
  gather_S160000x64_S2560000x1_S2560000x64_1_0_n_n_0_1_164_wf : GatherDims.WF S160000x64 S2560000x1 S2560000x64 [1] [0] [] [0] [] 1 ![1, 64]
  scatter_S160000x64_S2560000x1_S2560000x64_1_0_0_1_wf : ScatterDims.WF S160000x64 S2560000x1 S2560000x64 [1] [0] [0] 1
  dot_S3200x64_S64x32_S3200x32_1_0_0_1_n_n_wf : DotDims.WF S3200x64 S64x32 S3200x32 [1] [0] [0] [1] [] []
  gather_S160000x32_S2560000x1_S2560000x32_1_0_n_n_0_1_132_wf : GatherDims.WF S160000x32 S2560000x1 S2560000x32 [1] [0] [] [0] [] 1 ![1, 32]
  scatter_S160000x32_S2560000x1_S2560000x32_1_0_0_1_wf : ScatterDims.WF S160000x32 S2560000x1 S2560000x32 [1] [0] [0] 1
  dot_S3200x32_S32x16_S3200x16_1_0_0_1_n_n_wf : DotDims.WF S3200x32 S32x16 S3200x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x64.size a ≤ S160000x64.size a
  hwx0_0 : ∀ i : grid0.Coords, EltTy.bits .f32 = 32 ∨ (Rect.block (s := S160000x64) S3200x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x64.size a ≤ S160000x64.size a
  hwx0_1 : ∀ i : grid0.Coords, EltTy.bits .f32 = 32 ∨ (Rect.block (s := S160000x64) S3200x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3200x32.size a ≤ S160000x32.size a
  hwx0_6 : ∀ i : grid0.Coords, EltTy.bits .f32 = 32 ∨ (Rect.block (s := S160000x32) S3200x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3200x32.size a ≤ S160000x32.size a
  hwx0_7 : ∀ i : grid0.Coords, EltTy.bits .f32 = 32 ∨ (Rect.block (s := S160000x32) S3200x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x32.size a ≤ S160000x32.size a
  hwx1_0 : ∀ i : grid1.Coords, EltTy.bits .f32 = 32 ∨ (Rect.block (s := S160000x32) S3200x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x32.size a ≤ S160000x32.size a
  hwx1_1 : ∀ i : grid1.Coords, EltTy.bits .f32 = 32 ∨ (Rect.block (s := S160000x32) S3200x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x16.size a ≤ S32x16.size a
  hwx1_2 : ∀ i : grid1.Coords, EltTy.bits .f32 = 32 ∨ (Rect.block (s := S32x16) S32x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x16.size a ≤ S32x16.size a
  hwx1_4 : ∀ i : grid1.Coords, EltTy.bits .f32 = 32 ∨ (Rect.block (s := S32x16) S32x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S3200x16.size a ≤ S160000x16.size a
  hwx1_6 : ∀ i : grid1.Coords, EltTy.bits .f32 = 32 ∨ (Rect.block (s := S160000x16) S3200x16.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S3200x16.size a ≤ S160000x16.size a
  hwx1_7 : ∀ i : grid1.Coords, EltTy.bits .f32 = 32 ∨ (Rect.block (s := S160000x16) S3200x16.size (cc1_transform_7 i) (hinb1_7 i)).WholeWords (EltTy.packing .f32)

variable [Facts₀]

def gather_S160000x64_S2560000x1_S2560000x64_1_0_n_n_0_1_164 : GatherDims S160000x64 S2560000x1 S2560000x64 where
  offsetDims := [1]
  collapsedSliceDims := [0]
  operandBatchingDims := []
  startIndicesBatchingDims := []
  startIndexMap := [0]
  indexVectorDim := 1
  sliceSizes := ![1, 64]
  wf := gather_S160000x64_S2560000x1_S2560000x64_1_0_n_n_0_1_164_wf
def scatter_S160000x64_S2560000x1_S2560000x64_1_0_0_1 : ScatterDims S160000x64 S2560000x1 S2560000x64 where
  updateWindowDims := [1]
  insertedWindowDims := [0]
  scatterDimsToOperandDims := [0]
  indexVectorDim := 1
  wf := scatter_S160000x64_S2560000x1_S2560000x64_1_0_0_1_wf
def dot_S3200x64_S64x32_S3200x32_1_0_0_1_n_n : DotDims S3200x64 S64x32 S3200x32 where
  lhsContracting := [1]
  rhsContracting := [0]
  lhsNonContracting := [0]
  rhsNonContracting := [1]
  lhsBatch := []
  rhsBatch := []
  wf := dot_S3200x64_S64x32_S3200x32_1_0_0_1_n_n_wf
def gather_S160000x32_S2560000x1_S2560000x32_1_0_n_n_0_1_132 : GatherDims S160000x32 S2560000x1 S2560000x32 where
  offsetDims := [1]
  collapsedSliceDims := [0]
  operandBatchingDims := []
  startIndicesBatchingDims := []
  startIndexMap := [0]
  indexVectorDim := 1
  sliceSizes := ![1, 32]
  wf := gather_S160000x32_S2560000x1_S2560000x32_1_0_n_n_0_1_132_wf
def scatter_S160000x32_S2560000x1_S2560000x32_1_0_0_1 : ScatterDims S160000x32 S2560000x1 S2560000x32 where
  updateWindowDims := [1]
  insertedWindowDims := [0]
  scatterDimsToOperandDims := [0]
  indexVectorDim := 1
  wf := scatter_S160000x32_S2560000x1_S2560000x32_1_0_0_1_wf
def dot_S3200x32_S32x16_S3200x16_1_0_0_1_n_n : DotDims S3200x32 S32x16 S3200x16 where
  lhsContracting := [1]
  rhsContracting := [0]
  lhsNonContracting := [0]
  rhsNonContracting := [1]
  lhsBatch := []
  rhsBatch := []
  wf := dot_S3200x32_S32x16_S3200x16_1_0_0_1_n_n_wf

abbrev win0_0 : Pipeline.Window sig grid0 :=
  Pipeline.Window.ofSpec (Memref.whole main_arg0) S3200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S3200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15_0) S3200x32.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15_1) S3200x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v15_0) S3200x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S3200x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S32x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31_0) S3200x16.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v31_1) S3200x16.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S160000x64 : Shape := ⟨2, ![160000, 64]⟩
abbrev S2560000 : Shape := ⟨1, ![2560000]⟩
abbrev S64x32 : Shape := ⟨2, ![64, 32]⟩
abbrev S32 : Shape := ⟨1, ![32]⟩
abbrev S32x16 : Shape := ⟨2, ![32, 16]⟩
abbrev S16 : Shape := ⟨1, ![16]⟩
abbrev S2560000x1 : Shape := ⟨2, ![2560000, 1]⟩
abbrev S_ : Shape := ⟨0, ![]⟩
abbrev S2560000x64 : Shape := ⟨2, ![2560000, 64]⟩
abbrev S160000x32 : Shape := ⟨2, ![160000, 32]⟩
abbrev S1x32 : Shape := ⟨2, ![1, 32]⟩
abbrev S160000 : Shape := ⟨1, ![160000]⟩
abbrev S160000x1 : Shape := ⟨2, ![160000, 1]⟩
abbrev S2560000x32 : Shape := ⟨2, ![2560000, 32]⟩
abbrev S160000x16 : Shape := ⟨2, ![160000, 16]⟩
abbrev S1x16 : Shape := ⟨2, ![1, 16]⟩
abbrev S160000x112 : Shape := ⟨2, ![160000, 112]⟩

abbrev nBuf : Space → Nat
  | .hbm => 115
  | .vmem => 0
  | .smem => 0
  | _ => 0

abbrev bufTy : (tb : Table) → Fin (tcTables nBuf tb) → BufTy
  | .hbm, ⟨0, _⟩ => ⟨S160000x64, .f32⟩
  | .hbm, ⟨1, _⟩ => ⟨S2560000, .i32⟩
  | .hbm, ⟨2, _⟩ => ⟨S2560000, .i32⟩
  | .hbm, ⟨3, _⟩ => ⟨S2560000, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S32x16, .f32⟩
  | .hbm, ⟨11, _⟩ => ⟨S16, .f32⟩
  | .hbm, ⟨12, _⟩ => ⟨S2560000x1, .f32⟩
  | .hbm, ⟨13, _⟩ => ⟨S_, .i32⟩
  | .hbm, ⟨14, _⟩ => ⟨S2560000, .i32⟩
  | .hbm, ⟨15, _⟩ => ⟨S2560000, .i1⟩
  | .hbm, ⟨16, _⟩ => ⟨S_, .i32⟩
  | .hbm, ⟨17, _⟩ => ⟨S2560000, .i32⟩
  | .hbm, ⟨18, _⟩ => ⟨S2560000, .i32⟩
  | .hbm, ⟨19, _⟩ => ⟨S2560000, .i32⟩
  | .hbm, ⟨20, _⟩ => ⟨S2560000x1, .i32⟩
  | .hbm, ⟨21, _⟩ => ⟨S2560000x64, .f32⟩
  | .hbm, ⟨22, _⟩ => ⟨S2560000x64, .f32⟩
  | .hbm, ⟨23, _⟩ => ⟨S2560000x64, .f32⟩
  | .hbm, ⟨24, _⟩ => ⟨S_, .f32⟩
  | .hbm, ⟨25, _⟩ => ⟨S160000x64, .f32⟩
  | .hbm, ⟨26, _⟩ => ⟨S2560000x1, .i32⟩
  | .hbm, ⟨27, _⟩ => ⟨S160000x64, .f32⟩
  | .hbm, ⟨28, _⟩ => ⟨S160000x64, .f32⟩
  | .hbm, ⟨29, _⟩ => ⟨S160000x32, .f32⟩
  | .hbm, ⟨30, _⟩ => ⟨S1x32, .f32⟩
  | .hbm, ⟨31, _⟩ => ⟨S160000x32, .f32⟩
  | .hbm, ⟨32, _⟩ => ⟨S160000x32, .f32⟩
  | .hbm, ⟨33, _⟩ => ⟨S_, .f32⟩
  | .hbm, ⟨34, _⟩ => ⟨S160000x32, .f32⟩
  | .hbm, ⟨35, _⟩ => ⟨S160000x32, .i1⟩
  | .hbm, ⟨36, _⟩ => ⟨S_, .f32⟩
  | .hbm, ⟨37, _⟩ => ⟨S160000x32, .f32⟩
  | .hbm, ⟨38, _⟩ => ⟨S160000x32, .f32⟩
  | .hbm, ⟨39, _⟩ => ⟨S160000x32, .f32⟩
  | .hbm, ⟨40, _⟩ => ⟨S160000x64, .f32⟩
  | .hbm, ⟨41, _⟩ => ⟨S160000x32, .f32⟩
  | .hbm, ⟨42, _⟩ => ⟨S1x32, .f32⟩
  | .hbm, ⟨43, _⟩ => ⟨S160000x32, .f32⟩
  | .hbm, ⟨44, _⟩ => ⟨S160000x32, .f32⟩
  | .hbm, ⟨45, _⟩ => ⟨S_, .f32⟩
  | .hbm, ⟨46, _⟩ => ⟨S160000x32, .f32⟩
  | .hbm, ⟨47, _⟩ => ⟨S160000x32, .i1⟩
  | .hbm, ⟨48, _⟩ => ⟨S_, .f32⟩
  | .hbm, ⟨49, _⟩ => ⟨S160000x32, .f32⟩
  | .hbm, ⟨50, _⟩ => ⟨S160000x32, .f32⟩
  | .hbm, ⟨51, _⟩ => ⟨S160000x32, .f32⟩
  | .hbm, ⟨52, _⟩ => ⟨S160000x32, .f32⟩
  | .hbm, ⟨53, _⟩ => ⟨S160000x32, .f32⟩
  | .hbm, ⟨54, _⟩ => ⟨S_, .f32⟩
  | .hbm, ⟨55, _⟩ => ⟨S160000, .f32⟩
  | .hbm, ⟨56, _⟩ => ⟨S160000x1, .f32⟩
  | .hbm, ⟨57, _⟩ => ⟨S160000x1, .f32⟩
  | .hbm, ⟨58, _⟩ => ⟨S_, .f32⟩
  | .hbm, ⟨59, _⟩ => ⟨S160000x1, .f32⟩
  | .hbm, ⟨60, _⟩ => ⟨S160000x1, .f32⟩
  | .hbm, ⟨61, _⟩ => ⟨S160000x32, .f32⟩
  | .hbm, ⟨62, _⟩ => ⟨S160000x32, .f32⟩
  | .hbm, ⟨63, _⟩ => ⟨S2560000x1, .f32⟩
  | .hbm, ⟨64, _⟩ => ⟨S_, .i32⟩
  | .hbm, ⟨65, _⟩ => ⟨S2560000, .i32⟩
  | .hbm, ⟨66, _⟩ => ⟨S2560000, .i1⟩
  | .hbm, ⟨67, _⟩ => ⟨S_, .i32⟩
  | .hbm, ⟨68, _⟩ => ⟨S2560000, .i32⟩
  | .hbm, ⟨69, _⟩ => ⟨S2560000, .i32⟩
  | .hbm, ⟨70, _⟩ => ⟨S2560000, .i32⟩
  | .hbm, ⟨71, _⟩ => ⟨S2560000x1, .i32⟩
  | .hbm, ⟨72, _⟩ => ⟨S2560000x32, .f32⟩
  | .hbm, ⟨73, _⟩ => ⟨S2560000x32, .f32⟩
  | .hbm, ⟨74, _⟩ => ⟨S2560000x32, .f32⟩
  | .hbm, ⟨75, _⟩ => ⟨S_, .f32⟩
  | .hbm, ⟨76, _⟩ => ⟨S160000x32, .f32⟩
  | .hbm, ⟨77, _⟩ => ⟨S2560000x1, .i32⟩
  | .hbm, ⟨78, _⟩ => ⟨S160000x32, .f32⟩
  | .hbm, ⟨79, _⟩ => ⟨S160000x32, .f32⟩
  | .hbm, ⟨80, _⟩ => ⟨S160000x16, .f32⟩
  | .hbm, ⟨81, _⟩ => ⟨S1x16, .f32⟩
  | .hbm, ⟨82, _⟩ => ⟨S160000x16, .f32⟩
  | .hbm, ⟨83, _⟩ => ⟨S160000x16, .f32⟩
  | .hbm, ⟨84, _⟩ => ⟨S_, .f32⟩
  | .hbm, ⟨85, _⟩ => ⟨S160000x16, .f32⟩
  | .hbm, ⟨86, _⟩ => ⟨S160000x16, .i1⟩
  | .hbm, ⟨87, _⟩ => ⟨S_, .f32⟩
  | .hbm, ⟨88, _⟩ => ⟨S160000x16, .f32⟩
  | .hbm, ⟨89, _⟩ => ⟨S160000x16, .f32⟩
  | .hbm, ⟨90, _⟩ => ⟨S160000x16, .f32⟩
  | .hbm, ⟨91, _⟩ => ⟨S160000x32, .f32⟩
  | .hbm, ⟨92, _⟩ => ⟨S160000x16, .f32⟩
  | .hbm, ⟨93, _⟩ => ⟨S1x16, .f32⟩
  | .hbm, ⟨94, _⟩ => ⟨S160000x16, .f32⟩
  | .hbm, ⟨95, _⟩ => ⟨S160000x16, .f32⟩
  | .hbm, ⟨96, _⟩ => ⟨S_, .f32⟩
  | .hbm, ⟨97, _⟩ => ⟨S160000x16, .f32⟩
  | .hbm, ⟨98, _⟩ => ⟨S160000x16, .i1⟩
  | .hbm, ⟨99, _⟩ => ⟨S_, .f32⟩
  | .hbm, ⟨100, _⟩ => ⟨S160000x16, .f32⟩
  | .hbm, ⟨101, _⟩ => ⟨S160000x16, .f32⟩
  | .hbm, ⟨102, _⟩ => ⟨S160000x16, .f32⟩
  | .hbm, ⟨103, _⟩ => ⟨S160000x16, .f32⟩
  | .hbm, ⟨104, _⟩ => ⟨S160000x16, .f32⟩
  | .hbm, ⟨105, _⟩ => ⟨S_, .f32⟩
  | .hbm, ⟨106, _⟩ => ⟨S160000, .f32⟩
  | .hbm, ⟨107, _⟩ => ⟨S160000x1, .f32⟩
  | .hbm, ⟨108, _⟩ => ⟨S160000x1, .f32⟩
  | .hbm, ⟨109, _⟩ => ⟨S_, .f32⟩
  | .hbm, ⟨110, _⟩ => ⟨S160000x1, .f32⟩
  | .hbm, ⟨111, _⟩ => ⟨S160000x1, .f32⟩
  | .hbm, ⟨112, _⟩ => ⟨S160000x16, .f32⟩
  | .hbm, ⟨113, _⟩ => ⟨S160000x16, .f32⟩
  | .hbm, ⟨114, _⟩ => ⟨S160000x112, .f32⟩
  | _, _ => ⟨S160000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_7 : Ref sig .tc := ⟨.hbm, 64, rfl⟩
abbrev main_v43 : Ref sig .tc := ⟨.hbm, 65, rfl⟩
abbrev main_v44 : Ref sig .tc := ⟨.hbm, 66, rfl⟩
abbrev main_c_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_cst_11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_12 : Ref sig .tc := ⟨.hbm, 96, rfl⟩
abbrev main_v70 : Ref sig .tc := ⟨.hbm, 97, rfl⟩
abbrev main_v71 : Ref sig .tc := ⟨.hbm, 98, rfl⟩
abbrev main_cst_13 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_14 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_15 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩

abbrev nD : Nat := 1
abbrev τ : Topo := Topo.v7x

variable {F : FTy → Type} [FloatOps F]

class Facts₀ : Prop where
  bcast_S2560000_S2560000x1_0 : S2560000.BroadcastsInDim S2560000x1 (![0] : Fin 1 → Fin S2560000x1.rank)
  bcast_S_S2560000 : S_.BroadcastsInDim S2560000 (![] : Fin 0 → Fin S2560000.rank)
  bcast_S2560000x1_S2560000x64_0_1 : S2560000x1.BroadcastsInDim S2560000x64 (![0, 1] : Fin 2 → Fin S2560000x64.rank)
  bcast_S_S160000x64 : S_.BroadcastsInDim S160000x64 (![] : Fin 0 → Fin S160000x64.rank)
  bcast_S32_S1x32_1 : S32.BroadcastsInDim S1x32 (![1] : Fin 1 → Fin S1x32.rank)
  bcast_S1x32_S160000x32_0_1 : S1x32.BroadcastsInDim S160000x32 (![0, 1] : Fin 2 → Fin S160000x32.rank)
  bcast_S_S160000x32 : S_.BroadcastsInDim S160000x32 (![] : Fin 0 → Fin S160000x32.rank)
  reducesTo_S160000x32_S160000_d1 : S160000x32.ReducesTo [1] S160000
  h_S_ : 0 < S_.numel
  bcast_S160000_S160000x1_0 : S160000.BroadcastsInDim S160000x1 (![0] : Fin 1 → Fin S160000x1.rank)
  bcast_S_S160000x1 : S_.BroadcastsInDim S160000x1 (![] : Fin 0 → Fin S160000x1.rank)
  bcast_S160000x1_S160000x32_0_1 : S160000x1.BroadcastsInDim S160000x32 (![0, 1] : Fin 2 → Fin S160000x32.rank)
  bcast_S2560000x1_S2560000x32_0_1 : S2560000x1.BroadcastsInDim S2560000x32 (![0, 1] : Fin 2 → Fin S2560000x32.rank)
  bcast_S16_S1x16_1 : S16.BroadcastsInDim S1x16 (![1] : Fin 1 → Fin S1x16.rank)
  bcast_S1x16_S160000x16_0_1 : S1x16.BroadcastsInDim S160000x16 (![0, 1] : Fin 2 → Fin S160000x16.rank)
  bcast_S_S160000x16 : S_.BroadcastsInDim S160000x16 (![] : Fin 0 → Fin S160000x16.rank)
  reducesTo_S160000x16_S160000_d1 : S160000x16.ReducesTo [1] S160000
  bcast_S160000x1_S160000x16_0_1 : S160000x1.BroadcastsInDim S160000x16 (![0, 1] : Fin 2 → Fin S160000x16.rank)
  concatenates_S160000x64_S160000x32_S160000x16_S160000x112_d1 : Shape.Concatenates [S160000x64, S160000x32, S160000x16] S160000x112 1
  gather_S160000x64_S2560000x1_S2560000x64_1_0_n_n_0_1_164_wf : GatherDims.WF S160000x64 S2560000x1 S2560000x64 [1] [0] [] [0] [] 1 ![1, 64]
  scatter_S160000x64_S2560000x1_S2560000x64_1_0_0_1_wf : ScatterDims.WF S160000x64 S2560000x1 S2560000x64 [1] [0] [0] 1
  dot_S160000x64_S64x32_S160000x32_1_0_0_1_n_n_wf : DotDims.WF S160000x64 S64x32 S160000x32 [1] [0] [0] [1] [] []
  gather_S160000x32_S2560000x1_S2560000x32_1_0_n_n_0_1_132_wf : GatherDims.WF S160000x32 S2560000x1 S2560000x32 [1] [0] [] [0] [] 1 ![1, 32]
  scatter_S160000x32_S2560000x1_S2560000x32_1_0_0_1_wf : ScatterDims.WF S160000x32 S2560000x1 S2560000x32 [1] [0] [0] 1
  dot_S160000x32_S32x16_S160000x16_1_0_0_1_n_n_wf : DotDims.WF S160000x32 S32x16 S160000x16 [1] [0] [0] [1] [] []

variable [Facts₀]

def gather_S160000x64_S2560000x1_S2560000x64_1_0_n_n_0_1_164 : GatherDims S160000x64 S2560000x1 S2560000x64 where
  offsetDims := [1]
  collapsedSliceDims := [0]
  operandBatchingDims := []
  startIndicesBatchingDims := []
  startIndexMap := [0]
  indexVectorDim := 1
  sliceSizes := ![1, 64]
  wf := gather_S160000x64_S2560000x1_S2560000x64_1_0_n_n_0_1_164_wf
def scatter_S160000x64_S2560000x1_S2560000x64_1_0_0_1 : ScatterDims S160000x64 S2560000x1 S2560000x64 where
  updateWindowDims := [1]
  insertedWindowDims := [0]
  scatterDimsToOperandDims := [0]
  indexVectorDim := 1
  wf := scatter_S160000x64_S2560000x1_S2560000x64_1_0_0_1_wf
def dot_S160000x64_S64x32_S160000x32_1_0_0_1_n_n : DotDims S160000x64 S64x32 S160000x32 where
  lhsContracting := [1]
  rhsContracting := [0]
  lhsNonContracting := [0]
  rhsNonContracting := [1]
  lhsBatch := []
  rhsBatch := []
  wf := dot_S160000x64_S64x32_S160000x32_1_0_0_1_n_n_wf
def gather_S160000x32_S2560000x1_S2560000x32_1_0_n_n_0_1_132 : GatherDims S160000x32 S2560000x1 S2560000x32 where
  offsetDims := [1]
  collapsedSliceDims := [0]
  operandBatchingDims := []
  startIndicesBatchingDims := []
  startIndexMap := [0]
  indexVectorDim := 1
  sliceSizes := ![1, 32]
  wf := gather_S160000x32_S2560000x1_S2560000x32_1_0_n_n_0_1_132_wf
def scatter_S160000x32_S2560000x1_S2560000x32_1_0_0_1 : ScatterDims S160000x32 S2560000x1 S2560000x32 where
  updateWindowDims := [1]
  insertedWindowDims := [0]
  scatterDimsToOperandDims := [0]
  indexVectorDim := 1
  wf := scatter_S160000x32_S2560000x1_S2560000x32_1_0_0_1_wf
def dot_S160000x32_S32x16_S160000x16_1_0_0_1_n_n : DotDims S160000x32 S32x16 S160000x16 where
  lhsContracting := [1]
  rhsContracting := [0]
  lhsNonContracting := [0]
  rhsNonContracting := [1]
  lhsBatch := []
  rhsBatch := []
  wf := dot_S160000x32_S32x16_S160000x16_1_0_0_1_n_n_wf

class Facts : Prop extends Facts₀ where

variable [Facts]
-- ==== Proof.Kernel.Layer0.lean ====
/-
  The first bi-interaction layer's kernel launch, seen from the buffers. The launch walks 50 grid points; at point t
  it stages rows 3200·t … 3200·t+3199 of the node table and of the aggregated neighbour table (64 columns each)
  beside the two 64×32 weight tables and the two 1×32 bias rows, runs the body, and writes back the same rows of two
  32-column results: the new embedding and its row-normalised copy. This module states, for ANY contents V the launch
  finds in the buffers: the block of each operand at a point; what the body leaves in the two result blocks as a
  function of the six operand blocks (the body's one store per result, read back whole); the body's Hoare triple on
  whole staging buffers; the proof data the pipeline theorem takes; and the body obligation at every point. It holds
  at every float instance.
-/
import proofs.«112415_j84722524881132_1_alg».proof.Proof.Gen.Kernel.Launch
import proofs.«112415_j84722524881132_1_alg».proof.Proof.Gen.Kernel.Skeleton
import proofs.«112415_j84722524881132_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered: a parameter, instantiated by the run
variable (V : (c : Dev nD) → (b : Ref sig .tc) → Buf (Elt F) ((c : Thread nD τ).loc b))

/-! ## The operands' blocks -/

/-- Operand w's block at grid point t, read off its array as the launch finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input operand's staging buffer holds its block at every point, whether the pipeline fetched it there or kept
    it from the point before (the block index did not move): for any proof data over V whose body leaves inputs alone. -/
theorem held0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem held0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem held0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem held0_3 {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
theorem held0_4 {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)
theorem held0_5 {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: every load and store is of a whole block -/

abbrev rIn0 : Rect S3200x64 := Rect.unit (s := S3200x64) ![0, 0] S3200x64.size inb_S3200x64_S3200x64_0_0
abbrev rW0 : Rect S64x32 := Rect.unit (s := S64x32) ![0, 0] S64x32.size inb_S64x32_S64x32_0_0
abbrev rB0 : Rect S1x32 := Rect.unit (s := S1x32) ![0, 0] S1x32.size inb_S1x32_S1x32_0_0
abbrev rOut0 : Rect S3200x32 := Rect.unit (s := S3200x32) ![0, 0] S3200x32.size inb_S3200x32_S3200x32_0_0

/-! ## What the body leaves in the two result blocks -/

/-- The new embedding's block: leaky-relu((x0+x1)·W1 + b1) + leaky-relu((x0⊙x1)·W2 + b2), the body's one store. -/
def newEgo0 (x0 x1 : Vec F S3200x64 .f32) (x2 : Vec F S64x32 .f32) (x3 : Vec F S1x32 .f32) (x4 : Vec F S64x32 .f32) (x5 : Vec F S1x32 .f32) : Vec F S3200x32 .f32 :=
  View.canon [⟨rOut0, k0_pay2 (View.ld x0 rIn0) (View.ld x1 rIn0) (View.ld x2 rW0) (View.ld x4 rW0) (View.ld x3 rB0) (View.ld x5 rB0)⟩]

/-- The normalised block: each row of the new embedding divided by max(its Euclidean norm, ε). -/
def normed0 (x0 x1 : Vec F S3200x64 .f32) (x2 : Vec F S64x32 .f32) (x3 : Vec F S1x32 .f32) (x4 : Vec F S64x32 .f32) (x5 : Vec F S1x32 .f32) : Vec F S3200x32 .f32 :=
  View.canon [⟨rOut0, k0_pay1 (k0_pay2 (View.ld x0 rIn0) (View.ld x1 rIn0) (View.ld x2 rW0) (View.ld x4 rW0) (View.ld x3 rB0) (View.ld x5 rB0))
    (k0_pay3 (View.ld x0 rIn0) (View.ld x1 rIn0) (View.ld x2 rW0) (View.ld x4 rW0) (View.ld x3 rB0) (View.ld x5 rB0))⟩]

/-- One whole-block store covers the block. -/
theorem covers0 (p0 : Vec F S3200x32 .f32) (y : S3200x32.Idx) :
    ∃ pc ∈ ([⟨rOut0, p0⟩] : List (View.Piece (Elt F) S3200x32 .f32)), y ∈ pc.1.set :=
  View.cover_of_tiled [⟨rOut0, p0⟩] S3200x32.size (by rfl) y

/-! ## The body's triple -/

set_option maxHeartbeats 4000000 in
/-- The body on whole staging buffers — the six inputs at contents x0 … x5, the two results at anything — runs to
    a state holding the inputs as they were and the results at newEgo0 / normed0 of the inputs. -/
theorem body_triple0 (c : Dev nD) (E : Set ℕ) (i : grid0.Coords)
    (arg1 : Memref sig .tc .vmem S3200x64 .f32) (harg1 : arg1.IsWhole) (arg2 : Memref sig .tc .vmem S3200x64 .f32) (harg2 : arg2.IsWhole)
    (arg3 : Memref sig .tc .vmem S64x32 .f32) (harg3 : arg3.IsWhole) (arg4 : Memref sig .tc .vmem S1x32 .f32) (harg4 : arg4.IsWhole)
    (arg5 : Memref sig .tc .vmem S64x32 .f32) (harg5 : arg5.IsWhole) (arg6 : Memref sig .tc .vmem S1x32 .f32) (harg6 : arg6.IsWhole)
    (arg7 : Memref sig .tc .vmem S3200x32 .f32) (harg7 : arg7.IsWhole) (arg8 : Memref sig .tc .vmem S3200x32 .f32) (harg8 : arg8.IsWhole)
    (x0 x1 : Vec F S3200x64 .f32) (x2 : Vec F S64x32 .f32) (x3 : Vec F S1x32 .f32) (x4 : Vec F S64x32 .f32) (x5 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (newEgo0 x0 x1 x2 x3 x4 x5) ∗ owns (c : Thread nD τ) arg8 fullShare (normed0 x0 x1 x2 x3 x4 x5)) -∗ K ⟨⟩))
      ⊢ wp frame (wpE (defs₀ (F := F)) Variants.none c none) E (cc0__bi_kernel i arg1 harg1 arg2 harg2 arg3 harg3 arg4 harg4 arg5 harg5 arg6 harg6 arg7 harg7 arg8 harg8) K := by
  simp only [cc0__bi_kernel_eq_skeleton]; unfold cc0__bi_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (covers0 _)
  iexists _; isplitr
  swap; · iexact H7
  ipureintro
  try dsimp only
  exact View.read_writes_eq_canon _ _ _ (covers0 _)

/-! ## The pipeline's proof data -/

/-- The launch's proof data on core c: the arrays as found (V); after the body at point t each input's buffer at its
    block and each result's at newEgo0 / normed0 of the input blocks; full shares, nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => newEgo0 (blk0 V c 0 t) (blk0 V c 1 t) (blk0 V c 2 t) (blk0 V c 3 t) (blk0 V c 4 t) (blk0 V c 5 t)
    | ⟨7, _⟩ => normed0 (blk0 V c 0 t) (blk0 V c 1 t) (blk0 V c 2 t) (blk0 V c 3 t) (blk0 V c 4 t) (blk0 V c 5 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = newEgo0 (blk0 V c 0 t) (blk0 V c 1 t) (blk0 V c 2 t) (blk0 V c 3 t) (blk0 V c 4 t) (blk0 V c 5 t) := by dsimp only [dat0]
theorem after0_7 (c : Dev nD) (t : Fin cfg0.N) : (dat0 V c).after 7 t = normed0 (blk0 V c 0 t) (blk0 V c 1 t) (blk0 V c 2 t) (blk0 V c 3 t) (blk0 V c 4 t) (blk0 V c 5 t) := by dsimp only [dat0]

theorem before0_0 (c : Dev nD) (t : Fin cfg0.N) (d) : (dat0 V c).before 0 t d = blk0 V c 0 t := held0_0 V (dat0 V c) (dat0_A V c 0) (after0_0 V c) t d
theorem before0_1 (c : Dev nD) (t : Fin cfg0.N) (d) : (dat0 V c).before 1 t d = blk0 V c 1 t := held0_1 V (dat0 V c) (dat0_A V c 1) (after0_1 V c) t d
theorem before0_2 (c : Dev nD) (t : Fin cfg0.N) (d) : (dat0 V c).before 2 t d = blk0 V c 2 t := held0_2 V (dat0 V c) (dat0_A V c 2) (after0_2 V c) t d
theorem before0_3 (c : Dev nD) (t : Fin cfg0.N) (d) : (dat0 V c).before 3 t d = blk0 V c 3 t := held0_3 V (dat0 V c) (dat0_A V c 3) (after0_3 V c) t d
theorem before0_4 (c : Dev nD) (t : Fin cfg0.N) (d) : (dat0 V c).before 4 t d = blk0 V c 4 t := held0_4 V (dat0 V c) (dat0_A V c 4) (after0_4 V c) t d
theorem before0_5 (c : Dev nD) (t : Fin cfg0.N) (d) : (dat0 V c).before 5 t d = blk0 V c 5 t := held0_5 V (dat0 V c) (dat0_A V c 5) (after0_5 V c) t d

/-! ## The body obligation, at a generic point -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the triple applies; the invariant and what the
    core owes pass through unread. -/
theorem body_at0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple0 c Set.univ _ _ _ _ _ _ _ _ _ _ _ _ _ _ _ _ _ (blk0 V c 0 t) (blk0 V c 1 t) (blk0 V c 2 t) (blk0 V c 3 t) (blk0 V c 4 t) (blk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline theorem's body obligation, at every point. -/
theorem body_obligation0 (c : Dev nD) : BodyObligation (dat0 (F := F) V c) (defs₀ (F := F)) Variants.none () Set.univ := fun t => by
  rw [bigSep_W0, bigSep_W0]
  exact body_at0 V c t

end Cert.Kernel.Layers

end
-- ==== Proof.Kernel.Layer1.lean ====
/-
  The second bi-interaction layer's kernel launch, seen from the buffers. The launch walks 50 grid points; at point t
  it stages rows 3200·t … 3200·t+3199 of the first layer's embedding and of its aggregated neighbour table (32 columns
  each) beside the two 32×16 weight tables and the two 1×16 bias rows, runs the body, and writes back the same rows of
  two 16-column results: the new embedding and its row-normalised copy. As for the first layer this module states, for
  ANY contents V the launch finds in the buffers: the block of each operand at a point; what the body leaves in the
  two result blocks as a function of the six operand blocks; the body's Hoare triple on whole staging buffers; the
  proof data the pipeline theorem takes; and the body obligation at every point. It holds at every float instance.
-/
import proofs.«112415_j84722524881132_1_alg».proof.Proof.Gen.Kernel.Launch
import proofs.«112415_j84722524881132_1_alg».proof.Proof.Gen.Kernel.Skeleton
import proofs.«112415_j84722524881132_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered: a parameter, instantiated by the run
variable (V : (c : Dev nD) → (b : Ref sig .tc) → Buf (Elt F) ((c : Thread nD τ).loc b))

/-! ## The operands' blocks -/

/-- Operand w's block at grid point t, read off its array as the launch finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input operand's staging buffer holds its block at every point, whether the pipeline fetched it there or kept
    it from the point before (the block index did not move): for any proof data over V whose body leaves inputs alone. -/
theorem held1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem held1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem held1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem held1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem held1_4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem held1_5 {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: every load and store is of a whole block -/

abbrev rIn1 : Rect S3200x32 := Rect.unit (s := S3200x32) ![0, 0] S3200x32.size inb_S3200x32_S3200x32_0_0
abbrev rW1 : Rect S32x16 := Rect.unit (s := S32x16) ![0, 0] S32x16.size inb_S32x16_S32x16_0_0
abbrev rB1 : Rect S1x16 := Rect.unit (s := S1x16) ![0, 0] S1x16.size inb_S1x16_S1x16_0_0
abbrev rOut1 : Rect S3200x16 := Rect.unit (s := S3200x16) ![0, 0] S3200x16.size inb_S3200x16_S3200x16_0_0

/-! ## What the body leaves in the two result blocks -/

/-- The new embedding's block: leaky-relu((x0+x1)·W1 + b1) + leaky-relu((x0⊙x1)·W2 + b2), the body's one store. -/
def newEgo1 (x0 x1 : Vec F S3200x32 .f32) (x2 : Vec F S32x16 .f32) (x3 : Vec F S1x16 .f32) (x4 : Vec F S32x16 .f32) (x5 : Vec F S1x16 .f32) : Vec F S3200x16 .f32 :=
  View.canon [⟨rOut1, k1_pay2 (View.ld x0 rIn1) (View.ld x1 rIn1) (View.ld x2 rW1) (View.ld x4 rW1) (View.ld x3 rB1) (View.ld x5 rB1)⟩]

/-- The normalised block: each row of the new embedding divided by max(its Euclidean norm, ε). -/
def normed1 (x0 x1 : Vec F S3200x32 .f32) (x2 : Vec F S32x16 .f32) (x3 : Vec F S1x16 .f32) (x4 : Vec F S32x16 .f32) (x5 : Vec F S1x16 .f32) : Vec F S3200x16 .f32 :=
  View.canon [⟨rOut1, k1_pay1 (k1_pay2 (View.ld x0 rIn1) (View.ld x1 rIn1) (View.ld x2 rW1) (View.ld x4 rW1) (View.ld x3 rB1) (View.ld x5 rB1))
    (k1_pay3 (View.ld x0 rIn1) (View.ld x1 rIn1) (View.ld x2 rW1) (View.ld x4 rW1) (View.ld x3 rB1) (View.ld x5 rB1))⟩]

/-- One whole-block store covers the block. -/
theorem covers1 (p0 : Vec F S3200x16 .f32) (y : S3200x16.Idx) :
    ∃ pc ∈ ([⟨rOut1, p0⟩] : List (View.Piece (Elt F) S3200x16 .f32)), y ∈ pc.1.set :=
  View.cover_of_tiled [⟨rOut1, p0⟩] S3200x16.size (by rfl) y

/-! ## The body's triple -/

set_option maxHeartbeats 4000000 in
/-- The body on whole staging buffers — the six inputs at contents x0 … x5, the two results at anything — runs to
    a state holding the inputs as they were and the results at newEgo1 / normed1 of the inputs. -/
theorem body_triple1 (c : Dev nD) (E : Set ℕ) (i : grid1.Coords)
    (arg1 : Memref sig .tc .vmem S3200x32 .f32) (harg1 : arg1.IsWhole) (arg2 : Memref sig .tc .vmem S3200x32 .f32) (harg2 : arg2.IsWhole)
    (arg3 : Memref sig .tc .vmem S32x16 .f32) (harg3 : arg3.IsWhole) (arg4 : Memref sig .tc .vmem S1x16 .f32) (harg4 : arg4.IsWhole)
    (arg5 : Memref sig .tc .vmem S32x16 .f32) (harg5 : arg5.IsWhole) (arg6 : Memref sig .tc .vmem S1x16 .f32) (harg6 : arg6.IsWhole)
    (arg7 : Memref sig .tc .vmem S3200x16 .f32) (harg7 : arg7.IsWhole) (arg8 : Memref sig .tc .vmem S3200x16 .f32) (harg8 : arg8.IsWhole)
    (x0 x1 : Vec F S3200x32 .f32) (x2 : Vec F S32x16 .f32) (x3 : Vec F S1x16 .f32) (x4 : Vec F S32x16 .f32) (x5 : Vec F S1x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (newEgo1 x0 x1 x2 x3 x4 x5) ∗ owns (c : Thread nD τ) arg8 fullShare (normed1 x0 x1 x2 x3 x4 x5)) -∗ K ⟨⟩))
      ⊢ wp frame (wpE (defs₀ (F := F)) Variants.none c none) E (cc1__bi_kernel i arg1 harg1 arg2 harg2 arg3 harg3 arg4 harg4 arg5 harg5 arg6 harg6 arg7 harg7 arg8 harg8) K := by
  simp only [cc1__bi_kernel_eq_skeleton]; unfold cc1__bi_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (covers1 _)
  iexists _; isplitr
  swap; · iexact H7
  ipureintro
  try dsimp only
  exact View.read_writes_eq_canon _ _ _ (covers1 _)

/-! ## The pipeline's proof data -/

/-- The launch's proof data on core c: the arrays as found (V); after the body at point t each input's buffer at its
    block and each result's at newEgo1 / normed1 of the input blocks; full shares, nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => newEgo1 (blk1 V c 0 t) (blk1 V c 1 t) (blk1 V c 2 t) (blk1 V c 3 t) (blk1 V c 4 t) (blk1 V c 5 t)
    | ⟨7, _⟩ => normed1 (blk1 V c 0 t) (blk1 V c 1 t) (blk1 V c 2 t) (blk1 V c 3 t) (blk1 V c 4 t) (blk1 V c 5 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = newEgo1 (blk1 V c 0 t) (blk1 V c 1 t) (blk1 V c 2 t) (blk1 V c 3 t) (blk1 V c 4 t) (blk1 V c 5 t) := by dsimp only [dat1]
theorem after1_7 (c : Dev nD) (t : Fin cfg1.N) : (dat1 V c).after 7 t = normed1 (blk1 V c 0 t) (blk1 V c 1 t) (blk1 V c 2 t) (blk1 V c 3 t) (blk1 V c 4 t) (blk1 V c 5 t) := by dsimp only [dat1]

theorem before1_0 (c : Dev nD) (t : Fin cfg1.N) (d) : (dat1 V c).before 0 t d = blk1 V c 0 t := held1_0 V (dat1 V c) (dat1_A V c 0) (after1_0 V c) t d
theorem before1_1 (c : Dev nD) (t : Fin cfg1.N) (d) : (dat1 V c).before 1 t d = blk1 V c 1 t := held1_1 V (dat1 V c) (dat1_A V c 1) (after1_1 V c) t d
theorem before1_2 (c : Dev nD) (t : Fin cfg1.N) (d) : (dat1 V c).before 2 t d = blk1 V c 2 t := held1_2 V (dat1 V c) (dat1_A V c 2) (after1_2 V c) t d
theorem before1_3 (c : Dev nD) (t : Fin cfg1.N) (d) : (dat1 V c).before 3 t d = blk1 V c 3 t := held1_3 V (dat1 V c) (dat1_A V c 3) (after1_3 V c) t d
theorem before1_4 (c : Dev nD) (t : Fin cfg1.N) (d) : (dat1 V c).before 4 t d = blk1 V c 4 t := held1_4 V (dat1 V c) (dat1_A V c 4) (after1_4 V c) t d
theorem before1_5 (c : Dev nD) (t : Fin cfg1.N) (d) : (dat1 V c).before 5 t d = blk1 V c 5 t := held1_5 V (dat1 V c) (dat1_A V c 5) (after1_5 V c) t d

/-! ## The body obligation, at a generic point -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the triple applies; the invariant and what the
    core owes pass through unread. -/
theorem body_at1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple1 c Set.univ _ _ _ _ _ _ _ _ _ _ _ _ _ _ _ _ _ (blk1 V c 0 t) (blk1 V c 1 t) (blk1 V c 2 t) (blk1 V c 3 t) (blk1 V c 4 t) (blk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline theorem's body obligation, at every point. -/
theorem body_obligation1 (c : Dev nD) : BodyObligation (dat1 (F := F) V c) (defs₀ (F := F)) Variants.none () Set.univ := fun t => by
  rw [bigSep_W1, bigSep_W1]
  exact body_at1 V c t

end Cert.Kernel.Layers

end
-- ==== Proof.Kernel.Run.lean ====
/-
  The whole program run, seen from the buffers. The program is five stretches in a row: host operations (the first
  neighbour aggregation and two bias rows), the first layer's launch, host operations again (the second aggregation
  and two bias rows), the second layer's launch, and one last host operation joining three tables side by side. This
  module names the buffers' contents at each of the six boundaries as a fold from the launch memory — a host stretch
  applies its operations, a launch replaces its operands' arrays by what its write-backs leave and touches nothing
  else — and proves that every weakly fair execution terminates without a fault with every unscoped buffer at the last
  boundary's contents. No host stretch and no launch writes an argument, so each argument ends as launched.
  It holds at every float instance.
-/
import proofs.«112415_j84722524881132_1_alg».proof.Proof.Kernel.Layer0
import proofs.«112415_j84722524881132_1_alg».proof.Proof.Kernel.Layer1
import proofs.«112415_j84722524881132_1_alg».proof.Proof.Gen.Kernel.Regions

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch: what the first layer's launch finds. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first layer's launch: its operands' arrays at what the pipeline leaves, every other buffer as found. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An operand the first launch only reads keeps its contents. -/
theorem W2_of_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (dat0_A (V1 m ρ) c w))
abbrev V2 : (c : Dev nD) → (b : Ref sig .tc) → Buf (Elt F) ((c : Thread nD τ).loc b) := fun c b => W2 m ρ c b
theorem left0 (c : Dev nD) (w : Fin cfg0.W) : (dat0 (V1 m ρ) c).arrAt w cfg0.N = V2 m ρ c (Pipeline.arrRef spec0 w) :=
  (W2_arr m ρ c w).symm
theorem rest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what the second layer's launch finds. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second layer's launch. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (dat1_A (V3 m ρ) c w))
abbrev V4 : (c : Dev nD) → (b : Ref sig .tc) → Buf (Elt F) ((c : Thread nD τ).loc b) := fun c b => W4 m ρ c b
theorem left1 (c : Dev nD) (w : Fin cfg1.W) : (dat1 (V3 m ρ) c).arrAt w cfg1.N = V4 m ρ c (Pipeline.arrRef spec1 w) :=
  (W4_arr m ρ c w).symm
theorem rest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: the contents the program ends with. -/
abbrev W5 : Dev nD → Valuation τ sig (Elt F) := fun c => StableHlo.after hostOps2 (W4 m ρ c)

/-! ### A buffer no host stretch writes -/

theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h
theorem W5_keep (c : Dev nD) (r : Ref sig .tc) (h : r ∉ hostOps2_W) : W5 m ρ c (Proc.devRef .tc r) = W4 m ρ c (Proc.devRef .tc r) :=
  StableHlo.after_of_writes_sub hostOps2 _ hostOps2_writes h

/-! ### The arguments end as launched -/

theorem W5_main_arg0 (c : Dev nD) : W5 m ρ c (Proc.devRef .tc main_arg0) = m ((c : Thread nD τ).loc main_arg0) :=
  (W5_keep m ρ c main_arg0 (by decide)).trans <| (W4_of_ne m ρ c main_arg0 (by decide)).trans <| (W3_keep m ρ c main_arg0 (by decide)).trans <|
    (W2_of_in m ρ c 0 rfl).trans <| (W1_keep m ρ c main_arg0 (by decide)).trans rfl
theorem W5_main_arg1 (c : Dev nD) : W5 m ρ c (Proc.devRef .tc main_arg1) = m ((c : Thread nD τ).loc main_arg1) :=
  (W5_keep m ρ c main_arg1 (by decide)).trans <| (W4_of_ne m ρ c main_arg1 (by decide)).trans <| (W3_keep m ρ c main_arg1 (by decide)).trans <|
    (W2_of_ne m ρ c main_arg1 (by decide)).trans <| (W1_keep m ρ c main_arg1 (by decide)).trans rfl
theorem W5_main_arg2 (c : Dev nD) : W5 m ρ c (Proc.devRef .tc main_arg2) = m ((c : Thread nD τ).loc main_arg2) :=
  (W5_keep m ρ c main_arg2 (by decide)).trans <| (W4_of_ne m ρ c main_arg2 (by decide)).trans <| (W3_keep m ρ c main_arg2 (by decide)).trans <|
    (W2_of_ne m ρ c main_arg2 (by decide)).trans <| (W1_keep m ρ c main_arg2 (by decide)).trans rfl
theorem W5_main_arg3 (c : Dev nD) : W5 m ρ c (Proc.devRef .tc main_arg3) = m ((c : Thread nD τ).loc main_arg3) :=
  (W5_keep m ρ c main_arg3 (by decide)).trans <| (W4_of_ne m ρ c main_arg3 (by decide)).trans <| (W3_keep m ρ c main_arg3 (by decide)).trans <|
    (W2_of_ne m ρ c main_arg3 (by decide)).trans <| (W1_keep m ρ c main_arg3 (by decide)).trans rfl
theorem W5_main_arg4 (c : Dev nD) : W5 m ρ c (Proc.devRef .tc main_arg4) = m ((c : Thread nD τ).loc main_arg4) :=
  (W5_keep m ρ c main_arg4 (by decide)).trans <| (W4_of_ne m ρ c main_arg4 (by decide)).trans <| (W3_keep m ρ c main_arg4 (by decide)).trans <|
    (W2_of_in m ρ c 2 rfl).trans <| (W1_keep m ρ c main_arg4 (by decide)).trans rfl
theorem W5_main_arg5 (c : Dev nD) : W5 m ρ c (Proc.devRef .tc main_arg5) = m ((c : Thread nD τ).loc main_arg5) :=
  (W5_keep m ρ c main_arg5 (by decide)).trans <| (W4_of_ne m ρ c main_arg5 (by decide)).trans <| (W3_keep m ρ c main_arg5 (by decide)).trans <|
    (W2_of_ne m ρ c main_arg5 (by decide)).trans <| (W1_keep m ρ c main_arg5 (by decide)).trans rfl
theorem W5_main_arg6 (c : Dev nD) : W5 m ρ c (Proc.devRef .tc main_arg6) = m ((c : Thread nD τ).loc main_arg6) :=
  (W5_keep m ρ c main_arg6 (by decide)).trans <| (W4_of_ne m ρ c main_arg6 (by decide)).trans <| (W3_keep m ρ c main_arg6 (by decide)).trans <|
    (W2_of_in m ρ c 4 rfl).trans <| (W1_keep m ρ c main_arg6 (by decide)).trans rfl
theorem W5_main_arg7 (c : Dev nD) : W5 m ρ c (Proc.devRef .tc main_arg7) = m ((c : Thread nD τ).loc main_arg7) :=
  (W5_keep m ρ c main_arg7 (by decide)).trans <| (W4_of_ne m ρ c main_arg7 (by decide)).trans <| (W3_keep m ρ c main_arg7 (by decide)).trans <|
    (W2_of_ne m ρ c main_arg7 (by decide)).trans <| (W1_keep m ρ c main_arg7 (by decide)).trans rfl
theorem W5_main_arg8 (c : Dev nD) : W5 m ρ c (Proc.devRef .tc main_arg8) = m ((c : Thread nD τ).loc main_arg8) :=
  (W5_keep m ρ c main_arg8 (by decide)).trans <| (W4_of_in m ρ c 2 rfl).trans <| (W3_keep m ρ c main_arg8 (by decide)).trans <|
    (W2_of_ne m ρ c main_arg8 (by decide)).trans <| (W1_keep m ρ c main_arg8 (by decide)).trans rfl
theorem W5_main_arg9 (c : Dev nD) : W5 m ρ c (Proc.devRef .tc main_arg9) = m ((c : Thread nD τ).loc main_arg9) :=
  (W5_keep m ρ c main_arg9 (by decide)).trans <| (W4_of_ne m ρ c main_arg9 (by decide)).trans <| (W3_keep m ρ c main_arg9 (by decide)).trans <|
    (W2_of_ne m ρ c main_arg9 (by decide)).trans <| (W1_keep m ρ c main_arg9 (by decide)).trans rfl
theorem W5_main_arg10 (c : Dev nD) : W5 m ρ c (Proc.devRef .tc main_arg10) = m ((c : Thread nD τ).loc main_arg10) :=
  (W5_keep m ρ c main_arg10 (by decide)).trans <| (W4_of_in m ρ c 4 rfl).trans <| (W3_keep m ρ c main_arg10 (by decide)).trans <|
    (W2_of_ne m ρ c main_arg10 (by decide)).trans <| (W1_keep m ρ c main_arg10 (by decide)).trans rfl
theorem W5_main_arg11 (c : Dev nD) : W5 m ρ c (Proc.devRef .tc main_arg11) = m ((c : Thread nD τ).loc main_arg11) :=
  (W5_keep m ρ c main_arg11 (by decide)).trans <| (W4_of_ne m ρ c main_arg11 (by decide)).trans <| (W3_keep m ρ c main_arg11 (by decide)).trans <|
    (W2_of_ne m ρ c main_arg11 (by decide)).trans <| (W1_keep m ρ c main_arg11 (by decide)).trans rfl

/-! ## The proof data family and the thread state -/

/-- No launch has a prefetched table. -/
abbrev tables : (p : Fin 2) → (pcfgs (F := F) p).Adm := fun p => (cfgs p).toPCfg_adm
/-- Each launch's proof data at the contents it finds. -/
def pdats : (p : Fin 2) → (c : Dev nD) → Dat τ (Elt F) Unit ℕ (UR sig nD τ) ℕ (Pipeline.pin (pcfgs (F := F)) tables p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every stretch: the core's generator register at some state, nothing owed. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without what is owed: every unscoped buffer at the final contents, the generator register at some state. -/
abbrev Tₙ (c : Dev nD) : sProp 𝕄 := iprop(StableHlo.held (c : Thread nD τ) (Pipeline.ucRefs τ sig) (W5 m ρ c) ∗ ∃ r, prngReg c r)

/-! ## The launches as segments -/

set_option backward.isDefEq.respectTransparency.types false in
/-- The first layer's launch over the thread state: entered with every unscoped buffer at W1, left with them at W2. Its
    operands' arrays are split out of the unscoped buffers and put back at what the pipeline leaves. -/
def reg0 : Pipeline.RegionSeg (pcfgs (F := F)) tables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) tables (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (left0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's launch over the thread state: entered at W3, left at W4. -/
def reg1 : Pipeline.RegionSeg (pcfgs (F := F)) tables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) tables (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (left1 m ρ c) (rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The program's five stretches in order. -/
abbrev segs : List (Pipeline.Seg (pcfgs (F := F)) tables (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

/-- The printed program is the run of these segments. -/
theorem main_run (c : Dev nD) : main (F := F) c = Pipeline.Seg.run (segs m ρ) :=
  main_segs tables (pdats m ρ) () 𝒱₀ L lv _ _ _ (reg0 m ρ) (reg1 m ρ) rfl rfl rfl c

set_option backward.isDefEq.respectTransparency.types false in
/-- THE RUN: from any memory with zero counters, every weakly fair execution of the program terminates, nothing
    faulting, and every final state holds each unscoped buffer at the last boundary's contents W5. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) tables (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c)⟩) (run m ρ)

end Cert.Kernel.Layers

end
-- ==== Proof.KernelIdeal.Layer0.lean ====
/-
  The first bi-interaction layer's kernel launch, seen from the buffers. The launch walks 50 grid points; at point t
  it stages rows 3200·t … 3200·t+3199 of the node table and of the aggregated neighbour table (64 columns each)
  beside the two 64×32 weight tables and the two 1×32 bias rows, runs the body, and writes back the same rows of two
  32-column results: the new embedding and its row-normalised copy. This module states, for ANY contents V the launch
  finds in the buffers: the block of each operand at a point; what the body leaves in the two result blocks as a
  function of the six operand blocks (the body's one store per result, read back whole); the body's Hoare triple on
  whole staging buffers; the proof data the pipeline theorem takes; and the body obligation at every point. It holds
  at every float instance.
-/
import proofs.«112415_j84722524881132_1_alg».proof.Proof.Gen.KernelIdeal.Launch
import proofs.«112415_j84722524881132_1_alg».proof.Proof.Gen.KernelIdeal.Skeleton
import proofs.«112415_j84722524881132_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered: a parameter, instantiated by the run
variable (V : (c : Dev nD) → (b : Ref sig .tc) → Buf (Elt F) ((c : Thread nD τ).loc b))

/-! ## The operands' blocks -/

/-- Operand w's block at grid point t, read off its array as the launch finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input operand's staging buffer holds its block at every point, whether the pipeline fetched it there or kept
    it from the point before (the block index did not move): for any proof data over V whose body leaves inputs alone. -/
theorem held0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem held0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem held0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem held0_3 {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
theorem held0_4 {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)
theorem held0_5 {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: every load and store is of a whole block -/

abbrev rIn0 : Rect S3200x64 := Rect.unit (s := S3200x64) ![0, 0] S3200x64.size inb_S3200x64_S3200x64_0_0
abbrev rW0 : Rect S64x32 := Rect.unit (s := S64x32) ![0, 0] S64x32.size inb_S64x32_S64x32_0_0
abbrev rB0 : Rect S1x32 := Rect.unit (s := S1x32) ![0, 0] S1x32.size inb_S1x32_S1x32_0_0
abbrev rOut0 : Rect S3200x32 := Rect.unit (s := S3200x32) ![0, 0] S3200x32.size inb_S3200x32_S3200x32_0_0

/-! ## What the body leaves in the two result blocks -/

/-- The new embedding's block: leaky-relu((x0+x1)·W1 + b1) + leaky-relu((x0⊙x1)·W2 + b2), the body's one store. -/
def newEgo0 (x0 x1 : Vec F S3200x64 .f32) (x2 : Vec F S64x32 .f32) (x3 : Vec F S1x32 .f32) (x4 : Vec F S64x32 .f32) (x5 : Vec F S1x32 .f32) : Vec F S3200x32 .f32 :=
  View.canon [⟨rOut0, k0_pay2 (View.ld x0 rIn0) (View.ld x1 rIn0) (View.ld x2 rW0) (View.ld x4 rW0) (View.ld x3 rB0) (View.ld x5 rB0)⟩]

/-- The normalised block: each row of the new embedding divided by max(its Euclidean norm, ε). -/
def normed0 (x0 x1 : Vec F S3200x64 .f32) (x2 : Vec F S64x32 .f32) (x3 : Vec F S1x32 .f32) (x4 : Vec F S64x32 .f32) (x5 : Vec F S1x32 .f32) : Vec F S3200x32 .f32 :=
  View.canon [⟨rOut0, k0_pay1 (k0_pay2 (View.ld x0 rIn0) (View.ld x1 rIn0) (View.ld x2 rW0) (View.ld x4 rW0) (View.ld x3 rB0) (View.ld x5 rB0))
    (k0_pay3 (View.ld x0 rIn0) (View.ld x1 rIn0) (View.ld x2 rW0) (View.ld x4 rW0) (View.ld x3 rB0) (View.ld x5 rB0))⟩]

/-- One whole-block store covers the block. -/
theorem covers0 (p0 : Vec F S3200x32 .f32) (y : S3200x32.Idx) :
    ∃ pc ∈ ([⟨rOut0, p0⟩] : List (View.Piece (Elt F) S3200x32 .f32)), y ∈ pc.1.set :=
  View.cover_of_tiled [⟨rOut0, p0⟩] S3200x32.size (by rfl) y

/-! ## The body's triple -/

set_option maxHeartbeats 4000000 in
/-- The body on whole staging buffers — the six inputs at contents x0 … x5, the two results at anything — runs to
    a state holding the inputs as they were and the results at newEgo0 / normed0 of the inputs. -/
theorem body_triple0 (c : Dev nD) (E : Set ℕ) (i : grid0.Coords)
    (arg1 : Memref sig .tc .vmem S3200x64 .f32) (harg1 : arg1.IsWhole) (arg2 : Memref sig .tc .vmem S3200x64 .f32) (harg2 : arg2.IsWhole)
    (arg3 : Memref sig .tc .vmem S64x32 .f32) (harg3 : arg3.IsWhole) (arg4 : Memref sig .tc .vmem S1x32 .f32) (harg4 : arg4.IsWhole)
    (arg5 : Memref sig .tc .vmem S64x32 .f32) (harg5 : arg5.IsWhole) (arg6 : Memref sig .tc .vmem S1x32 .f32) (harg6 : arg6.IsWhole)
    (arg7 : Memref sig .tc .vmem S3200x32 .f32) (harg7 : arg7.IsWhole) (arg8 : Memref sig .tc .vmem S3200x32 .f32) (harg8 : arg8.IsWhole)
    (x0 x1 : Vec F S3200x64 .f32) (x2 : Vec F S64x32 .f32) (x3 : Vec F S1x32 .f32) (x4 : Vec F S64x32 .f32) (x5 : Vec F S1x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (newEgo0 x0 x1 x2 x3 x4 x5) ∗ owns (c : Thread nD τ) arg8 fullShare (normed0 x0 x1 x2 x3 x4 x5)) -∗ K ⟨⟩))
      ⊢ wp frame (wpE (defs₀ (F := F)) Variants.none c none) E (cc0__bi_kernel i arg1 harg1 arg2 harg2 arg3 harg3 arg4 harg4 arg5 harg5 arg6 harg6 arg7 harg7 arg8 harg8) K := by
  simp only [cc0__bi_kernel_eq_skeleton]; unfold cc0__bi_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (covers0 _)
  iexists _; isplitr
  swap; · iexact H7
  ipureintro
  try dsimp only
  exact View.read_writes_eq_canon _ _ _ (covers0 _)

/-! ## The pipeline's proof data -/

/-- The launch's proof data on core c: the arrays as found (V); after the body at point t each input's buffer at its
    block and each result's at newEgo0 / normed0 of the input blocks; full shares, nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => newEgo0 (blk0 V c 0 t) (blk0 V c 1 t) (blk0 V c 2 t) (blk0 V c 3 t) (blk0 V c 4 t) (blk0 V c 5 t)
    | ⟨7, _⟩ => normed0 (blk0 V c 0 t) (blk0 V c 1 t) (blk0 V c 2 t) (blk0 V c 3 t) (blk0 V c 4 t) (blk0 V c 5 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = newEgo0 (blk0 V c 0 t) (blk0 V c 1 t) (blk0 V c 2 t) (blk0 V c 3 t) (blk0 V c 4 t) (blk0 V c 5 t) := by dsimp only [dat0]
theorem after0_7 (c : Dev nD) (t : Fin cfg0.N) : (dat0 V c).after 7 t = normed0 (blk0 V c 0 t) (blk0 V c 1 t) (blk0 V c 2 t) (blk0 V c 3 t) (blk0 V c 4 t) (blk0 V c 5 t) := by dsimp only [dat0]

theorem before0_0 (c : Dev nD) (t : Fin cfg0.N) (d) : (dat0 V c).before 0 t d = blk0 V c 0 t := held0_0 V (dat0 V c) (dat0_A V c 0) (after0_0 V c) t d
theorem before0_1 (c : Dev nD) (t : Fin cfg0.N) (d) : (dat0 V c).before 1 t d = blk0 V c 1 t := held0_1 V (dat0 V c) (dat0_A V c 1) (after0_1 V c) t d
theorem before0_2 (c : Dev nD) (t : Fin cfg0.N) (d) : (dat0 V c).before 2 t d = blk0 V c 2 t := held0_2 V (dat0 V c) (dat0_A V c 2) (after0_2 V c) t d
theorem before0_3 (c : Dev nD) (t : Fin cfg0.N) (d) : (dat0 V c).before 3 t d = blk0 V c 3 t := held0_3 V (dat0 V c) (dat0_A V c 3) (after0_3 V c) t d
theorem before0_4 (c : Dev nD) (t : Fin cfg0.N) (d) : (dat0 V c).before 4 t d = blk0 V c 4 t := held0_4 V (dat0 V c) (dat0_A V c 4) (after0_4 V c) t d
theorem before0_5 (c : Dev nD) (t : Fin cfg0.N) (d) : (dat0 V c).before 5 t d = blk0 V c 5 t := held0_5 V (dat0 V c) (dat0_A V c 5) (after0_5 V c) t d

/-! ## The body obligation, at a generic point -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the triple applies; the invariant and what the
    core owes pass through unread. -/
theorem body_at0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple0 c Set.univ _ _ _ _ _ _ _ _ _ _ _ _ _ _ _ _ _ (blk0 V c 0 t) (blk0 V c 1 t) (blk0 V c 2 t) (blk0 V c 3 t) (blk0 V c 4 t) (blk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline theorem's body obligation, at every point. -/
theorem body_obligation0 (c : Dev nD) : BodyObligation (dat0 (F := F) V c) (defs₀ (F := F)) Variants.none () Set.univ := fun t => by
  rw [bigSep_W0, bigSep_W0]
  exact body_at0 V c t

end Cert.KernelIdeal.Layers

end
-- ==== Proof.KernelIdeal.Layer1.lean ====
/-
  The second bi-interaction layer's kernel launch, seen from the buffers. The launch walks 50 grid points; at point t
  it stages rows 3200·t … 3200·t+3199 of the first layer's embedding and of its aggregated neighbour table (32 columns
  each) beside the two 32×16 weight tables and the two 1×16 bias rows, runs the body, and writes back the same rows of
  two 16-column results: the new embedding and its row-normalised copy. As for the first layer this module states, for
  ANY contents V the launch finds in the buffers: the block of each operand at a point; what the body leaves in the
  two result blocks as a function of the six operand blocks; the body's Hoare triple on whole staging buffers; the
  proof data the pipeline theorem takes; and the body obligation at every point. It holds at every float instance.
-/
import proofs.«112415_j84722524881132_1_alg».proof.Proof.Gen.KernelIdeal.Launch
import proofs.«112415_j84722524881132_1_alg».proof.Proof.Gen.KernelIdeal.Skeleton
import proofs.«112415_j84722524881132_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered: a parameter, instantiated by the run
variable (V : (c : Dev nD) → (b : Ref sig .tc) → Buf (Elt F) ((c : Thread nD τ).loc b))

/-! ## The operands' blocks -/

/-- Operand w's block at grid point t, read off its array as the launch finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input operand's staging buffer holds its block at every point, whether the pipeline fetched it there or kept
    it from the point before (the block index did not move): for any proof data over V whose body leaves inputs alone. -/
theorem held1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem held1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem held1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem held1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem held1_4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem held1_5 {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: every load and store is of a whole block -/

abbrev rIn1 : Rect S3200x32 := Rect.unit (s := S3200x32) ![0, 0] S3200x32.size inb_S3200x32_S3200x32_0_0
abbrev rW1 : Rect S32x16 := Rect.unit (s := S32x16) ![0, 0] S32x16.size inb_S32x16_S32x16_0_0
abbrev rB1 : Rect S1x16 := Rect.unit (s := S1x16) ![0, 0] S1x16.size inb_S1x16_S1x16_0_0
abbrev rOut1 : Rect S3200x16 := Rect.unit (s := S3200x16) ![0, 0] S3200x16.size inb_S3200x16_S3200x16_0_0

/-! ## What the body leaves in the two result blocks -/

/-- The new embedding's block: leaky-relu((x0+x1)·W1 + b1) + leaky-relu((x0⊙x1)·W2 + b2), the body's one store. -/
def newEgo1 (x0 x1 : Vec F S3200x32 .f32) (x2 : Vec F S32x16 .f32) (x3 : Vec F S1x16 .f32) (x4 : Vec F S32x16 .f32) (x5 : Vec F S1x16 .f32) : Vec F S3200x16 .f32 :=
  View.canon [⟨rOut1, k1_pay2 (View.ld x0 rIn1) (View.ld x1 rIn1) (View.ld x2 rW1) (View.ld x4 rW1) (View.ld x3 rB1) (View.ld x5 rB1)⟩]

/-- The normalised block: each row of the new embedding divided by max(its Euclidean norm, ε). -/
def normed1 (x0 x1 : Vec F S3200x32 .f32) (x2 : Vec F S32x16 .f32) (x3 : Vec F S1x16 .f32) (x4 : Vec F S32x16 .f32) (x5 : Vec F S1x16 .f32) : Vec F S3200x16 .f32 :=
  View.canon [⟨rOut1, k1_pay1 (k1_pay2 (View.ld x0 rIn1) (View.ld x1 rIn1) (View.ld x2 rW1) (View.ld x4 rW1) (View.ld x3 rB1) (View.ld x5 rB1))
    (k1_pay3 (View.ld x0 rIn1) (View.ld x1 rIn1) (View.ld x2 rW1) (View.ld x4 rW1) (View.ld x3 rB1) (View.ld x5 rB1))⟩]

/-- One whole-block store covers the block. -/
theorem covers1 (p0 : Vec F S3200x16 .f32) (y : S3200x16.Idx) :
    ∃ pc ∈ ([⟨rOut1, p0⟩] : List (View.Piece (Elt F) S3200x16 .f32)), y ∈ pc.1.set :=
  View.cover_of_tiled [⟨rOut1, p0⟩] S3200x16.size (by rfl) y

/-! ## The body's triple -/

set_option maxHeartbeats 4000000 in
/-- The body on whole staging buffers — the six inputs at contents x0 … x5, the two results at anything — runs to
    a state holding the inputs as they were and the results at newEgo1 / normed1 of the inputs. -/
theorem body_triple1 (c : Dev nD) (E : Set ℕ) (i : grid1.Coords)
    (arg1 : Memref sig .tc .vmem S3200x32 .f32) (harg1 : arg1.IsWhole) (arg2 : Memref sig .tc .vmem S3200x32 .f32) (harg2 : arg2.IsWhole)
    (arg3 : Memref sig .tc .vmem S32x16 .f32) (harg3 : arg3.IsWhole) (arg4 : Memref sig .tc .vmem S1x16 .f32) (harg4 : arg4.IsWhole)
    (arg5 : Memref sig .tc .vmem S32x16 .f32) (harg5 : arg5.IsWhole) (arg6 : Memref sig .tc .vmem S1x16 .f32) (harg6 : arg6.IsWhole)
    (arg7 : Memref sig .tc .vmem S3200x16 .f32) (harg7 : arg7.IsWhole) (arg8 : Memref sig .tc .vmem S3200x16 .f32) (harg8 : arg8.IsWhole)
    (x0 x1 : Vec F S3200x32 .f32) (x2 : Vec F S32x16 .f32) (x3 : Vec F S1x16 .f32) (x4 : Vec F S32x16 .f32) (x5 : Vec F S1x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (newEgo1 x0 x1 x2 x3 x4 x5) ∗ owns (c : Thread nD τ) arg8 fullShare (normed1 x0 x1 x2 x3 x4 x5)) -∗ K ⟨⟩))
      ⊢ wp frame (wpE (defs₀ (F := F)) Variants.none c none) E (cc1__bi_kernel i arg1 harg1 arg2 harg2 arg3 harg3 arg4 harg4 arg5 harg5 arg6 harg6 arg7 harg7 arg8 harg8) K := by
  simp only [cc1__bi_kernel_eq_skeleton]; unfold cc1__bi_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (covers1 _)
  iexists _; isplitr
  swap; · iexact H7
  ipureintro
  try dsimp only
  exact View.read_writes_eq_canon _ _ _ (covers1 _)

/-! ## The pipeline's proof data -/

/-- The launch's proof data on core c: the arrays as found (V); after the body at point t each input's buffer at its
    block and each result's at newEgo1 / normed1 of the input blocks; full shares, nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => newEgo1 (blk1 V c 0 t) (blk1 V c 1 t) (blk1 V c 2 t) (blk1 V c 3 t) (blk1 V c 4 t) (blk1 V c 5 t)
    | ⟨7, _⟩ => normed1 (blk1 V c 0 t) (blk1 V c 1 t) (blk1 V c 2 t) (blk1 V c 3 t) (blk1 V c 4 t) (blk1 V c 5 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = newEgo1 (blk1 V c 0 t) (blk1 V c 1 t) (blk1 V c 2 t) (blk1 V c 3 t) (blk1 V c 4 t) (blk1 V c 5 t) := by dsimp only [dat1]
theorem after1_7 (c : Dev nD) (t : Fin cfg1.N) : (dat1 V c).after 7 t = normed1 (blk1 V c 0 t) (blk1 V c 1 t) (blk1 V c 2 t) (blk1 V c 3 t) (blk1 V c 4 t) (blk1 V c 5 t) := by dsimp only [dat1]

theorem before1_0 (c : Dev nD) (t : Fin cfg1.N) (d) : (dat1 V c).before 0 t d = blk1 V c 0 t := held1_0 V (dat1 V c) (dat1_A V c 0) (after1_0 V c) t d
theorem before1_1 (c : Dev nD) (t : Fin cfg1.N) (d) : (dat1 V c).before 1 t d = blk1 V c 1 t := held1_1 V (dat1 V c) (dat1_A V c 1) (after1_1 V c) t d
theorem before1_2 (c : Dev nD) (t : Fin cfg1.N) (d) : (dat1 V c).before 2 t d = blk1 V c 2 t := held1_2 V (dat1 V c) (dat1_A V c 2) (after1_2 V c) t d
theorem before1_3 (c : Dev nD) (t : Fin cfg1.N) (d) : (dat1 V c).before 3 t d = blk1 V c 3 t := held1_3 V (dat1 V c) (dat1_A V c 3) (after1_3 V c) t d
theorem before1_4 (c : Dev nD) (t : Fin cfg1.N) (d) : (dat1 V c).before 4 t d = blk1 V c 4 t := held1_4 V (dat1 V c) (dat1_A V c 4) (after1_4 V c) t d
theorem before1_5 (c : Dev nD) (t : Fin cfg1.N) (d) : (dat1 V c).before 5 t d = blk1 V c 5 t := held1_5 V (dat1 V c) (dat1_A V c 5) (after1_5 V c) t d

/-! ## The body obligation, at a generic point -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the triple applies; the invariant and what the
    core owes pass through unread. -/
theorem body_at1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple1 c Set.univ _ _ _ _ _ _ _ _ _ _ _ _ _ _ _ _ _ (blk1 V c 0 t) (blk1 V c 1 t) (blk1 V c 2 t) (blk1 V c 3 t) (blk1 V c 4 t) (blk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline theorem's body obligation, at every point. -/
theorem body_obligation1 (c : Dev nD) : BodyObligation (dat1 (F := F) V c) (defs₀ (F := F)) Variants.none () Set.univ := fun t => by
  rw [bigSep_W1, bigSep_W1]
  exact body_at1 V c t

end Cert.KernelIdeal.Layers

end
-- ==== Proof.KernelIdeal.Run.lean ====
/-
  The whole program run, seen from the buffers. The program is five stretches in a row: host operations (the first
  neighbour aggregation and two bias rows), the first layer's launch, host operations again (the second aggregation
  and two bias rows), the second layer's launch, and one last host operation joining three tables side by side. This
  module names the buffers' contents at each of the six boundaries as a fold from the launch memory — a host stretch
  applies its operations, a launch replaces its operands' arrays by what its write-backs leave and touches nothing
  else — and proves that every weakly fair execution terminates without a fault with every unscoped buffer at the last
  boundary's contents. No host stretch and no launch writes an argument, so each argument ends as launched.
  It holds at every float instance.
-/
import proofs.«112415_j84722524881132_1_alg».proof.Proof.KernelIdeal.Layer0
import proofs.«112415_j84722524881132_1_alg».proof.Proof.KernelIdeal.Layer1
import proofs.«112415_j84722524881132_1_alg».proof.Proof.Gen.KernelIdeal.Regions

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch: what the first layer's launch finds. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first layer's launch: its operands' arrays at what the pipeline leaves, every other buffer as found. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An operand the first launch only reads keeps its contents. -/
theorem W2_of_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (dat0_A (V1 m ρ) c w))
abbrev V2 : (c : Dev nD) → (b : Ref sig .tc) → Buf (Elt F) ((c : Thread nD τ).loc b) := fun c b => W2 m ρ c b
theorem left0 (c : Dev nD) (w : Fin cfg0.W) : (dat0 (V1 m ρ) c).arrAt w cfg0.N = V2 m ρ c (Pipeline.arrRef spec0 w) :=
  (W2_arr m ρ c w).symm
theorem rest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what the second layer's launch finds. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second layer's launch. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (dat1_A (V3 m ρ) c w))
abbrev V4 : (c : Dev nD) → (b : Ref sig .tc) → Buf (Elt F) ((c : Thread nD τ).loc b) := fun c b => W4 m ρ c b
theorem left1 (c : Dev nD) (w : Fin cfg1.W) : (dat1 (V3 m ρ) c).arrAt w cfg1.N = V4 m ρ c (Pipeline.arrRef spec1 w) :=
  (W4_arr m ρ c w).symm
theorem rest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: the contents the program ends with. -/
abbrev W5 : Dev nD → Valuation τ sig (Elt F) := fun c => StableHlo.after hostOps2 (W4 m ρ c)

/-! ### A buffer no host stretch writes -/

theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h
theorem W5_keep (c : Dev nD) (r : Ref sig .tc) (h : r ∉ hostOps2_W) : W5 m ρ c (Proc.devRef .tc r) = W4 m ρ c (Proc.devRef .tc r) :=
  StableHlo.after_of_writes_sub hostOps2 _ hostOps2_writes h

/-! ### The arguments end as launched -/

theorem W5_main_arg0 (c : Dev nD) : W5 m ρ c (Proc.devRef .tc main_arg0) = m ((c : Thread nD τ).loc main_arg0) :=
  (W5_keep m ρ c main_arg0 (by decide)).trans <| (W4_of_ne m ρ c main_arg0 (by decide)).trans <| (W3_keep m ρ c main_arg0 (by decide)).trans <|
    (W2_of_in m ρ c 0 rfl).trans <| (W1_keep m ρ c main_arg0 (by decide)).trans rfl
theorem W5_main_arg1 (c : Dev nD) : W5 m ρ c (Proc.devRef .tc main_arg1) = m ((c : Thread nD τ).loc main_arg1) :=
  (W5_keep m ρ c main_arg1 (by decide)).trans <| (W4_of_ne m ρ c main_arg1 (by decide)).trans <| (W3_keep m ρ c main_arg1 (by decide)).trans <|
    (W2_of_ne m ρ c main_arg1 (by decide)).trans <| (W1_keep m ρ c main_arg1 (by decide)).trans rfl
theorem W5_main_arg2 (c : Dev nD) : W5 m ρ c (Proc.devRef .tc main_arg2) = m ((c : Thread nD τ).loc main_arg2) :=
  (W5_keep m ρ c main_arg2 (by decide)).trans <| (W4_of_ne m ρ c main_arg2 (by decide)).trans <| (W3_keep m ρ c main_arg2 (by decide)).trans <|
    (W2_of_ne m ρ c main_arg2 (by decide)).trans <| (W1_keep m ρ c main_arg2 (by decide)).trans rfl
theorem W5_main_arg3 (c : Dev nD) : W5 m ρ c (Proc.devRef .tc main_arg3) = m ((c : Thread nD τ).loc main_arg3) :=
  (W5_keep m ρ c main_arg3 (by decide)).trans <| (W4_of_ne m ρ c main_arg3 (by decide)).trans <| (W3_keep m ρ c main_arg3 (by decide)).trans <|
    (W2_of_ne m ρ c main_arg3 (by decide)).trans <| (W1_keep m ρ c main_arg3 (by decide)).trans rfl
theorem W5_main_arg4 (c : Dev nD) : W5 m ρ c (Proc.devRef .tc main_arg4) = m ((c : Thread nD τ).loc main_arg4) :=
  (W5_keep m ρ c main_arg4 (by decide)).trans <| (W4_of_ne m ρ c main_arg4 (by decide)).trans <| (W3_keep m ρ c main_arg4 (by decide)).trans <|
    (W2_of_in m ρ c 2 rfl).trans <| (W1_keep m ρ c main_arg4 (by decide)).trans rfl
theorem W5_main_arg5 (c : Dev nD) : W5 m ρ c (Proc.devRef .tc main_arg5) = m ((c : Thread nD τ).loc main_arg5) :=
  (W5_keep m ρ c main_arg5 (by decide)).trans <| (W4_of_ne m ρ c main_arg5 (by decide)).trans <| (W3_keep m ρ c main_arg5 (by decide)).trans <|
    (W2_of_ne m ρ c main_arg5 (by decide)).trans <| (W1_keep m ρ c main_arg5 (by decide)).trans rfl
theorem W5_main_arg6 (c : Dev nD) : W5 m ρ c (Proc.devRef .tc main_arg6) = m ((c : Thread nD τ).loc main_arg6) :=
  (W5_keep m ρ c main_arg6 (by decide)).trans <| (W4_of_ne m ρ c main_arg6 (by decide)).trans <| (W3_keep m ρ c main_arg6 (by decide)).trans <|
    (W2_of_in m ρ c 4 rfl).trans <| (W1_keep m ρ c main_arg6 (by decide)).trans rfl
theorem W5_main_arg7 (c : Dev nD) : W5 m ρ c (Proc.devRef .tc main_arg7) = m ((c : Thread nD τ).loc main_arg7) :=
  (W5_keep m ρ c main_arg7 (by decide)).trans <| (W4_of_ne m ρ c main_arg7 (by decide)).trans <| (W3_keep m ρ c main_arg7 (by decide)).trans <|
    (W2_of_ne m ρ c main_arg7 (by decide)).trans <| (W1_keep m ρ c main_arg7 (by decide)).trans rfl
theorem W5_main_arg8 (c : Dev nD) : W5 m ρ c (Proc.devRef .tc main_arg8) = m ((c : Thread nD τ).loc main_arg8) :=
  (W5_keep m ρ c main_arg8 (by decide)).trans <| (W4_of_in m ρ c 2 rfl).trans <| (W3_keep m ρ c main_arg8 (by decide)).trans <|
    (W2_of_ne m ρ c main_arg8 (by decide)).trans <| (W1_keep m ρ c main_arg8 (by decide)).trans rfl
theorem W5_main_arg9 (c : Dev nD) : W5 m ρ c (Proc.devRef .tc main_arg9) = m ((c : Thread nD τ).loc main_arg9) :=
  (W5_keep m ρ c main_arg9 (by decide)).trans <| (W4_of_ne m ρ c main_arg9 (by decide)).trans <| (W3_keep m ρ c main_arg9 (by decide)).trans <|
    (W2_of_ne m ρ c main_arg9 (by decide)).trans <| (W1_keep m ρ c main_arg9 (by decide)).trans rfl
theorem W5_main_arg10 (c : Dev nD) : W5 m ρ c (Proc.devRef .tc main_arg10) = m ((c : Thread nD τ).loc main_arg10) :=
  (W5_keep m ρ c main_arg10 (by decide)).trans <| (W4_of_in m ρ c 4 rfl).trans <| (W3_keep m ρ c main_arg10 (by decide)).trans <|
    (W2_of_ne m ρ c main_arg10 (by decide)).trans <| (W1_keep m ρ c main_arg10 (by decide)).trans rfl
theorem W5_main_arg11 (c : Dev nD) : W5 m ρ c (Proc.devRef .tc main_arg11) = m ((c : Thread nD τ).loc main_arg11) :=
  (W5_keep m ρ c main_arg11 (by decide)).trans <| (W4_of_ne m ρ c main_arg11 (by decide)).trans <| (W3_keep m ρ c main_arg11 (by decide)).trans <|
    (W2_of_ne m ρ c main_arg11 (by decide)).trans <| (W1_keep m ρ c main_arg11 (by decide)).trans rfl

/-! ## The proof data family and the thread state -/

/-- No launch has a prefetched table. -/
abbrev tables : (p : Fin 2) → (pcfgs (F := F) p).Adm := fun p => (cfgs p).toPCfg_adm
/-- Each launch's proof data at the contents it finds. -/
def pdats : (p : Fin 2) → (c : Dev nD) → Dat τ (Elt F) Unit ℕ (UR sig nD τ) ℕ (Pipeline.pin (pcfgs (F := F)) tables p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every stretch: the core's generator register at some state, nothing owed. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without what is owed: every unscoped buffer at the final contents, the generator register at some state. -/
abbrev Tₙ (c : Dev nD) : sProp 𝕄 := iprop(StableHlo.held (c : Thread nD τ) (Pipeline.ucRefs τ sig) (W5 m ρ c) ∗ ∃ r, prngReg c r)

/-! ## The launches as segments -/

set_option backward.isDefEq.respectTransparency.types false in
/-- The first layer's launch over the thread state: entered with every unscoped buffer at W1, left with them at W2. Its
    operands' arrays are split out of the unscoped buffers and put back at what the pipeline leaves. -/
def reg0 : Pipeline.RegionSeg (pcfgs (F := F)) tables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) tables (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (left0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's launch over the thread state: entered at W3, left at W4. -/
def reg1 : Pipeline.RegionSeg (pcfgs (F := F)) tables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) tables (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (left1 m ρ c) (rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The program's five stretches in order. -/
abbrev segs : List (Pipeline.Seg (pcfgs (F := F)) tables (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

/-- The printed program is the run of these segments. -/
theorem main_run (c : Dev nD) : main (F := F) c = Pipeline.Seg.run (segs m ρ) :=
  main_segs tables (pdats m ρ) () 𝒱₀ L lv _ _ _ (reg0 m ρ) (reg1 m ρ) rfl rfl rfl c

set_option backward.isDefEq.respectTransparency.types false in
/-- THE RUN: from any memory with zero counters, every weakly fair execution of the program terminates, nothing
    faulting, and every final state holds each unscoped buffer at the last boundary's contents W5. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) tables (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c)⟩) (run m ρ)

end Cert.KernelIdeal.Layers

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibHostLayout.lean ====
/-
  Two host re-layings read at one entry, over any sizes and any element type.

  * A matrix transposed: the result at (i, j) is the matrix at (j, i).
  * A vector of N entries laid as a row [1, N] and then down M rows, by two `broadcast_in_dim`s: the result at (r, c)
    is entry c.
  * A rank-zero value broadcast to a matrix: every entry is the value.
-/
import Idealize.ShloMosaic.Lib.Pipeline.Value
import Idealize.ShloMosaic.Lib.ValueIdx

noncomputable section

namespace Cert.HostLayout

open Idealize.ShloMosaic Idealize.ShloMosaic.ValueIdx

/-- A transposed matrix at (i, j) is the matrix at (j, i). -/
theorem transpose2_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h (ix2 i j) (ix2 j i) fun q => ?_
  match q with
  | ⟨0, _⟩ => rfl
  | ⟨1, _⟩ => rfl

/-- A vector laid as a row and then down M rows reads, at (r, c), entry c. -/
theorem biasRow_apply {α : Type} {M N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 v) (ix2 r c) = v (ix1 c) := by
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A rank-zero value broadcast to any shape reads the value everywhere. -/
theorem scalar_apply {α : Type} {t : Shape} (u : (⟨0, ![]⟩ : Shape).Idx → α)
    (h : (⟨0, ![]⟩ : Shape).BroadcastsInDim t ![]) (i : t.Idx) :
    broadcastInDim t ![] h u i = u (fun a => a.elim0) :=
  broadcastInDim_apply ![] h u i (fun a => a.elim0) (fun a => a.elim0)

end Cert.HostLayout

end
-- ==== Proof.LibBlockRows.lean ====
/-
  Picking rows out of a matrix, and the layers of a dense graph network read on the picked rows.

  A map ρ from the row numbers of a small matrix to the row numbers of a tall one lays rows ρ 0, ρ 1, … of the
  tall matrix as a matrix of its own (`rowsOf`). Every layer below acts on each row separately, so computing the
  layer on the picked rows gives the picked rows of the layer computed on the whole matrix:

  * a product with a fixed right factor, Σ_k A (r, k) · G (k, c): the matrix unit's product into a zero
    accumulator on the picked rows against the host's plain product on the whole;
  * a bias, one vector of N numbers added to every row: the vector laid as a row and broadcast down the picked
    rows against two host broadcasts down all rows;
  * the entry-by-entry operations (sum, product, maximum, exponential) and a constant splat.

  Everything is on the extended reals, where a change of float format is the identity, so an operand may first
  have been converted to a narrower format.
-/
import Idealize.ShloMosaic.PureOps.Ideal.Laws
import Idealize.ShloMosaic.Lib.Pipeline.Value
import Idealize.ShloMosaic.Lib.ValueIdx
import Idealize.ShloMosaic.Lib.ValueLayout
import proofs.«112415_j84722524881132_1_alg».proof.Proof.LibPlainMatmul
import proofs.«112415_j84722524881132_1_alg».proof.Proof.LibHostReads
import proofs.«112415_j84722524881132_1_alg».proof.Proof.LibHostLayout

noncomputable section

open scoped BigOperators

namespace Cert.BlockRows

open Idealize.ShloMosaic Idealize.ShloMosaic.ValueIdx

variable {TM M K N : Nat}

/-- Rows ρ 0, ρ 1, … of an M-row matrix, laid as a TM-row matrix. -/
def rowsOf {α : Type} (ρ : Fin TM → Fin M) (X : (⟨2, ![M, K]⟩ : Shape).Idx → α) : (⟨2, ![TM, K]⟩ : Shape).Idx → α :=
  fun j => X (ix2 (ρ (j 0)) (j 1))

/-- Entry (p, k) of the picked rows is entry (ρ p, k) of the matrix. -/
theorem rowsOf_apply {α : Type} (ρ : Fin TM → Fin M) (X : (⟨2, ![M, K]⟩ : Shape).Idx → α) (p : Fin TM) (k : Fin K) :
    rowsOf ρ X (ix2 p k) = X (ix2 (ρ p) k) := rfl

/-- Picking every row in place changes nothing. -/
theorem rowsOf_id {α : Type} (X : (⟨2, ![M, K]⟩ : Shape).Idx → α) : rowsOf (fun p : Fin M => p) X = X := by
  funext j
  exact congrArg X (eq_ix2 j).symm

/-- Row p of block t when M rows are cut into n blocks of TM rows each: row TM · t + p. -/
def blockRow (TM n M : Nat) (h : TM * n ≤ M) (t : Fin n) : Fin TM → Fin M := fun p =>
  ⟨TM * t.val + p.val, by
    have ht := t.isLt
    have hp := p.isLt
    calc TM * t.val + p.val < TM * t.val + TM := by omega
      _ = TM * (t.val + 1) := by rw [Nat.mul_succ]
      _ ≤ TM * n := Nat.mul_le_mul_left _ (by omega)
      _ ≤ M := h⟩

/-- Its row number. -/
theorem blockRow_val (TM n M : Nat) (h : TM * n ≤ M) (t : Fin n) (p : Fin TM) :
    (blockRow TM n M h t p).val = TM * t.val + p.val := rfl

/-- A sum of picked rows is the picked rows of the sum. -/
theorem addf_rows {φ : FTy} (ρ : Fin TM → Fin M) (X Y : FVec Ideal ⟨2, ![M, N]⟩ φ) :
    addf (rowsOf ρ X) (rowsOf ρ Y) = rowsOf ρ (addf X Y) := rfl

/-- A product, entry by entry, of picked rows is the picked rows of the product. -/
theorem mulf_rows {φ : FTy} (ρ : Fin TM → Fin M) (X Y : FVec Ideal ⟨2, ![M, N]⟩ φ) :
    mulf (rowsOf ρ X) (rowsOf ρ Y) = rowsOf ρ (mulf X Y) := rfl

/-- The exponential of picked rows is the picked rows of the host's exponential: one function on the extended reals. -/
theorem exp_rows {φ : FTy} (ρ : Fin TM → Fin M) (X : FVec Ideal ⟨2, ![M, N]⟩ φ) :
    exp (rowsOf ρ X) = rowsOf ρ (Host.exp X) := rfl

/-- The host's plain product of an M × K by a K × N matrix. -/
def propagate (A : FVec Ideal ⟨2, ![M, K]⟩ .f32) (G : FVec Ideal ⟨2, ![K, N]⟩ .f32) : FVec Ideal ⟨2, ![M, N]⟩ .f32 :=
  Host.dotGeneral (F := Ideal) (DotDims.plain M K N) none A G

/-- The host's dense layer: the plain product X · W plus the one row B added to every row. -/
def dense (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  addf (Host.dotGeneral (F := Ideal) (DotDims.plain M K N) none X W) (broadcastInDim ⟨2, ![M, N]⟩ ![0, 1] h2 B)

/-- The host's maximum with zero, the zero a rank-zero constant broadcast to the matrix. -/
def relu (h0 : (⟨0, ![]⟩ : Shape).BroadcastsInDim ⟨2, ![M, N]⟩ ![]) (Y : FVec Ideal ⟨2, ![M, N]⟩ .f32) :
    FVec Ideal ⟨2, ![M, N]⟩ .f32 :=
  maximumf Y (broadcastInDim ⟨2, ![M, N]⟩ ![] h0 (constant (F := Ideal) ⟨0, ![]⟩ .f32 0x00000000#32))

/-- The host's product with a constant, the constant of word `w` broadcast from rank zero. -/
def scaled (w : BitVec 32) (h0 : (⟨0, ![]⟩ : Shape).BroadcastsInDim ⟨2, ![M, N]⟩ ![]) (Y : FVec Ideal ⟨2, ![M, N]⟩ .f32) :
    FVec Ideal ⟨2, ![M, N]⟩ .f32 :=
  mulf (broadcastInDim ⟨2, ![M, N]⟩ ![] h0 (constant (F := Ideal) ⟨0, ![]⟩ .f32 w)) Y

/-- The product with a fixed right factor, row by row: when row p of `a` is row ρ p of `A` and `g` is `G`, the
    matrix unit's product of `a` and `g` into zeros is the picked rows of the host's product of `A` and `G`. -/
theorem matmul_rows (ρ : Fin TM → Fin M) {φ₁ φ₂ : FTy} (prec prec' : Option ContractPrecision)
    (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : ∀ (p : Fin TM) (k : Fin K), (a (ix2 p k) : EReal) = A (ix2 (ρ p) k))
    (hg : ∀ (k : Fin K) (n : Fin N), (g (ix2 k n) : EReal) = G (ix2 k n)) :
    matmul (DotDims.plain TM K N) prec a g (constant ⟨2, ![TM, N]⟩ .f32 0x00000000#32)
      = rowsOf ρ (Host.dotGeneral (F := Ideal) (DotDims.plain M K N) prec' A G) := by
  funext j
  obtain ⟨p, c, rfl⟩ : ∃ (p : Fin TM) (c : Fin N), j = ix2 p c := ⟨j 0, j 1, eq_ix2 j⟩
  rw [rowsOf_apply, Cert.LibHostReads.dotGeneral_plain_apply]
  refine (Cert.PlainMatmul.matmul_zero_apply TM K N prec a g p c).trans ?_
  exact Finset.sum_congr rfl fun k _ => congrArg₂ (· * ·) (ha p k) (hg k c)

/-- The propagation step on picked rows: the matrix unit's product, into zeros, of the picked rows of A and the
    whole of G — both first converted to a narrower float format, which changes nothing on the extended reals — is
    the picked rows of the host's product A · G. -/
theorem propagate_rows (ρ : Fin TM → Fin M) {ψ : FTy} (hψ : ψ.bits < FTy.f32.bits)
    (hs : (⟨2, ![K, N]⟩ : Shape).ShapeCasts ⟨2, ![K, N]⟩)
    (A : FVec Ideal ⟨2, ![M, K]⟩ .f32) (G : FVec Ideal ⟨2, ![K, N]⟩ .f32) :
    matmul (DotDims.plain TM K N) none (truncf ψ (rowsOf ρ A) hψ) (truncf ψ (shapeCast ⟨2, ![K, N]⟩ G hs) hψ)
        (constant ⟨2, ![TM, N]⟩ .f32 0x00000000#32)
      = rowsOf ρ (propagate A G) := by
  rw [shapeCast_self]
  exact matmul_rows ρ none none _ _ A G (fun _ _ => rfl) (fun _ _ => rfl)

/-- A dense layer on picked rows: the matrix unit's product of the picked rows of X and the whole of W into zeros,
    plus the row B broadcast down the picked rows, is the picked rows of the host's layer on X. -/
theorem dense_rows (ρ : Fin TM → Fin M)
    (hsw : (⟨2, ![K, N]⟩ : Shape).ShapeCasts ⟨2, ![K, N]⟩) (hs : (⟨2, ![1, N]⟩ : Shape).ShapeCasts ⟨2, ![1, N]⟩)
    (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    addf (matmul (DotDims.plain TM K N) none (rowsOf ρ X) (shapeCast ⟨2, ![K, N]⟩ W hsw)
          (constant ⟨2, ![TM, N]⟩ .f32 0x00000000#32))
        (broadcastTo ⟨2, ![TM, N]⟩ (shapeCast ⟨2, ![1, N]⟩ B hs) hb)
      = rowsOf ρ (dense h2 X W B) := by
  rw [shapeCast_self, shapeCast_self, matmul_rows ρ none none (rowsOf ρ X) W X W (fun _ _ => rfl) (fun _ _ => rfl)]
  unfold dense
  rw [← addf_rows]
  refine congrArg (addf (rowsOf ρ (Host.dotGeneral (F := Ideal) (DotDims.plain M K N) none X W))) ?_
  funext j
  obtain ⟨p, c, rfl⟩ : ∃ (p : Fin TM) (c : Fin N), j = ix2 p c := ⟨j 0, j 1, eq_ix2 j⟩
  rw [broadcastTo_1b_ab_apply, rowsOf_apply]
  refine (broadcastInDim_apply _ h2 B (ix2 (ρ p) c) (ix2 (0 : Fin 1) c) fun a => ?_).symm
  match a with
  | ⟨0, _⟩ => show (0 : Fin 1).val = if (1 : Nat) = 1 then 0 else (ρ p).val; rw [if_pos rfl]; rfl
  | ⟨1, _⟩ =>
    show c.val = if N = 1 then 0 else c.val
    split
    · have := c.isLt; omega
    · rfl

/-- A vector of N numbers reshaped to one row is the same vector broadcast into a row along its one axis. -/
theorem reshape_row {α : Type} (v : (⟨1, ![N]⟩ : Shape).Idx → α) (hs : (⟨1, ![N]⟩ : Shape).ShapeCasts ⟨2, ![1, N]⟩)
    (h1 : (⟨1, ![N]⟩ : Shape).BroadcastsInDim ⟨2, ![1, N]⟩ ![1]) :
    shapeCast ⟨2, ![1, N]⟩ v hs = broadcastInDim ⟨2, ![1, N]⟩ ![1] h1 v := by
  funext i
  obtain ⟨z, c, rfl⟩ : ∃ (z : Fin 1) (c : Fin N), i = ix2 z c := ⟨i 0, i 1, eq_ix2 i⟩
  have hz : z.val = 0 := by have := z.isLt; omega
  refine (shapeCast_apply v hs (ix2 z c) (ix1 c) ?_).trans (broadcastInDim_apply ![1] h1 v (ix2 z c) (ix1 c) fun a => ?_).symm
  · rewrite [Shape.rowMajor_val_two, Shape.rowMajor_val_one]
    show c.val = z.val * N + c.val
    rw [hz]; simp
  · match a with
    | ⟨0, _⟩ =>
      show c.val = if N = 1 then 0 else c.val
      split
      · have := c.isLt; omega
      · rfl

/-- A constant splat over TM rows is the picked rows of the same constant broadcast from rank zero over M rows. -/
theorem splat_rows (ρ : Fin TM → Fin M) (w : BitVec 32) (h : (⟨0, ![]⟩ : Shape).BroadcastsInDim ⟨2, ![M, N]⟩ ![]) :
    (broadcast ⟨2, ![TM, N]⟩ (Scalar.ofBits (F := Ideal) .f32 w) : FVec Ideal ⟨2, ![TM, N]⟩ .f32)
      = rowsOf ρ (broadcastInDim ⟨2, ![M, N]⟩ ![] h (constant (F := Ideal) ⟨0, ![]⟩ .f32 w)) := by
  funext j
  exact (Cert.HostLayout.scalar_apply (constant (F := Ideal) ⟨0, ![]⟩ .f32 w) h (ix2 (ρ (j 0)) (j 1))).symm

/-- The maximum with a splat zero of picked rows is the picked rows of the host's maximum with zero. -/
theorem relu_rows (ρ : Fin TM → Fin M) (h0 : (⟨0, ![]⟩ : Shape).BroadcastsInDim ⟨2, ![M, N]⟩ ![])
    (Y : FVec Ideal ⟨2, ![M, N]⟩ .f32) :
    maximumf (rowsOf ρ Y) (broadcast ⟨2, ![TM, N]⟩ (Scalar.ofBits (F := Ideal) .f32 0x00000000#32)) = rowsOf ρ (relu h0 Y) := by
  rw [splat_rows ρ 0x00000000#32 h0]; rfl

/-- The product of a splat constant with picked rows is the picked rows of the host's product with the constant. -/
theorem scaled_rows (ρ : Fin TM → Fin M) (w : BitVec 32) (h0 : (⟨0, ![]⟩ : Shape).BroadcastsInDim ⟨2, ![M, N]⟩ ![])
    (Y : FVec Ideal ⟨2, ![M, N]⟩ .f32) :
    mulf (broadcast ⟨2, ![TM, N]⟩ (Scalar.ofBits (F := Ideal) .f32 w)) (rowsOf ρ Y) = rowsOf ρ (scaled w h0 Y) := by
  rw [splat_rows ρ w h0]; rfl

end Cert.BlockRows

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.LibRmsNorm.lean ====
/-
  Root-mean-square normalisation of the rows of a matrix, read one row at a time on the extended reals, over any sizes.

  A row r of N entries is scaled by s(r) = rsqrt((Σ_k r_k · r_k) / c + e), where c and e are the numbers two given 32-bit
  words encode (the row length and a small offset, as the program spells them), and then multiplied entry by entry
  by a gain row g:   rowNorm r g q = r_q · s(r) · g_q.

  The same function is computed two ways. On the vector unit: square, sum along the lanes from zero, lay the sums
  out as a column, divide, add, take the reciprocal square root, spread the column along the lanes, multiply; the
  gain row laid out as a row and spread down the sublanes. On the host: square, reduce-add over the last axis from a
  scalar zero, broadcast to a column, divide by a broadcast scalar, add a broadcast scalar, reciprocal square root,
  broadcast along the last axis, multiply; the gain broadcast to a row and then down the rows. Both, read at
  row p, are rowNorm of row p of the operand. Nothing here needs the entries to be finite: both sides apply the same
  operations to the same sums.

  Also here: the vocabulary of rows (row p of a matrix, a vector as a function of its coordinate, a matrix as a function
  of two coordinates), and a row times a matrix.
-/
import Idealize.ShloMosaic.PureOps.Ideal.Laws
import Idealize.ShloMosaic.Lib.Pipeline.Value
import Idealize.ShloMosaic.Lib.ValueIdx
import proofs.«112415_j84722524881132_1_alg».proof.Proof.LibColRowBroadcast

noncomputable section

open scoped BigOperators

namespace Cert.RmsNorm

open Idealize.ShloMosaic Idealize.ShloMosaic.ValueIdx

/-! ## Rows -/

/-- Row `p` of a matrix, as a function of the column. -/
def row {M N : ℕ} (a : (⟨2, ![M, N]⟩ : Shape).Idx → EReal) (p : Fin M) : Fin N → EReal := fun k => a (ix2 p k)

/-- A vector as a function of its coordinate. -/
def vec {N : ℕ} (g : (⟨1, ![N]⟩ : Shape).Idx → EReal) : Fin N → EReal := fun k => g (ix1 k)

/-- A matrix as a function of its two coordinates. -/
def mat {K N : ℕ} (w : (⟨2, ![K, N]⟩ : Shape).Idx → EReal) : Fin K → Fin N → EReal := fun k q => w (ix2 k q)

/-- A row times a matrix: entry q is Σ_k r_k · w_{k q}. -/
def rowMat {K N : ℕ} (r : Fin K → EReal) (w : Fin K → Fin N → EReal) : Fin N → EReal := fun q => ∑ k, r k * w k q

/-- The scale of a row: the reciprocal square root of (Σ_k r_k² divided by the number `cN` encodes, plus the number
    `ce` encodes). -/
def scale {N : ℕ} (cN ce : BitVec 32) (r : Fin N → EReal) : EReal :=
  Ideal.rsqrt (Ideal.div (∑ k, r k * r k) (Ideal.ofBits .f32 cN) + Ideal.ofBits .f32 ce)

/-- A row normalised by its scale and multiplied entry by entry by a gain row. -/
def rowNorm {N : ℕ} (cN ce : BitVec 32) (r g : Fin N → EReal) : Fin N → EReal := fun q => r q * scale cN ce r * g q

/-- Rows of equal matrices' sums: row p of a pointwise sum is the sum of the rows. -/
theorem row_addf {M N : ℕ} (a b : FVec Ideal ⟨2, ![M, N]⟩ .f32) (p : Fin M) :
    row (addf a b) p = fun q => row a p q + row b p q := rfl

/-! ## On the vector unit -/

/-- The reduced index `p` with lane `k` put back is (p, k). -/
theorem lift_lane {M N : ℕ} (h : (⟨2, ![M, N]⟩ : Shape).Reduces [1] (⟨1, ![M]⟩ : Shape)) (p : Fin M)
    (k : Fin ((⟨2, ![M, N]⟩ : Shape).size 1)) : h.lift (ix1 p) k = ix2 p (⟨k.val, k.isLt⟩ : Fin N) := by
  funext c; apply Fin.ext
  fin_cases c <;> rfl

/-- A sum along the lanes from zero, at row `p`, is the sum of the row. -/
theorem laneSum_apply {M N : ℕ} (src : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ) (p : Fin M) :
    multiReduction .add [1] ⟨1, ![M]⟩ src 0x00000000#32 hr hφ hacc (ix1 p) = ∑ k : Fin N, src (ix2 p k) := by
  refine (Ideal.multiReduction_add_single src 0x00000000#32 hr hφ hacc (ix1 p)).trans ?_
  exact Finset.sum_congr rfl fun k _ => congrArg src (lift_lane hr p k)

/-- The column of scales as the vector unit computes it. -/
def colScale {M N : ℕ} (cN ce : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) : FVec Ideal ⟨2, ![M, 1]⟩ .f32 :=
  rsqrt (addf (divf (shapeCast ⟨2, ![M, 1]⟩ (multiReduction .add [1] ⟨1, ![M]⟩ (mulf a a) 0x00000000#32 hr hφ hacc) hc)
    (broadcast ⟨2, ![M, 1]⟩ (Scalar.ofBits .f32 cN))) (broadcast ⟨2, ![M, 1]⟩ (Scalar.ofBits .f32 ce)))

/-- The column of scales at row `p` is the scale of row `p`. -/
theorem colScale_apply {M N : ℕ} (cN ce : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (p : Fin M) (z : Fin 1) :
    colScale cN ce a hr hφ hacc hc (ix2 p z) = scale cN ce (row a p) := by
  have h1 : shapeCast ⟨2, ![M, 1]⟩ (multiReduction .add [1] ⟨1, ![M]⟩ (mulf a a) 0x00000000#32 hr hφ hacc) hc (ix2 p z)
      = ∑ k : Fin N, row a p k * row a p k :=
    (Cert.ColRowBroadcast.colCast_apply _ hc p z).trans (laneSum_apply (mulf a a) hr hφ hacc p)
  exact congrArg (fun s => Ideal.rsqrt (Ideal.div s (Ideal.ofBits .f32 cN) + Ideal.ofBits .f32 ce)) h1

/-- Root-mean-square normalisation of the rows of `a` with gain `g`, as the vector unit computes it. -/
def vectorNorm {M N : ℕ} (cN ce : BitVec 32) (a : FVec Ideal ⟨2, ![M, N]⟩ .f32) (g : FVec Ideal ⟨1, ![N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hg : (⟨1, ![N]⟩ : Shape).ShapeCasts ⟨2, ![1, N]⟩) (hgb : (⟨2, ![1, N]⟩ : Shape).Broadcasts ⟨2, ![M, N]⟩) :
    FVec Ideal ⟨2, ![M, N]⟩ .f32 :=
  mulf (mulf a (broadcastTo ⟨2, ![M, N]⟩ (colScale cN ce a hr hφ hacc hc) hb))
    (broadcastTo ⟨2, ![M, N]⟩ (shapeCast ⟨2, ![1, N]⟩ g hg) hgb)

/-- Row `p` of the vector unit's normalisation is rowNorm of row `p`. -/
theorem vectorNorm_row {M N : ℕ} (cN ce : BitVec 32) (a : FVec Ideal ⟨2, ![M, N]⟩ .f32) (g : FVec Ideal ⟨1, ![N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hg : (⟨1, ![N]⟩ : Shape).ShapeCasts ⟨2, ![1, N]⟩) (hgb : (⟨2, ![1, N]⟩ : Shape).Broadcasts ⟨2, ![M, N]⟩) (p : Fin M) :
    row (vectorNorm cN ce a g hr hφ hacc hc hb hg hgb) p = rowNorm cN ce (row a p) (vec g) := by
  funext q
  have hs : broadcastTo ⟨2, ![M, N]⟩ (colScale cN ce a hr hφ hacc hc) hb (ix2 p q) = scale cN ce (row a p) :=
    (Cert.ColRowBroadcast.colBroadcast_apply _ hb p q).trans (colScale_apply cN ce a hr hφ hacc hc p 0)
  have hq : broadcastTo ⟨2, ![M, N]⟩ (shapeCast ⟨2, ![1, N]⟩ g hg) hgb (ix2 p q) = vec g q :=
    (Cert.ColRowBroadcast.rowBroadcast_apply _ hgb p q).trans (Cert.ColRowBroadcast.rowCast_apply g hg 0 q)
  show a (ix2 p q) * broadcastTo ⟨2, ![M, N]⟩ (colScale cN ce a hr hφ hacc hc) hb (ix2 p q)
      * broadcastTo ⟨2, ![M, N]⟩ (shapeCast ⟨2, ![1, N]⟩ g hg) hgb (ix2 p q) = _
  rw [hs, hq]
  rfl

/-! ## On the host -/

/-- The host's sum over the last axis from a scalar zero, at row `p`, is the sum of the row. -/
theorem hostSum_apply {M N : ℕ} (src : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel) (p : Fin M) :
    Host.reduceAdd src (constant (F := Ideal) ⟨0, ![]⟩ .f32 0x00000000#32) hrt h0 (ix1 p) = ∑ k : Fin N, src (ix2 p k) := by
  show Ideal.hostReduceAdd hrt src (Ideal.ofBits .f32 0x00000000#32) (ix1 p) = _
  rw [Ideal.hostReduceAdd_single hrt hr, Ideal.ofBits_zero_f32, zero_add]
  exact Finset.sum_congr rfl fun k _ => congrArg src (lift_lane hr p k)

/-- A scalar broadcast to any shape reads the scalar everywhere. -/
theorem scalarBroadcast_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 (fun a => a.elim0)

/-- A vector of `a` entries broadcast to a column [a, 1] reads, at (p, 0), entry `p`. -/
theorem hostCol_apply {α : Type} {a : ℕ} (u : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h u (ix2 p z) = u (ix1 p) := by
  refine broadcastInDim_apply _ h u (ix2 p z) (ix1 p) fun c => ?_
  match c with
  | ⟨0, _⟩ =>
    show p.val = if a = 1 then 0 else p.val
    split
    · have := p.isLt; omega
    · rfl

/-- A column [a, 1] broadcast along the last axis to [a, b] reads, at (p, q), the column at (p, 0). -/
theorem hostColBroadcast_apply {α : Type} {a b : ℕ} (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply _ h w (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A vector of `b` entries broadcast to a row [1, b] reads, at (0, q), entry `q`. -/
theorem hostRow_apply {α : Type} {b : ℕ} (u : (⟨1, ![b]⟩ : Shape).Idx → α)
    (h : (⟨1, ![b]⟩ : Shape).BroadcastsInDim ⟨2, ![1, b]⟩ ![1]) (z : Fin 1) (q : Fin b) :
    broadcastInDim ⟨2, ![1, b]⟩ ![1] h u (ix2 z q) = u (ix1 q) := by
  refine broadcastInDim_apply _ h u (ix2 z q) (ix1 q) fun c => ?_
  match c with
  | ⟨0, _⟩ =>
    show q.val = if b = 1 then 0 else q.val
    split
    · have := q.isLt; omega
    · rfl

/-- A row [1, b] broadcast down the first axis to [a, b] reads, at (p, q), the row at (0, q). -/
theorem hostRowBroadcast_apply {α : Type} {a b : ℕ} (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply _ h w (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

/-- The column of scales as the host computes it. -/
def hostColScale {M N : ℕ} (cN ce : BitVec 32) (a : FVec Ideal ⟨2, ![M, N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) : FVec Ideal ⟨2, ![M, 1]⟩ .f32 :=
  Host.rsqrt (addf (Host.divf
      (broadcastInDim ⟨2, ![M, 1]⟩ ![0] hb1 (Host.reduceAdd (mulf a a) (constant (F := Ideal) ⟨0, ![]⟩ .f32 0x00000000#32) hrt h0))
      (broadcastInDim ⟨2, ![M, 1]⟩ ![] hbs (constant (F := Ideal) ⟨0, ![]⟩ .f32 cN)))
    (broadcastInDim ⟨2, ![M, 1]⟩ ![] hbs (constant (F := Ideal) ⟨0, ![]⟩ .f32 ce)))

/-- The host's column of scales at row `p` is the scale of row `p`. -/
theorem hostColScale_apply {M N : ℕ} (cN ce : BitVec 32) (a : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) (p : Fin M) (z : Fin 1) :
    hostColScale cN ce a hrt h0 hb1 hbs (ix2 p z) = scale cN ce (row a p) := by
  have h1 : broadcastInDim ⟨2, ![M, 1]⟩ ![0] hb1
        (Host.reduceAdd (mulf a a) (constant (F := Ideal) ⟨0, ![]⟩ .f32 0x00000000#32) hrt h0) (ix2 p z)
      = ∑ k : Fin N, row a p k * row a p k :=
    (hostCol_apply _ hb1 p z).trans (hostSum_apply (mulf a a) hrt hr h0 p)
  have h2 : broadcastInDim ⟨2, ![M, 1]⟩ ![] hbs (constant (F := Ideal) ⟨0, ![]⟩ .f32 cN) (ix2 p z) = Ideal.ofBits .f32 cN :=
    scalarBroadcast_apply _ hbs (ix2 p z)
  have h3 : broadcastInDim ⟨2, ![M, 1]⟩ ![] hbs (constant (F := Ideal) ⟨0, ![]⟩ .f32 ce) (ix2 p z) = Ideal.ofBits .f32 ce :=
    scalarBroadcast_apply _ hbs (ix2 p z)
  show Ideal.rsqrt (Ideal.div
      (broadcastInDim ⟨2, ![M, 1]⟩ ![0] hb1 (Host.reduceAdd (mulf a a) (constant (F := Ideal) ⟨0, ![]⟩ .f32 0x00000000#32) hrt h0) (ix2 p z))
      (broadcastInDim ⟨2, ![M, 1]⟩ ![] hbs (constant (F := Ideal) ⟨0, ![]⟩ .f32 cN) (ix2 p z))
    + broadcastInDim ⟨2, ![M, 1]⟩ ![] hbs (constant (F := Ideal) ⟨0, ![]⟩ .f32 ce) (ix2 p z)) = _
  rw [h1, h2, h3]
  rfl

/-- Root-mean-square normalisation of the rows of `a` with gain `g`, as the host computes it. -/
def hostNorm {M N : ℕ} (cN ce : BitVec 32) (a : FVec Ideal ⟨2, ![M, N]⟩ .f32) (g : FVec Ideal ⟨1, ![N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) : FVec Ideal ⟨2, ![M, N]⟩ .f32 :=
  mulf (mulf a (broadcastInDim ⟨2, ![M, N]⟩ ![0, 1] hbc (hostColScale cN ce a hrt h0 hb1 hbs)))
    (broadcastInDim ⟨2, ![M, N]⟩ ![0, 1] hgb (broadcastInDim ⟨2, ![1, N]⟩ ![1] hg g))

/-- Row `p` of the host's normalisation is rowNorm of row `p`. -/
theorem hostNorm_row {M N : ℕ} (cN ce : BitVec 32) (a : FVec Ideal ⟨2, ![M, N]⟩ .f32) (g : FVec Ideal ⟨1, ![N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) (p : Fin M) :
    row (hostNorm cN ce a g hrt h0 hb1 hbs hbc hg hgb) p = rowNorm cN ce (row a p) (vec g) := by
  funext q
  have hs : broadcastInDim ⟨2, ![M, N]⟩ ![0, 1] hbc (hostColScale cN ce a hrt h0 hb1 hbs) (ix2 p q) = scale cN ce (row a p) :=
    (hostColBroadcast_apply _ hbc p q).trans (hostColScale_apply cN ce a hrt hr h0 hb1 hbs p 0)
  have hq : broadcastInDim ⟨2, ![M, N]⟩ ![0, 1] hgb (broadcastInDim ⟨2, ![1, N]⟩ ![1] hg g) (ix2 p q) = vec g q :=
    (hostRowBroadcast_apply _ hgb p q).trans (hostRow_apply g hg 0 q)
  show a (ix2 p q) * broadcastInDim ⟨2, ![M, N]⟩ ![0, 1] hbc (hostColScale cN ce a hrt h0 hb1 hbs) (ix2 p q)
      * broadcastInDim ⟨2, ![M, N]⟩ ![0, 1] hgb (broadcastInDim ⟨2, ![1, N]⟩ ![1] hg g) (ix2 p q) = _
  rw [hs, hq]
  rfl

end Cert.RmsNorm

end
-- ==== Proof.LibBiInteraction.lean ====
/-
  A bi-interaction graph layer and a clamped Euclidean row normalisation, computed on picked rows.

  For two M-row tables E and S of K columns, two K × N weight tables W₁, W₂ and two bias rows B₁, B₂ the layer is
      lrelu((E + S)·W₁ + B₁) + lrelu((E ⊙ S)·W₂ + B₂),          lrelu y = y if y ≥ 0, else s·y,
  and the normalisation divides each row y of an M × N table by max(√(Σ_j y_j²), ε).

  Both act on every row separately. So the vector unit's spelling on a block of TM rows picked out of the tables by a
  map ρ — sums and products entry by entry, the matrix unit's product into zeros of operands first narrowed to another
  float format, a bias row spread down the block, a comparison with a splat zero and a selection; then a square, a sum
  along the lanes, a column, a square root, a maximum with a splat ε, the column spread along the lanes, a division —
  gives the picked rows of the host's spelling on the whole tables (dot_general, broadcast_in_dim, compare, select;
  reduce-add, broadcast_in_dim to a column and back, sqrt, maximum, divide). Everything is on the extended reals,
  where narrowing a float format is the identity; nothing needs the entries to be finite, because the two spellings
  apply the same operations to the same sums.
-/
import Idealize.ShloMosaic.PureOps.Ideal.Laws
import Idealize.ShloMosaic.Lib.Pipeline.Value
import Idealize.ShloMosaic.Lib.ValueIdx
import proofs.«112415_j84722524881132_1_alg».proof.Proof.LibBlockRows
import proofs.«112415_j84722524881132_1_alg».proof.Proof.LibColRowBroadcast
import proofs.«112415_j84722524881132_1_alg».proof.Proof.LibRmsNorm

noncomputable section

open scoped BigOperators

namespace Cert.BiInteraction

open Idealize.ShloMosaic Idealize.ShloMosaic.ValueIdx
open Cert.BlockRows (rowsOf rowsOf_apply)

variable {TM M K N : Nat}

/-! ## The host's spelling, on whole tables -/

/-- The leaky rectifier with slope word `s`: y where y ≥ 0, s·y elsewhere; the zero and the slope rank-zero constants
    broadcast to the table. -/
def leaky (s : BitVec 32) (h0 : (⟨0, ![]⟩ : Shape).BroadcastsInDim ⟨2, ![M, N]⟩ ![]) (Y : FVec Ideal ⟨2, ![M, N]⟩ .f32) :
    FVec Ideal ⟨2, ![M, N]⟩ .f32 :=
  select (cmpf .oge Y (broadcastInDim ⟨2, ![M, N]⟩ ![] h0 (constant (F := Ideal) ⟨0, ![]⟩ .f32 0x00000000#32))) Y
    (mulf (broadcastInDim ⟨2, ![M, N]⟩ ![] h0 (constant (F := Ideal) ⟨0, ![]⟩ .f32 s)) Y)

/-- One branch: a dense layer X·W + B, then the leaky rectifier. -/
def branch (s : BitVec 32) (h0 : (⟨0, ![]⟩ : Shape).BroadcastsInDim ⟨2, ![M, N]⟩ ![])
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  leaky s h0 (Cert.BlockRows.dense h2 X W B)

/-- The bi-interaction layer: the branch of E + S through W₁, B₁ plus the branch of E ⊙ S through W₂, B₂. -/
def layer (s : BitVec 32) (h0 : (⟨0, ![]⟩ : Shape).BroadcastsInDim ⟨2, ![M, N]⟩ ![])
    (h2 : (⟨2, ![1, N]⟩ : Shape).BroadcastsInDim ⟨2, ![M, N]⟩ ![0, 1])
    (E S : FVec Ideal ⟨2, ![M, K]⟩ .f32) (W₁ : FVec Ideal ⟨2, ![K, N]⟩ .f32) (B₁ : FVec Ideal ⟨2, ![1, N]⟩ .f32)
    (W₂ : FVec Ideal ⟨2, ![K, N]⟩ .f32) (B₂ : FVec Ideal ⟨2, ![1, N]⟩ .f32) : FVec Ideal ⟨2, ![M, N]⟩ .f32 :=
  addf (branch s h0 h2 (addf E S) W₁ B₁) (branch s h0 h2 (mulf E S) W₂ B₂)

/-- The column of divisors: per row, the larger of its Euclidean length and the floor of word `e`. -/
def divisors (e : BitVec 32)
    (hrt : (⟨2, ![M, N]⟩ : Shape).ReducesTo [1] (⟨1, ![M]⟩ : Shape)) (hz : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (Y : FVec Ideal ⟨2, ![M, N]⟩ .f32) : FVec Ideal ⟨2, ![M, 1]⟩ .f32 :=
  maximumf
    (Host.sqrt (broadcastInDim ⟨2, ![M, 1]⟩ ![0] hb1
      (Host.reduceAdd (mulf Y Y) (constant (F := Ideal) ⟨0, ![]⟩ .f32 0x00000000#32) hrt hz)))
    (broadcastInDim ⟨2, ![M, 1]⟩ ![] hbs (constant (F := Ideal) ⟨0, ![]⟩ .f32 e))

/-- Each row divided by the larger of its Euclidean length and the floor of word `e`. -/
def normalized (e : BitVec 32)
    (hrt : (⟨2, ![M, N]⟩ : Shape).ReducesTo [1] (⟨1, ![M]⟩ : Shape)) (hz : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (Y : FVec Ideal ⟨2, ![M, N]⟩ .f32) : FVec Ideal ⟨2, ![M, N]⟩ .f32 :=
  Host.divf Y (broadcastInDim ⟨2, ![M, N]⟩ ![0, 1] hbc (divisors e hrt hz hb1 hbs Y))

/-! ## The vector unit's spelling, on a block of rows -/

/-- A dense layer on a block: the matrix unit's product into zeros of operands narrowed to format ψ, plus the bias row
    spread down the block. -/
def vecDense {ψ : FTy} (hψ : ψ.bits < FTy.f32.bits) (hb : (⟨2, ![1, N]⟩ : Shape).Broadcasts ⟨2, ![TM, N]⟩)
    (x : FVec Ideal ⟨2, ![TM, K]⟩ .f32) (W : FVec Ideal ⟨2, ![K, N]⟩ .f32) (B : FVec Ideal ⟨2, ![1, N]⟩ .f32) :
    FVec Ideal ⟨2, ![TM, N]⟩ .f32 :=
  addf (matmul (DotDims.plain TM K N) none (truncf ψ x hψ) (truncf ψ W hψ) (constant ⟨2, ![TM, N]⟩ .f32 0x00000000#32))
    (broadcastTo ⟨2, ![TM, N]⟩ B hb)

/-- The leaky rectifier on a block: a comparison with a splat zero, a product with a splat slope, a selection. -/
def vecLeaky (s : BitVec 32) (y : FVec Ideal ⟨2, ![TM, N]⟩ .f32) : FVec Ideal ⟨2, ![TM, N]⟩ .f32 :=
  select (cmpf .oge y (broadcast ⟨2, ![TM, N]⟩ (Scalar.ofBits (F := Ideal) .f32 0x00000000#32))) y
    (mulf (broadcast ⟨2, ![TM, N]⟩ (Scalar.ofBits (F := Ideal) .f32 s)) y)

/-- The layer on a block of rows. -/
def vecLayer (s : BitVec 32) {ψ : FTy} (hψ : ψ.bits < FTy.f32.bits) (hb : (⟨2, ![1, N]⟩ : Shape).Broadcasts ⟨2, ![TM, N]⟩)
    (e s' : FVec Ideal ⟨2, ![TM, K]⟩ .f32) (W₁ : FVec Ideal ⟨2, ![K, N]⟩ .f32) (B₁ : FVec Ideal ⟨2, ![1, N]⟩ .f32)
    (W₂ : FVec Ideal ⟨2, ![K, N]⟩ .f32) (B₂ : FVec Ideal ⟨2, ![1, N]⟩ .f32) : FVec Ideal ⟨2, ![TM, N]⟩ .f32 :=
  addf (vecLeaky s (vecDense hψ hb (addf e s') W₁ B₁)) (vecLeaky s (vecDense hψ hb (mulf e s') W₂ B₂))

/-- The column of divisors on a block of rows. -/
def vecDivisors (e : BitVec 32)
    (hr : (⟨2, ![TM, N]⟩ : Shape).Reduces [1] (⟨1, ![TM]⟩ : Shape)) (hφ : FKind.Formats .f32)
    (hacc : (0x00000000#32 : BitVec (FTy.bits .f32)) = FKind.add.neutral .f32 hφ)
    (hc : (⟨1, ![TM]⟩ : Shape).ShapeCasts ⟨2, ![TM, 1]⟩)
    (y : FVec Ideal ⟨2, ![TM, N]⟩ .f32) : FVec Ideal ⟨2, ![TM, 1]⟩ .f32 :=
  maximumf
    (sqrt (shapeCast ⟨2, ![TM, 1]⟩ (multiReduction .add [1] ⟨1, ![TM]⟩ (mulf y y) 0x00000000#32 hr hφ hacc) hc))
    (broadcast ⟨2, ![TM, 1]⟩ (Scalar.ofBits (F := Ideal) .f32 e))

/-- The normalisation on a block of rows. -/
def vecNormalized (e : BitVec 32)
    (hr : (⟨2, ![TM, N]⟩ : Shape).Reduces [1] (⟨1, ![TM]⟩ : Shape)) (hφ : FKind.Formats .f32)
    (hacc : (0x00000000#32 : BitVec (FTy.bits .f32)) = FKind.add.neutral .f32 hφ)
    (hc : (⟨1, ![TM]⟩ : Shape).ShapeCasts ⟨2, ![TM, 1]⟩) (hbc : (⟨2, ![TM, 1]⟩ : Shape).Broadcasts ⟨2, ![TM, N]⟩)
    (y : FVec Ideal ⟨2, ![TM, N]⟩ .f32) : FVec Ideal ⟨2, ![TM, N]⟩ .f32 :=
  divf y (broadcastTo ⟨2, ![TM, N]⟩ (vecDivisors e hr hφ hacc hc y) hbc)

/-! ## The block's result is the picked rows of the whole tables' -/

/-- A bias row spread down a block is the picked rows of the row spread down the whole table. -/
theorem bias_rows (ρ : Fin TM → Fin M) (hb : (⟨2, ![1, N]⟩ : Shape).Broadcasts ⟨2, ![TM, N]⟩)
    (h2 : (⟨2, ![1, N]⟩ : Shape).BroadcastsInDim ⟨2, ![M, N]⟩ ![0, 1]) (B : FVec Ideal ⟨2, ![1, N]⟩ .f32) :
    broadcastTo ⟨2, ![TM, N]⟩ B hb = rowsOf ρ (broadcastInDim ⟨2, ![M, N]⟩ ![0, 1] h2 B) := by
  funext j
  obtain ⟨p, q, rfl⟩ : ∃ (p : Fin TM) (q : Fin N), j = ix2 p q := ⟨j 0, j 1, eq_ix2 j⟩
  rw [rowsOf_apply]
  exact (Cert.ColRowBroadcast.rowBroadcast_apply B hb p q).trans (Cert.RmsNorm.hostRowBroadcast_apply B h2 (ρ p) q).symm

/-- The dense layer of picked rows is the picked rows of the host's dense layer. -/
theorem vecDense_rows (ρ : Fin TM → Fin M) {ψ : FTy} (hψ : ψ.bits < FTy.f32.bits)
    (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    vecDense hψ hb (rowsOf ρ X) W B = rowsOf ρ (Cert.BlockRows.dense h2 X W B) := by
  unfold vecDense Cert.BlockRows.dense
  rw [Cert.BlockRows.matmul_rows ρ none none (truncf ψ (rowsOf ρ X) hψ) (truncf ψ W hψ) X W (fun _ _ => rfl) (fun _ _ => rfl),
    bias_rows ρ hb h2 B]
  rfl

/-- The leaky rectifier of picked rows is the picked rows of the host's. -/
theorem vecLeaky_rows (ρ : Fin TM → Fin M) (s : BitVec 32) (h0 : (⟨0, ![]⟩ : Shape).BroadcastsInDim ⟨2, ![M, N]⟩ ![])
    (Y : FVec Ideal ⟨2, ![M, N]⟩ .f32) : vecLeaky s (rowsOf ρ Y) = rowsOf ρ (leaky s h0 Y) := by
  unfold vecLeaky
  rw [Cert.BlockRows.splat_rows ρ 0x00000000#32 h0, Cert.BlockRows.splat_rows ρ s h0]
  rfl

/-- THE LAYER on picked rows of E and S is the picked rows of the host's layer on E and S. -/
theorem vecLayer_rows (ρ : Fin TM → Fin M) (s : BitVec 32) {ψ : FTy} (hψ : ψ.bits < FTy.f32.bits)
    (hb : (⟨2, ![1, N]⟩ : Shape).Broadcasts ⟨2, ![TM, N]⟩)
    (h0 : (⟨0, ![]⟩ : Shape).BroadcastsInDim ⟨2, ![M, N]⟩ ![])
    (h2 : (⟨2, ![1, N]⟩ : Shape).BroadcastsInDim ⟨2, ![M, N]⟩ ![0, 1])
    (E S : FVec Ideal ⟨2, ![M, K]⟩ .f32) (W₁ : FVec Ideal ⟨2, ![K, N]⟩ .f32) (B₁ : FVec Ideal ⟨2, ![1, N]⟩ .f32)
    (W₂ : FVec Ideal ⟨2, ![K, N]⟩ .f32) (B₂ : FVec Ideal ⟨2, ![1, N]⟩ .f32) :
    vecLayer s hψ hb (rowsOf ρ E) (rowsOf ρ S) W₁ B₁ W₂ B₂ = rowsOf ρ (layer s h0 h2 E S W₁ B₁ W₂ B₂) := by
  unfold vecLayer layer branch
  rw [Cert.BlockRows.addf_rows, Cert.BlockRows.mulf_rows, vecDense_rows ρ hψ hb h2, vecDense_rows ρ hψ hb h2,
    vecLeaky_rows ρ s h0, vecLeaky_rows ρ s h0]
  rfl

/-- THE NORMALISATION of picked rows is the picked rows of the host's normalisation. -/
theorem vecNormalized_rows (ρ : Fin TM → Fin M) (e : BitVec 32)
    (hr : (⟨2, ![TM, N]⟩ : Shape).Reduces [1] (⟨1, ![TM]⟩ : Shape)) (hφ : FKind.Formats .f32)
    (hacc : (0x00000000#32 : BitVec (FTy.bits .f32)) = FKind.add.neutral .f32 hφ)
    (hc : (⟨1, ![TM]⟩ : Shape).ShapeCasts ⟨2, ![TM, 1]⟩) (hbc : (⟨2, ![TM, 1]⟩ : Shape).Broadcasts ⟨2, ![TM, N]⟩)
    (hrt : (⟨2, ![M, N]⟩ : Shape).ReducesTo [1] (⟨1, ![M]⟩ : Shape))
    (hrM : (⟨2, ![M, N]⟩ : Shape).Reduces [1] (⟨1, ![M]⟩ : Shape)) (hz : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbcM : (⟨2, ![M, 1]⟩ : Shape).BroadcastsInDim ⟨2, ![M, N]⟩ ![0, 1])
    (Y : FVec Ideal ⟨2, ![M, N]⟩ .f32) :
    vecNormalized e hr hφ hacc hc hbc (rowsOf ρ Y) = rowsOf ρ (normalized e hrt hz hb1 hbs hbcM Y) := by
  funext j
  obtain ⟨p, q, rfl⟩ : ∃ (p : Fin TM) (q : Fin N), j = ix2 p q := ⟨j 0, j 1, eq_ix2 j⟩
  rw [rowsOf_apply]
  have hv : broadcastTo ⟨2, ![TM, N]⟩ (vecDivisors e hr hφ hacc hc (rowsOf ρ Y)) hbc (ix2 p q)
      = max (Ideal.sqrt (∑ k : Fin N, Y (ix2 (ρ p) k) * Y (ix2 (ρ p) k))) (Ideal.ofBits .f32 e) := by
    refine (Cert.ColRowBroadcast.colBroadcast_apply _ hbc p q).trans ?_
    show max (Ideal.sqrt (shapeCast ⟨2, ![TM, 1]⟩
        (multiReduction .add [1] ⟨1, ![TM]⟩ (mulf (rowsOf ρ Y) (rowsOf ρ Y)) 0x00000000#32 hr hφ hacc) hc (ix2 p (0 : Fin 1))))
      (Ideal.ofBits .f32 e) = _
    rw [Cert.ColRowBroadcast.colCast_apply, Cert.RmsNorm.laneSum_apply]
    rfl
  have hh : broadcastInDim ⟨2, ![M, N]⟩ ![0, 1] hbcM (divisors e hrt hz hb1 hbs Y) (ix2 (ρ p) q)
      = max (Ideal.sqrt (∑ k : Fin N, Y (ix2 (ρ p) k) * Y (ix2 (ρ p) k))) (Ideal.ofBits .f32 e) := by
    refine (Cert.RmsNorm.hostColBroadcast_apply _ hbcM (ρ p) q).trans ?_
    show max (Ideal.sqrt (broadcastInDim ⟨2, ![M, 1]⟩ ![0] hb1
        (Host.reduceAdd (mulf Y Y) (constant (F := Ideal) ⟨0, ![]⟩ .f32 0x00000000#32) hrt hz) (ix2 (ρ p) (0 : Fin 1))))
      (broadcastInDim ⟨2, ![M, 1]⟩ ![] hbs (constant (F := Ideal) ⟨0, ![]⟩ .f32 e) (ix2 (ρ p) (0 : Fin 1))) = _
    rw [Cert.RmsNorm.hostCol_apply, Cert.RmsNorm.hostSum_apply _ hrt hrM hz, Cert.RmsNorm.scalarBroadcast_apply]
    rfl
  show Ideal.div (Y (ix2 (ρ p) q)) (broadcastTo ⟨2, ![TM, N]⟩ (vecDivisors e hr hφ hacc hc (rowsOf ρ Y)) hbc (ix2 p q))
    = Ideal.div (Y (ix2 (ρ p) q)) (broadcastInDim ⟨2, ![M, N]⟩ ![0, 1] hbcM (divisors e hrt hz hb1 hbs Y) (ix2 (ρ p) q))
  rw [hv, hh]

end Cert.BiInteraction

end
-- ==== Proof.Spec.lean ====
/-
  The whole computation as one function of the twelve arguments, in the host's spelling.

  With N = 160000 nodes and 2560000 edges (row r_e, column c_e, weight v_e), one aggregation sends a table X of node rows
  to the table whose row n is Σ_{e : r_e = n} v_e · X[c_e] (a gather of rows by column index — a negative index first
  shifted by N —, a product with the weights, a scatter-add by row index into zeros). One layer maps an embedding E to
      E' = lrelu((E + A(E))·W₁ + b₁) + lrelu((E ⊙ A(E))·W₂ + b₂),
  and the result is the node table, the first layer's row-normalised embedding and the second layer's, side by side.
  Both programs compute exactly this; the kernel program computes each layer block by block.
-/
import proofs.«112415_j84722524881132_1_alg».proof.Proof.Gen.KernelIdeal
import proofs.«112415_j84722524881132_1_alg».proof.Proof.Gen.ReferenceIdeal
import proofs.«112415_j84722524881132_1_alg».proof.Proof.LibBiInteraction

noncomputable section

namespace Cert.Spec

open Cert.KernelIdeal Cert.KernelIdeal.Gen
open Idealize.ShloMosaic
open Cert.BiInteraction (layer normalized)

/-- The column indices as the gather reads them: a negative index shifted up by the number of nodes, laid as a column. -/
def gatherIdx (col : (⟨S2560000, .i32⟩ : BufTy).Contents (Elt Ideal)) : (⟨S2560000x1, .i32⟩ : BufTy).Contents (Elt Ideal) :=
  broadcastInDim S2560000x1 ![0] bcast_S2560000_S2560000x1_0
    (select (cmpi .slt col (broadcastInDim S2560000 ![] bcast_S_S2560000 (constantI S_ 32 0#32)))
      (addi col (broadcastInDim S2560000 ![] bcast_S_S2560000 (constantI S_ 32 160000#32))) col)

/-- The aggregation of a 64-column table: gather by column index, weigh, scatter-add by row index into zeros. -/
def agg64 (x : (⟨S160000x64, .f32⟩ : BufTy).Contents (Elt Ideal)) (row col : (⟨S2560000, .i32⟩ : BufTy).Contents (Elt Ideal))
    (val : (⟨S2560000, .f32⟩ : BufTy).Contents (Elt Ideal)) : (⟨S160000x64, .f32⟩ : BufTy).Contents (Elt Ideal) :=
  Host.scatterAdd scatter_S160000x64_S2560000x1_S2560000x64_1_0_0_1
    (broadcastInDim S160000x64 ![] bcast_S_S160000x64 (constant (F := Ideal) S_ .f32 0x00000000#32))
    (broadcastInDim S2560000x1 ![0] bcast_S2560000_S2560000x1_0 row)
    (mulf (broadcastInDim S2560000x64 ![0, 1] bcast_S2560000x1_S2560000x64_0_1 (broadcastInDim S2560000x1 ![0] bcast_S2560000_S2560000x1_0 val))
      (Host.gather gather_S160000x64_S2560000x1_S2560000x64_1_0_n_n_0_1_164 x (gatherIdx col)))

/-- The aggregation of a 32-column table. -/
def agg32 (x : (⟨S160000x32, .f32⟩ : BufTy).Contents (Elt Ideal)) (row col : (⟨S2560000, .i32⟩ : BufTy).Contents (Elt Ideal))
    (val : (⟨S2560000, .f32⟩ : BufTy).Contents (Elt Ideal)) : (⟨S160000x32, .f32⟩ : BufTy).Contents (Elt Ideal) :=
  Host.scatterAdd scatter_S160000x32_S2560000x1_S2560000x32_1_0_0_1
    (broadcastInDim S160000x32 ![] bcast_S_S160000x32 (constant (F := Ideal) S_ .f32 0x00000000#32))
    (broadcastInDim S2560000x1 ![0] bcast_S2560000_S2560000x1_0 row)
    (mulf (broadcastInDim S2560000x32 ![0, 1] bcast_S2560000x1_S2560000x32_0_1 (broadcastInDim S2560000x1 ![0] bcast_S2560000_S2560000x1_0 val))
      (Host.gather gather_S160000x32_S2560000x1_S2560000x32_1_0_n_n_0_1_132 x (gatherIdx col)))

/-- The first layer's embedding: slope 0.01 as its f32 word, the biases laid as rows. -/
def ego1 (a0 : (⟨S160000x64, .f32⟩ : BufTy).Contents (Elt Ideal)) (a1 a2 : (⟨S2560000, .i32⟩ : BufTy).Contents (Elt Ideal))
    (a3 : (⟨S2560000, .f32⟩ : BufTy).Contents (Elt Ideal)) (a4 : (⟨S64x32, .f32⟩ : BufTy).Contents (Elt Ideal))
    (a5 : (⟨S32, .f32⟩ : BufTy).Contents (Elt Ideal)) (a6 : (⟨S64x32, .f32⟩ : BufTy).Contents (Elt Ideal))
    (a7 : (⟨S32, .f32⟩ : BufTy).Contents (Elt Ideal)) : (⟨S160000x32, .f32⟩ : BufTy).Contents (Elt Ideal) :=
  layer (M := 160000) (K := 64) (N := 32) 0x3C23D70A#32 bcast_S_S160000x32 Cert.ReferenceIdeal.Gen.bcast_S1x32_S160000x32_0_1
    a0 (agg64 a0 a1 a2 a3) a4 (broadcastInDim S1x32 ![1] Cert.ReferenceIdeal.Gen.bcast_S32_S1x32_1 a5)
    a6 (broadcastInDim S1x32 ![1] Cert.ReferenceIdeal.Gen.bcast_S32_S1x32_1 a7)

/-- The second layer's embedding, from the first's. -/
def ego2 (e : (⟨S160000x32, .f32⟩ : BufTy).Contents (Elt Ideal)) (a1 a2 : (⟨S2560000, .i32⟩ : BufTy).Contents (Elt Ideal))
    (a3 : (⟨S2560000, .f32⟩ : BufTy).Contents (Elt Ideal)) (a8 : (⟨S32x16, .f32⟩ : BufTy).Contents (Elt Ideal))
    (a9 : (⟨S16, .f32⟩ : BufTy).Contents (Elt Ideal)) (a10 : (⟨S32x16, .f32⟩ : BufTy).Contents (Elt Ideal))
    (a11 : (⟨S16, .f32⟩ : BufTy).Contents (Elt Ideal)) : (⟨S160000x16, .f32⟩ : BufTy).Contents (Elt Ideal) :=
  layer (M := 160000) (K := 32) (N := 16) 0x3C23D70A#32 Cert.ReferenceIdeal.Gen.bcast_S_S160000x16 Cert.ReferenceIdeal.Gen.bcast_S1x16_S160000x16_0_1
    e (agg32 e a1 a2 a3) a8 (broadcastInDim S1x16 ![1] Cert.ReferenceIdeal.Gen.bcast_S16_S1x16_1 a9)
    a10 (broadcastInDim S1x16 ![1] Cert.ReferenceIdeal.Gen.bcast_S16_S1x16_1 a11)

/-- Row normalisation of a 32-column table, floor 1e-12 as its f32 word. -/
def unit32 (y : (⟨S160000x32, .f32⟩ : BufTy).Contents (Elt Ideal)) : (⟨S160000x32, .f32⟩ : BufTy).Contents (Elt Ideal) :=
  normalized (M := 160000) (N := 32) 0x2B8CBCCC#32 Cert.ReferenceIdeal.Gen.reducesTo_S160000x32_S160000_d1 Cert.ReferenceIdeal.Gen.h_S_
    Cert.ReferenceIdeal.Gen.bcast_S160000_S160000x1_0 Cert.ReferenceIdeal.Gen.bcast_S_S160000x1 Cert.ReferenceIdeal.Gen.bcast_S160000x1_S160000x32_0_1 y

/-- Row normalisation of a 16-column table. -/
def unit16 (y : (⟨S160000x16, .f32⟩ : BufTy).Contents (Elt Ideal)) : (⟨S160000x16, .f32⟩ : BufTy).Contents (Elt Ideal) :=
  normalized (M := 160000) (N := 16) 0x2B8CBCCC#32 Cert.ReferenceIdeal.Gen.reducesTo_S160000x16_S160000_d1 Cert.ReferenceIdeal.Gen.h_S_
    Cert.ReferenceIdeal.Gen.bcast_S160000_S160000x1_0 Cert.ReferenceIdeal.Gen.bcast_S_S160000x1 Cert.ReferenceIdeal.Gen.bcast_S160000x1_S160000x16_0_1 y

/-- THE RESULT: the node table, the first layer's normalised embedding and the second's, side by side. -/
def result (a0 : (⟨S160000x64, .f32⟩ : BufTy).Contents (Elt Ideal)) (a1 a2 : (⟨S2560000, .i32⟩ : BufTy).Contents (Elt Ideal))
    (a3 : (⟨S2560000, .f32⟩ : BufTy).Contents (Elt Ideal)) (a4 : (⟨S64x32, .f32⟩ : BufTy).Contents (Elt Ideal))
    (a5 : (⟨S32, .f32⟩ : BufTy).Contents (Elt Ideal)) (a6 : (⟨S64x32, .f32⟩ : BufTy).Contents (Elt Ideal))
    (a7 : (⟨S32, .f32⟩ : BufTy).Contents (Elt Ideal)) (a8 : (⟨S32x16, .f32⟩ : BufTy).Contents (Elt Ideal))
    (a9 : (⟨S16, .f32⟩ : BufTy).Contents (Elt Ideal)) (a10 : (⟨S32x16, .f32⟩ : BufTy).Contents (Elt Ideal))
    (a11 : (⟨S16, .f32⟩ : BufTy).Contents (Elt Ideal)) : (⟨S160000x112, .f32⟩ : BufTy).Contents (Elt Ideal) :=
  concatenate S160000x112 1
    [⟨S160000x64, a0⟩, ⟨S160000x32, unit32 (ego1 a0 a1 a2 a3 a4 a5 a6 a7)⟩,
      ⟨S160000x16, unit16 (ego2 (ego1 a0 a1 a2 a3 a4 a5 a6 a7) a1 a2 a3 a8 a9 a10 a11)⟩]
    concatenates_S160000x64_S160000x32_S160000x16_S160000x112_d1

end Cert.Spec

end
-- ==== Proof.KernelIdeal.Value0.lean ====
/-
  What the first layer's launch leaves in its two result arrays, as whole-array functions of the arrays it finds.
  Grid point t stages rows 3200·t … 3200·t+3199 of the node table E and of the neighbour table S and the whole of the
  weight tables and bias rows; the body's arithmetic on the staged blocks is the bi-interaction layer on those rows,
  and a layer that acts row by row gives on picked rows the picked rows of the layer on the whole tables. The 50
  blocks written back tile the 160000 rows, so the first result array ends at the host's layer of (E, S, W₁, B₁, W₂, B₂)
  and the second at its row-normalised copy. On the extended reals; nothing needs finite entries.
-/
import proofs.«112415_j84722524881132_1_alg».proof.Proof.KernelIdeal.Layer0
import proofs.«112415_j84722524881132_1_alg».proof.Proof.LibBiInteraction

set_option maxRecDepth 16384

noncomputable section

namespace Cert.KernelIdeal.Layers

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.BlockRows (rowsOf blockRow)
open Cert.BiInteraction (layer normalized vecLayer vecNormalized)

variable (V : (c : Dev nD) → (b : Ref sig .tc) → Buf (Elt Ideal) ((c : Thread nD τ).loc b))

theorem origin2 : (![0, 0] : Fin 2 → Nat) = fun _ => 0 := funext fun a => by fin_cases a <;> rfl

/-! ## The body's arithmetic is the layer on a block -/

/-- The stored embedding block: the bi-interaction layer of the loaded blocks, slope 0.01 as its f32 word. -/
theorem pay_ego0 (v0 v1 : FVec Ideal S3200x64 .f32) (v7 v9 : FVec Ideal S64x32 .f32) (v12 v22 : FVec Ideal S1x32 .f32) :
    k0_pay2 (F := Ideal) v0 v1 v7 v9 v12 v22
      = vecLayer (TM := 3200) (K := 64) (N := 32) 0x3C23D70A#32 bitsLt_bf16_f32 broadcasts_S1x32_S3200x32 v0 v1 v7 v12 v9 v22 := by
  unfold k0_pay2 Cert.BiInteraction.vecLayer Cert.BiInteraction.vecLeaky Cert.BiInteraction.vecDense
  simp only [shapeCast_self]
  rfl

/-- The stored normalised block: the clamped row normalisation of the embedding block, floor 1e-12 as its f32 word. -/
theorem pay_normed0 (y : FVec Ideal S3200x32 .f32) (v0 v1 : FVec Ideal S3200x64 .f32) (v7 v9 : FVec Ideal S64x32 .f32) (v12 v22 : FVec Ideal S1x32 .f32)
    (hy : k0_pay2 (F := Ideal) v0 v1 v7 v9 v12 v22 = y) :
    k0_pay1 (F := Ideal) (k0_pay2 v0 v1 v7 v9 v12 v22) (k0_pay3 v0 v1 v7 v9 v12 v22)
      = vecNormalized (TM := 3200) (N := 32) 0x2B8CBCCC#32 reduces_S3200x32_S3200 (.inl rfl) rfl shapeCasts_S3200_S3200x1 broadcasts_S3200x1_S3200x32 y := by
  unfold k0_pay1 k0_pay3 Cert.BiInteraction.vecNormalized Cert.BiInteraction.vecDivisors
  rw [hy]

/-! ## The printed index maps, decided over the 50 grid points -/

theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The rows grid point t stages: 3200·t + p. -/
abbrev rows0 (t : Fin cfg0.N) : Fin 3200 → Fin 160000 := blockRow 3200 cfg0.N 160000 (by decide) t

/-! ## The operands' blocks -/

theorem blk0_0 (c : Dev nD) (t : Fin cfg0.N) : blk0 V c 0 t = rowsOf (rows0 t) (V c main_arg0) := by
  obtain ⟨e0, e1, -⟩ := index_facts0 t
  funext y
  show V c main_arg0 (((cfg0.win 0).blk t).view.emb y) = V c main_arg0 (ix2 (rows0 t (y 0)) (y 1))
  refine congrArg (V c main_arg0) ?_
  funext a; apply Fin.ext
  match a with
  | ⟨0, _⟩ => show win0_0.index t (0 : Fin 2) * 3200 + 1 * (y 0).val = 3200 * t.val + (y 0).val; rw [e0]; omega
  | ⟨1, _⟩ => show win0_0.index t (1 : Fin 2) * 64 + 1 * (y 1).val = (y 1).val; rw [e1]; omega

theorem blk0_1 (c : Dev nD) (t : Fin cfg0.N) : blk0 V c 1 t = rowsOf (rows0 t) (V c main_v12) := by
  obtain ⟨-, -, e0, e1, -⟩ := index_facts0 t
  funext y
  show V c main_v12 (((cfg0.win 1).blk t).view.emb y) = V c main_v12 (ix2 (rows0 t (y 0)) (y 1))
  refine congrArg (V c main_v12) ?_
  funext a; apply Fin.ext
  match a with
  | ⟨0, _⟩ => show win0_1.index t (0 : Fin 2) * 3200 + 1 * (y 0).val = 3200 * t.val + (y 0).val; rw [e0]; omega
  | ⟨1, _⟩ => show win0_1.index t (1 : Fin 2) * 64 + 1 * (y 1).val = (y 1).val; rw [e1]; omega

theorem blk0_2 (c : Dev nD) (t : Fin cfg0.N) : blk0 V c 2 t = V c main_arg4 := by
  obtain ⟨-, -, -, -, e0, e1, -⟩ := index_facts0 t
  funext y
  show V c main_arg4 (((cfg0.win 2).blk t).view.emb y) = V c main_arg4 y
  refine congrArg (V c main_arg4) ?_
  funext a; apply Fin.ext
  match a with
  | ⟨0, _⟩ => show win0_2.index t (0 : Fin 2) * 64 + 1 * (y 0).val = (y 0).val; rw [e0]; omega
  | ⟨1, _⟩ => show win0_2.index t (1 : Fin 2) * 32 + 1 * (y 1).val = (y 1).val; rw [e1]; omega

theorem blk0_3 (c : Dev nD) (t : Fin cfg0.N) : blk0 V c 3 t = V c main_v13 := by
  obtain ⟨-, -, -, -, -, -, e0, e1, -⟩ := index_facts0 t
  funext y
  show V c main_v13 (((cfg0.win 3).blk t).view.emb y) = V c main_v13 y
  refine congrArg (V c main_v13) ?_
  funext a; apply Fin.ext
  match a with
  | ⟨0, _⟩ => show win0_3.index t (0 : Fin 2) * 1 + 1 * (y 0).val = (y 0).val; rw [e0]; omega
  | ⟨1, _⟩ => show win0_3.index t (1 : Fin 2) * 32 + 1 * (y 1).val = (y 1).val; rw [e1]; omega

theorem blk0_4 (c : Dev nD) (t : Fin cfg0.N) : blk0 V c 4 t = V c main_arg6 := by
  obtain ⟨-, -, -, -, -, -, -, -, e0, e1, -⟩ := index_facts0 t
  funext y
  show V c main_arg6 (((cfg0.win 4).blk t).view.emb y) = V c main_arg6 y
  refine congrArg (V c main_arg6) ?_
  funext a; apply Fin.ext
  match a with
  | ⟨0, _⟩ => show win0_4.index t (0 : Fin 2) * 64 + 1 * (y 0).val = (y 0).val; rw [e0]; omega
  | ⟨1, _⟩ => show win0_4.index t (1 : Fin 2) * 32 + 1 * (y 1).val = (y 1).val; rw [e1]; omega

theorem blk0_5 (c : Dev nD) (t : Fin cfg0.N) : blk0 V c 5 t = V c main_v14 := by
  obtain ⟨-, -, -, -, -, -, -, -, -, -, e0, e1, -⟩ := index_facts0 t
  funext y
  show V c main_v14 (((cfg0.win 5).blk t).view.emb y) = V c main_v14 y
  refine congrArg (V c main_v14) ?_
  funext a; apply Fin.ext
  match a with
  | ⟨0, _⟩ => show win0_5.index t (0 : Fin 2) * 1 + 1 * (y 0).val = (y 0).val; rw [e0]; omega
  | ⟨1, _⟩ => show win0_5.index t (1 : Fin 2) * 32 + 1 * (y 1).val = (y 1).val; rw [e1]; omega

/-! ## A result block is the picked rows of a whole-array function -/

/-- Rows 3200·t + p of a 160000 × 32 table are block t of it, as result window 6 lays its blocks. -/
theorem rows_block0_6 (t : Fin cfg0.N) (G : FVec Ideal S160000x32 .f32) :
    (rowsOf (rows0 t) G : FVec Ideal S3200x32 .f32) = ((cfg0.win 6).blk t).view.read (Elt Ideal) G := by
  obtain ⟨-, -, -, -, -, -, -, -, -, -, -, -, e0, e1, -⟩ := index_facts0 t
  funext y
  show G (ix2 (rows0 t (y 0)) (y 1)) = G (((cfg0.win 6).blk t).view.emb y)
  refine congrArg G ?_
  funext a; apply Fin.ext
  match a with
  | ⟨0, _⟩ => show 3200 * t.val + (y 0).val = win0_6.index t (0 : Fin 2) * 3200 + 1 * (y 0).val; rw [e0]; omega
  | ⟨1, _⟩ => show (y 1).val = win0_6.index t (1 : Fin 2) * 32 + 1 * (y 1).val; rw [e1]; omega

theorem rows_block0_7 (t : Fin cfg0.N) (G : FVec Ideal S160000x32 .f32) :
    (rowsOf (rows0 t) G : FVec Ideal S3200x32 .f32) = ((cfg0.win 7).blk t).view.read (Elt Ideal) G := by
  obtain ⟨-, -, -, -, -, -, -, -, -, -, -, -, -, -, e0, e1⟩ := index_facts0 t
  funext y
  show G (ix2 (rows0 t (y 0)) (y 1)) = G (((cfg0.win 7).blk t).view.emb y)
  refine congrArg G ?_
  funext a; apply Fin.ext
  match a with
  | ⟨0, _⟩ => show 3200 * t.val + (y 0).val = win0_7.index t (0 : Fin 2) * 3200 + 1 * (y 0).val; rw [e0]; omega
  | ⟨1, _⟩ => show (y 1).val = win0_7.index t (1 : Fin 2) * 32 + 1 * (y 1).val; rw [e1]; omega

section Whole

variable (h0 : S_.BroadcastsInDim S160000x32 ![]) (h2 : S1x32.BroadcastsInDim S160000x32 ![0, 1])

/-- The embedding the first layer computes, on the whole tables the launch finds. -/
abbrev ego0 (c : Dev nD) : FVec Ideal S160000x32 .f32 :=
  layer (M := 160000) (K := 64) (N := 32) 0x3C23D70A#32 h0 h2 (V c main_arg0) (V c main_v12) (V c main_arg4) (V c main_v13) (V c main_arg6) (V c main_v14)

/-- The embedding block the body leaves at point t is rows 3200·t … of the whole tables' layer. -/
theorem newEgo0_rows (c : Dev nD) (t : Fin cfg0.N) :
    newEgo0 (blk0 V c 0 t) (blk0 V c 1 t) (blk0 V c 2 t) (blk0 V c 3 t) (blk0 V c 4 t) (blk0 V c 5 t)
      = rowsOf (rows0 t) (ego0 V h0 h2 c) := by
  unfold newEgo0
  rw [View.canon_unit_zero origin2]
  simp only [View.ld_unit_zero (S := S3200x64) origin2, View.ld_unit_zero (S := S64x32) origin2, View.ld_unit_zero (S := S1x32) origin2]
  rw [blk0_0, blk0_1, blk0_2, blk0_3, blk0_4, blk0_5, pay_ego0]
  exact Cert.BiInteraction.vecLayer_rows (rows0 t) 0x3C23D70A#32 bitsLt_bf16_f32 broadcasts_S1x32_S3200x32 h0 h2 _ _ _ _ _ _

theorem flushed0_6 (c : Dev nD) (t : Fin cfg0.N) :
    (dat0 V c).flushed 6 t = ((cfg0.win 6).blk t).view.read (Elt Ideal) (ego0 V h0 h2 c) := by
  show (cfg0.win 6).cut (grid0.coords t) ((dat0 V c).after 6 t) = _
  rw [after0_6, newEgo0_rows V h0 h2 c t]
  exact rows_block0_6 t _

variable (hrt : S160000x32.ReducesTo [1] (⟨1, ![160000]⟩ : Shape)) (hz : 0 < S_.numel)
  (hb1 : (⟨1, ![160000]⟩ : Shape).BroadcastsInDim (⟨2, ![160000, 1]⟩ : Shape) ![0])
  (hbs : S_.BroadcastsInDim (⟨2, ![160000, 1]⟩ : Shape) ![])
  (hbc : (⟨2, ![160000, 1]⟩ : Shape).BroadcastsInDim S160000x32 ![0, 1])

/-- Its row-normalised copy. -/
abbrev unit0 (c : Dev nD) : FVec Ideal S160000x32 .f32 :=
  normalized (M := 160000) (N := 32) 0x2B8CBCCC#32 hrt hz hb1 hbs hbc (ego0 V h0 h2 c)

theorem normed0_rows (c : Dev nD) (t : Fin cfg0.N) :
    normed0 (blk0 V c 0 t) (blk0 V c 1 t) (blk0 V c 2 t) (blk0 V c 3 t) (blk0 V c 4 t) (blk0 V c 5 t)
      = rowsOf (rows0 t) (unit0 V h0 h2 hrt hz hb1 hbs hbc c) := by
  have hy := newEgo0_rows V h0 h2 c t
  unfold newEgo0 at hy
  rw [View.canon_unit_zero origin2] at hy
  unfold normed0
  rw [View.canon_unit_zero origin2, pay_normed0 _ _ _ _ _ _ _ hy]
  exact Cert.BiInteraction.vecNormalized_rows (rows0 t) 0x2B8CBCCC#32 reduces_S3200x32_S3200 _ _ shapeCasts_S3200_S3200x1
    broadcasts_S3200x1_S3200x32 hrt (by decide) hz hb1 hbs hbc _

theorem flushed0_7 (c : Dev nD) (t : Fin cfg0.N) :
    (dat0 V c).flushed 7 t = ((cfg0.win 7).blk t).view.read (Elt Ideal) (unit0 V h0 h2 hrt hz hb1 hbs hbc c) := by
  show (cfg0.win 7).cut (grid0.coords t) ((dat0 V c).after 7 t) = _
  rw [after0_7, normed0_rows V h0 h2 hrt hz hb1 hbs hbc c t]
  exact rows_block0_7 t _

/-! ## The 50 blocks tile the 160000 rows -/

theorem mem_block0_6 (t : Fin cfg0.N) (i : S160000x32.Idx) :
    i ∈ ((cfg0.win 6).blk t).view.set ↔ ∀ a : Fin 2, win0_6.index t a * S3200x32.size a ≤ (i a).val ∧ (i a).val < win0_6.index t a * S3200x32.size a + S3200x32.size a := by
  show i ∈ ((View.whole main_v15_0).slice (win0_6.rect t)).set ↔ _
  rw [View.set_slice_whole, Rect.mem_set_unit]
  exact Iff.rfl

theorem mem_block0_7 (t : Fin cfg0.N) (i : S160000x32.Idx) :
    i ∈ ((cfg0.win 7).blk t).view.set ↔ ∀ a : Fin 2, win0_7.index t a * S3200x32.size a ≤ (i a).val ∧ (i a).val < win0_7.index t a * S3200x32.size a + S3200x32.size a := by
  show i ∈ ((View.whole main_v15_1).slice (win0_7.rect t)).set ↔ _
  rw [View.set_slice_whole, Rect.mem_set_unit]
  exact Iff.rfl

/-- Row r lies in the block of point r / 3200. -/
theorem point_of_row0 (i : S160000x32.Idx) : ∃ t : Fin cfg0.N, t.val = (i 0).val / 3200 := by
  have hi0 : (i 0).val < 160000 := (i 0).isLt
  exact ⟨⟨(i 0).val / 3200, by rw [show cfg0.N = 50 from N_0]; omega⟩, rfl⟩

theorem tiles0_6 (i : S160000x32.Idx) : ∃ t : Fin cfg0.N, (cfg0.win 6).flush t = true ∧ i ∈ ((cfg0.win 6).blk t).view.set := by
  have hi0 : (i 0).val < 160000 := (i 0).isLt
  have hi1 : (i 1).val < 32 := (i 1).isLt
  obtain ⟨t, ht⟩ := point_of_row0 i
  obtain ⟨-, -, -, -, -, -, -, -, -, -, -, -, e0, e1, -⟩ := index_facts0 t
  refine ⟨t, flush0_6 t, ?_⟩
  rw [mem_block0_6]
  intro a
  match a with
  | ⟨0, _⟩ => show win0_6.index t (0 : Fin 2) * 3200 ≤ (i 0).val ∧ (i 0).val < win0_6.index t (0 : Fin 2) * 3200 + 3200; rw [e0, ht]; omega
  | ⟨1, _⟩ => show win0_6.index t (1 : Fin 2) * 32 ≤ (i 1).val ∧ (i 1).val < win0_6.index t (1 : Fin 2) * 32 + 32; rw [e1]; omega

theorem tiles0_7 (i : S160000x32.Idx) : ∃ t : Fin cfg0.N, (cfg0.win 7).flush t = true ∧ i ∈ ((cfg0.win 7).blk t).view.set := by
  have hi0 : (i 0).val < 160000 := (i 0).isLt
  have hi1 : (i 1).val < 32 := (i 1).isLt
  obtain ⟨t, ht⟩ := point_of_row0 i
  obtain ⟨-, -, -, -, -, -, -, -, -, -, -, -, -, -, e0, e1⟩ := index_facts0 t
  refine ⟨t, flush0_7 t, ?_⟩
  rw [mem_block0_7]
  intro a
  match a with
  | ⟨0, _⟩ => show win0_7.index t (0 : Fin 2) * 3200 ≤ (i 0).val ∧ (i 0).val < win0_7.index t (0 : Fin 2) * 3200 + 3200; rw [e0, ht]; omega
  | ⟨1, _⟩ => show win0_7.index t (1 : Fin 2) * 32 ≤ (i 1).val ∧ (i 1).val < win0_7.index t (1 : Fin 2) * 32 + 32; rw [e1]; omega

/-! ## The two result arrays after the launch -/

/-- The first result array ends at the layer of the whole tables. -/
theorem final0_6 (c : Dev nD) : (dat0 V c).arrAt 6 cfg0.N = ego0 V h0 h2 c :=
  (dat0 V c).arrAt_eq_of_cover 6 (ego0 V h0 h2 c) (fun t _ => flushed0_6 V h0 h2 c t) tiles0_6

/-- The second at its row-normalised copy. -/
theorem final0_7 (c : Dev nD) : (dat0 V c).arrAt 7 cfg0.N = unit0 V h0 h2 hrt hz hb1 hbs hbc c :=
  (dat0 V c).arrAt_eq_of_cover 7 (unit0 V h0 h2 hrt hz hb1 hbs hbc c) (fun t _ => flushed0_7 V h0 h2 hrt hz hb1 hbs hbc c t) tiles0_7

end Whole

end Cert.KernelIdeal.Layers

end
-- ==== Proof.KernelIdeal.Value1.lean ====
/-
  What the second layer's launch leaves in its two result arrays, as whole-array functions of the arrays it finds.
  Grid point t stages rows 3200·t … 3200·t+3199 of the first layer's embedding E and of its neighbour table S (32
  columns) and the whole of the 32×16 weight tables and 1×16 bias rows; as for the first layer, the body's arithmetic on
  the staged blocks is the bi-interaction layer on those rows, the 50 blocks written back tile the 160000 rows, and
  the two result arrays end at the host's layer of (E, S, W₁, B₁, W₂, B₂) and at its row-normalised copy.
-/
import proofs.«112415_j84722524881132_1_alg».proof.Proof.KernelIdeal.Layer1
import proofs.«112415_j84722524881132_1_alg».proof.Proof.LibBiInteraction

set_option maxRecDepth 16384

noncomputable section

namespace Cert.KernelIdeal.Layers

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.BlockRows (rowsOf blockRow)
open Cert.BiInteraction (layer normalized vecLayer vecNormalized)

variable (V : (c : Dev nD) → (b : Ref sig .tc) → Buf (Elt Ideal) ((c : Thread nD τ).loc b))

theorem origin2' : (![0, 0] : Fin 2 → Nat) = fun _ => 0 := funext fun a => by fin_cases a <;> rfl

/-! ## The body's arithmetic is the layer on a block -/

/-- The stored embedding block: the bi-interaction layer of the loaded blocks, slope 0.01 as its f32 word. -/
theorem pay_ego1 (v0 v1 : FVec Ideal S3200x32 .f32) (v7 v9 : FVec Ideal S32x16 .f32) (v12 v22 : FVec Ideal S1x16 .f32) :
    k1_pay2 (F := Ideal) v0 v1 v7 v9 v12 v22
      = vecLayer (TM := 3200) (K := 32) (N := 16) 0x3C23D70A#32 bitsLt_bf16_f32 broadcasts_S1x16_S3200x16 v0 v1 v7 v12 v9 v22 := by
  unfold k1_pay2 Cert.BiInteraction.vecLayer Cert.BiInteraction.vecLeaky Cert.BiInteraction.vecDense
  simp only [shapeCast_self]
  rfl

/-- The stored normalised block: the clamped row normalisation of the embedding block, floor 1e-12 as its f32 word. -/
theorem pay_normed1 (y : FVec Ideal S3200x16 .f32) (v0 v1 : FVec Ideal S3200x32 .f32) (v7 v9 : FVec Ideal S32x16 .f32) (v12 v22 : FVec Ideal S1x16 .f32)
    (hy : k1_pay2 (F := Ideal) v0 v1 v7 v9 v12 v22 = y) :
    k1_pay1 (F := Ideal) (k1_pay2 v0 v1 v7 v9 v12 v22) (k1_pay3 v0 v1 v7 v9 v12 v22)
      = vecNormalized (TM := 3200) (N := 16) 0x2B8CBCCC#32 reduces_S3200x16_S3200 (.inl rfl) rfl shapeCasts_S3200_S3200x1 broadcasts_S3200x1_S3200x16 y := by
  unfold k1_pay1 k1_pay3 Cert.BiInteraction.vecNormalized Cert.BiInteraction.vecDivisors
  rw [hy]

/-! ## The printed index maps, decided over the 50 grid points -/

theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- The rows grid point t stages: 3200·t + p. -/
abbrev rows1 (t : Fin cfg1.N) : Fin 3200 → Fin 160000 := blockRow 3200 cfg1.N 160000 (by decide) t

/-! ## The operands' blocks -/

theorem blk1_0 (c : Dev nD) (t : Fin cfg1.N) : blk1 V c 0 t = rowsOf (rows1 t) (V c main_v15_0) := by
  obtain ⟨e0, e1, -⟩ := index_facts1 t
  funext y
  show V c main_v15_0 (((cfg1.win 0).blk t).view.emb y) = V c main_v15_0 (ix2 (rows1 t (y 0)) (y 1))
  refine congrArg (V c main_v15_0) ?_
  funext a; apply Fin.ext
  match a with
  | ⟨0, _⟩ => show win1_0.index t (0 : Fin 2) * 3200 + 1 * (y 0).val = 3200 * t.val + (y 0).val; rw [e0]; omega
  | ⟨1, _⟩ => show win1_0.index t (1 : Fin 2) * 32 + 1 * (y 1).val = (y 1).val; rw [e1]; omega

theorem blk1_1 (c : Dev nD) (t : Fin cfg1.N) : blk1 V c 1 t = rowsOf (rows1 t) (V c main_v28) := by
  obtain ⟨-, -, e0, e1, -⟩ := index_facts1 t
  funext y
  show V c main_v28 (((cfg1.win 1).blk t).view.emb y) = V c main_v28 (ix2 (rows1 t (y 0)) (y 1))
  refine congrArg (V c main_v28) ?_
  funext a; apply Fin.ext
  match a with
  | ⟨0, _⟩ => show win1_1.index t (0 : Fin 2) * 3200 + 1 * (y 0).val = 3200 * t.val + (y 0).val; rw [e0]; omega
  | ⟨1, _⟩ => show win1_1.index t (1 : Fin 2) * 32 + 1 * (y 1).val = (y 1).val; rw [e1]; omega

theorem blk1_2 (c : Dev nD) (t : Fin cfg1.N) : blk1 V c 2 t = V c main_arg8 := by
  obtain ⟨-, -, -, -, e0, e1, -⟩ := index_facts1 t
  funext y
  show V c main_arg8 (((cfg1.win 2).blk t).view.emb y) = V c main_arg8 y
  refine congrArg (V c main_arg8) ?_
  funext a; apply Fin.ext
  match a with
  | ⟨0, _⟩ => show win1_2.index t (0 : Fin 2) * 32 + 1 * (y 0).val = (y 0).val; rw [e0]; omega
  | ⟨1, _⟩ => show win1_2.index t (1 : Fin 2) * 16 + 1 * (y 1).val = (y 1).val; rw [e1]; omega

theorem blk1_3 (c : Dev nD) (t : Fin cfg1.N) : blk1 V c 3 t = V c main_v29 := by
  obtain ⟨-, -, -, -, -, -, e0, e1, -⟩ := index_facts1 t
  funext y
  show V c main_v29 (((cfg1.win 3).blk t).view.emb y) = V c main_v29 y
  refine congrArg (V c main_v29) ?_
  funext a; apply Fin.ext
  match a with
  | ⟨0, _⟩ => show win1_3.index t (0 : Fin 2) * 1 + 1 * (y 0).val = (y 0).val; rw [e0]; omega
  | ⟨1, _⟩ => show win1_3.index t (1 : Fin 2) * 16 + 1 * (y 1).val = (y 1).val; rw [e1]; omega

theorem blk1_4 (c : Dev nD) (t : Fin cfg1.N) : blk1 V c 4 t = V c main_arg10 := by
  obtain ⟨-, -, -, -, -, -, -, -, e0, e1, -⟩ := index_facts1 t
  funext y
  show V c main_arg10 (((cfg1.win 4).blk t).view.emb y) = V c main_arg10 y
  refine congrArg (V c main_arg10) ?_
  funext a; apply Fin.ext
  match a with
  | ⟨0, _⟩ => show win1_4.index t (0 : Fin 2) * 32 + 1 * (y 0).val = (y 0).val; rw [e0]; omega
  | ⟨1, _⟩ => show win1_4.index t (1 : Fin 2) * 16 + 1 * (y 1).val = (y 1).val; rw [e1]; omega

theorem blk1_5 (c : Dev nD) (t : Fin cfg1.N) : blk1 V c 5 t = V c main_v30 := by
  obtain ⟨-, -, -, -, -, -, -, -, -, -, e0, e1, -⟩ := index_facts1 t
  funext y
  show V c main_v30 (((cfg1.win 5).blk t).view.emb y) = V c main_v30 y
  refine congrArg (V c main_v30) ?_
  funext a; apply Fin.ext
  match a with
  | ⟨0, _⟩ => show win1_5.index t (0 : Fin 2) * 1 + 1 * (y 0).val = (y 0).val; rw [e0]; omega
  | ⟨1, _⟩ => show win1_5.index t (1 : Fin 2) * 16 + 1 * (y 1).val = (y 1).val; rw [e1]; omega

/-! ## A result block is the picked rows of a whole-array function -/

/-- Rows 3200·t + p of a 160000 × 32 table are block t of it, as result window 6 lays its blocks. -/
theorem rows_block1_6 (t : Fin cfg1.N) (G : FVec Ideal S160000x16 .f32) :
    (rowsOf (rows1 t) G : FVec Ideal S3200x16 .f32) = ((cfg1.win 6).blk t).view.read (Elt Ideal) G := by
  obtain ⟨-, -, -, -, -, -, -, -, -, -, -, -, e0, e1, -⟩ := index_facts1 t
  funext y
  show G (ix2 (rows1 t (y 0)) (y 1)) = G (((cfg1.win 6).blk t).view.emb y)
  refine congrArg G ?_
  funext a; apply Fin.ext
  match a with
  | ⟨0, _⟩ => show 3200 * t.val + (y 0).val = win1_6.index t (0 : Fin 2) * 3200 + 1 * (y 0).val; rw [e0]; omega
  | ⟨1, _⟩ => show (y 1).val = win1_6.index t (1 : Fin 2) * 16 + 1 * (y 1).val; rw [e1]; omega

theorem rows_block1_7 (t : Fin cfg1.N) (G : FVec Ideal S160000x16 .f32) :
    (rowsOf (rows1 t) G : FVec Ideal S3200x16 .f32) = ((cfg1.win 7).blk t).view.read (Elt Ideal) G := by
  obtain ⟨-, -, -, -, -, -, -, -, -, -, -, -, -, -, e0, e1⟩ := index_facts1 t
  funext y
  show G (ix2 (rows1 t (y 0)) (y 1)) = G (((cfg1.win 7).blk t).view.emb y)
  refine congrArg G ?_
  funext a; apply Fin.ext
  match a with
  | ⟨0, _⟩ => show 3200 * t.val + (y 0).val = win1_7.index t (0 : Fin 2) * 3200 + 1 * (y 0).val; rw [e0]; omega
  | ⟨1, _⟩ => show (y 1).val = win1_7.index t (1 : Fin 2) * 16 + 1 * (y 1).val; rw [e1]; omega

section Whole

variable (h0 : S_.BroadcastsInDim S160000x16 ![]) (h2 : S1x16.BroadcastsInDim S160000x16 ![0, 1])

/-- The embedding the first layer computes, on the whole tables the launch finds. -/
abbrev ego1 (c : Dev nD) : FVec Ideal S160000x16 .f32 :=
  layer (M := 160000) (K := 32) (N := 16) 0x3C23D70A#32 h0 h2 (V c main_v15_0) (V c main_v28) (V c main_arg8) (V c main_v29) (V c main_arg10) (V c main_v30)

/-- The embedding block the body leaves at point t is rows 3200·t … of the whole tables' layer. -/
theorem newEgo1_rows (c : Dev nD) (t : Fin cfg1.N) :
    newEgo1 (blk1 V c 0 t) (blk1 V c 1 t) (blk1 V c 2 t) (blk1 V c 3 t) (blk1 V c 4 t) (blk1 V c 5 t)
      = rowsOf (rows1 t) (ego1 V h0 h2 c) := by
  unfold newEgo1
  rw [View.canon_unit_zero origin2']
  simp only [View.ld_unit_zero (S := S3200x32) origin2', View.ld_unit_zero (S := S32x16) origin2', View.ld_unit_zero (S := S1x16) origin2']
  rw [blk1_0, blk1_1, blk1_2, blk1_3, blk1_4, blk1_5, pay_ego1]
  exact Cert.BiInteraction.vecLayer_rows (rows1 t) 0x3C23D70A#32 bitsLt_bf16_f32 broadcasts_S1x16_S3200x16 h0 h2 _ _ _ _ _ _

theorem flushed1_6 (c : Dev nD) (t : Fin cfg1.N) :
    (dat1 V c).flushed 6 t = ((cfg1.win 6).blk t).view.read (Elt Ideal) (ego1 V h0 h2 c) := by
  show (cfg1.win 6).cut (grid1.coords t) ((dat1 V c).after 6 t) = _
  rw [after1_6, newEgo1_rows V h0 h2 c t]
  exact rows_block1_6 t _

variable (hrt : S160000x16.ReducesTo [1] (⟨1, ![160000]⟩ : Shape)) (hz : 0 < S_.numel)
  (hb1 : (⟨1, ![160000]⟩ : Shape).BroadcastsInDim (⟨2, ![160000, 1]⟩ : Shape) ![0])
  (hbs : S_.BroadcastsInDim (⟨2, ![160000, 1]⟩ : Shape) ![])
  (hbc : (⟨2, ![160000, 1]⟩ : Shape).BroadcastsInDim S160000x16 ![0, 1])

/-- Its row-normalised copy. -/
abbrev unit1 (c : Dev nD) : FVec Ideal S160000x16 .f32 :=
  normalized (M := 160000) (N := 16) 0x2B8CBCCC#32 hrt hz hb1 hbs hbc (ego1 V h0 h2 c)

theorem normed1_rows (c : Dev nD) (t : Fin cfg1.N) :
    normed1 (blk1 V c 0 t) (blk1 V c 1 t) (blk1 V c 2 t) (blk1 V c 3 t) (blk1 V c 4 t) (blk1 V c 5 t)
      = rowsOf (rows1 t) (unit1 V h0 h2 hrt hz hb1 hbs hbc c) := by
  have hy := newEgo1_rows V h0 h2 c t
  unfold newEgo1 at hy
  rw [View.canon_unit_zero origin2'] at hy
  unfold normed1
  rw [View.canon_unit_zero origin2', pay_normed1 _ _ _ _ _ _ _ hy]
  exact Cert.BiInteraction.vecNormalized_rows (rows1 t) 0x2B8CBCCC#32 reduces_S3200x16_S3200 _ _ shapeCasts_S3200_S3200x1
    broadcasts_S3200x1_S3200x16 hrt (by decide) hz hb1 hbs hbc _

theorem flushed1_7 (c : Dev nD) (t : Fin cfg1.N) :
    (dat1 V c).flushed 7 t = ((cfg1.win 7).blk t).view.read (Elt Ideal) (unit1 V h0 h2 hrt hz hb1 hbs hbc c) := by
  show (cfg1.win 7).cut (grid1.coords t) ((dat1 V c).after 7 t) = _
  rw [after1_7, normed1_rows V h0 h2 hrt hz hb1 hbs hbc c t]
  exact rows_block1_7 t _

/-! ## The 50 blocks tile the 160000 rows -/

theorem mem_block1_6 (t : Fin cfg1.N) (i : S160000x16.Idx) :
    i ∈ ((cfg1.win 6).blk t).view.set ↔ ∀ a : Fin 2, win1_6.index t a * S3200x16.size a ≤ (i a).val ∧ (i a).val < win1_6.index t a * S3200x16.size a + S3200x16.size a := by
  show i ∈ ((View.whole main_v31_0).slice (win1_6.rect t)).set ↔ _
  rw [View.set_slice_whole, Rect.mem_set_unit]
  exact Iff.rfl

theorem mem_block1_7 (t : Fin cfg1.N) (i : S160000x16.Idx) :
    i ∈ ((cfg1.win 7).blk t).view.set ↔ ∀ a : Fin 2, win1_7.index t a * S3200x16.size a ≤ (i a).val ∧ (i a).val < win1_7.index t a * S3200x16.size a + S3200x16.size a := by
  show i ∈ ((View.whole main_v31_1).slice (win1_7.rect t)).set ↔ _
  rw [View.set_slice_whole, Rect.mem_set_unit]
  exact Iff.rfl

/-- Row r lies in the block of point r / 3200. -/
theorem point_of_row1 (i : S160000x16.Idx) : ∃ t : Fin cfg1.N, t.val = (i 0).val / 3200 := by
  have hi0 : (i 0).val < 160000 := (i 0).isLt
  exact ⟨⟨(i 0).val / 3200, by rw [show cfg1.N = 50 from N_1]; omega⟩, rfl⟩

theorem tiles1_6 (i : S160000x16.Idx) : ∃ t : Fin cfg1.N, (cfg1.win 6).flush t = true ∧ i ∈ ((cfg1.win 6).blk t).view.set := by
  have hi0 : (i 0).val < 160000 := (i 0).isLt
  have hi1 : (i 1).val < 16 := (i 1).isLt
  obtain ⟨t, ht⟩ := point_of_row1 i
  obtain ⟨-, -, -, -, -, -, -, -, -, -, -, -, e0, e1, -⟩ := index_facts1 t
  refine ⟨t, flush1_6 t, ?_⟩
  rw [mem_block1_6]
  intro a
  match a with
  | ⟨0, _⟩ => show win1_6.index t (0 : Fin 2) * 3200 ≤ (i 0).val ∧ (i 0).val < win1_6.index t (0 : Fin 2) * 3200 + 3200; rw [e0, ht]; omega
  | ⟨1, _⟩ => show win1_6.index t (1 : Fin 2) * 16 ≤ (i 1).val ∧ (i 1).val < win1_6.index t (1 : Fin 2) * 16 + 16; rw [e1]; omega

theorem tiles1_7 (i : S160000x16.Idx) : ∃ t : Fin cfg1.N, (cfg1.win 7).flush t = true ∧ i ∈ ((cfg1.win 7).blk t).view.set := by
  have hi0 : (i 0).val < 160000 := (i 0).isLt
  have hi1 : (i 1).val < 16 := (i 1).isLt
  obtain ⟨t, ht⟩ := point_of_row1 i
  obtain ⟨-, -, -, -, -, -, -, -, -, -, -, -, -, -, e0, e1⟩ := index_facts1 t
  refine ⟨t, flush1_7 t, ?_⟩
  rw [mem_block1_7]
  intro a
  match a with
  | ⟨0, _⟩ => show win1_7.index t (0 : Fin 2) * 3200 ≤ (i 0).val ∧ (i 0).val < win1_7.index t (0 : Fin 2) * 3200 + 3200; rw [e0, ht]; omega
  | ⟨1, _⟩ => show win1_7.index t (1 : Fin 2) * 16 ≤ (i 1).val ∧ (i 1).val < win1_7.index t (1 : Fin 2) * 16 + 16; rw [e1]; omega

/-! ## The two result arrays after the launch -/

/-- The first result array ends at the layer of the whole tables. -/
theorem final1_6 (c : Dev nD) : (dat1 V c).arrAt 6 cfg1.N = ego1 V h0 h2 c :=
  (dat1 V c).arrAt_eq_of_cover 6 (ego1 V h0 h2 c) (fun t _ => flushed1_6 V h0 h2 c t) tiles1_6

/-- The second at its row-normalised copy. -/
theorem final1_7 (c : Dev nD) : (dat1 V c).arrAt 7 cfg1.N = unit1 V h0 h2 hrt hz hb1 hbs hbc c :=
  (dat1 V c).arrAt_eq_of_cover 7 (unit1 V h0 h2 hrt hz hb1 hbs hbc c) (fun t _ => flushed1_7 V h0 h2 hrt hz hb1 hbs hbc c t) tiles1_7

end Whole

end Cert.KernelIdeal.Layers

end
-- ==== Proof.KernelValue.lean ====
/-
  The kernel program's result, as the specification's function of the arguments.

  Reading the buffers' contents boundary by boundary: the first host stretch leaves the first aggregation of the node
  table and the two bias vectors laid as rows; the first launch leaves the first layer's embedding and its normalised
  copy (each the host's layer on the whole tables, by the block argument); the second host stretch aggregates that
  embedding; the second launch leaves the second layer's embedding and its normalised copy; the last host operation
  joins the node table and the two normalised tables side by side. A bias vector reshaped to one row is the same
  vector broadcast into a row, which is how the specification spells it.
-/
import proofs.«112415_j84722524881132_1_alg».proof.Proof.Spec
import proofs.«112415_j84722524881132_1_alg».proof.Proof.KernelIdeal.Run
import proofs.«112415_j84722524881132_1_alg».proof.Proof.KernelIdeal.Value0
import proofs.«112415_j84722524881132_1_alg».proof.Proof.KernelIdeal.Value1
import Idealize.ShloMosaic.Lib.StableHlo.Run

set_option maxRecDepth 16384

noncomputable section

namespace Cert.KernelIdeal.Layers

open Cert.KernelIdeal Cert.KernelIdeal.Gen
open Idealize.ShloMosaic Idealize.ShloMosaic.TcCoe Idealize.ShloMosaic.StableHlo
open Idealize.SL Idealize.SL.Sem
open Cert.BiInteraction (layer normalized)

variable (m : (ℓ : Loc nD τ sig) → Buf (Elt Ideal) ℓ) (ρ : Dev nD → PrngReg)

/-- A buffer neither launch's operand and that the first host stretch does not write holds its launch contents
    when the second host stretch starts. -/
theorem W2_launch (c : Dev nD) (r : Ref sig .tc) (h1 : r ∉ hostOps0_W) (h2 : ∀ w, Pipeline.arrRef spec0 w ≠ r) :
    W2 m ρ c (Proc.devRef .tc r) = m ((c : Thread nD τ).loc r) :=
  (W2_of_ne m ρ c r h2).trans ((W1_keep m ρ c r h1).trans rfl)

/-! ## What the first launch finds -/

theorem V1_arg0 (c : Dev nD) : V1 m ρ c main_arg0 = m ((c : Thread nD τ).loc main_arg0) := (W1_keep m ρ c main_arg0 (by decide)).trans rfl
theorem V1_arg4 (c : Dev nD) : V1 m ρ c main_arg4 = m ((c : Thread nD τ).loc main_arg4) := (W1_keep m ρ c main_arg4 (by decide)).trans rfl
theorem V1_arg6 (c : Dev nD) : V1 m ρ c main_arg6 = m ((c : Thread nD τ).loc main_arg6) := (W1_keep m ρ c main_arg6 (by decide)).trans rfl

set_option maxHeartbeats 4000000 in
/-- The first aggregation. -/
theorem V1_side (c : Dev nD) : V1 m ρ c main_v12
    = Cert.Spec.agg64 (m ((c : Thread nD τ).loc main_arg0)) (m ((c : Thread nD τ).loc main_arg1)) (m ((c : Thread nD τ).loc main_arg2)) (m ((c : Thread nD τ).loc main_arg3)) := by
  show StableHlo.after hostOps0 (fun b => m (c, b)) (Proc.devRef .tc main_v12) = _
  after_results_simp <;> rfl

/-- The first bias, a vector reshaped to one row: the vector broadcast into a row. -/
theorem V1_bias1 (c : Dev nD) : V1 m ρ c main_v13
    = broadcastInDim S1x32 ![1] Cert.ReferenceIdeal.Gen.bcast_S32_S1x32_1 (m ((c : Thread nD τ).loc main_arg5)) := by
  refine Eq.trans ?_ (Cert.BlockRows.reshape_row (m ((c : Thread nD τ).loc main_arg5)) shapeCasts_S32_S1x32 Cert.ReferenceIdeal.Gen.bcast_S32_S1x32_1)
  show StableHlo.after hostOps0 (fun b => m (c, b)) (Proc.devRef .tc main_v13) = _
  after_results
  rfl

theorem V1_bias2 (c : Dev nD) : V1 m ρ c main_v14
    = broadcastInDim S1x32 ![1] Cert.ReferenceIdeal.Gen.bcast_S32_S1x32_1 (m ((c : Thread nD τ).loc main_arg7)) := by
  refine Eq.trans ?_ (Cert.BlockRows.reshape_row (m ((c : Thread nD τ).loc main_arg7)) shapeCasts_S32_S1x32 Cert.ReferenceIdeal.Gen.bcast_S32_S1x32_1)
  show StableHlo.after hostOps0 (fun b => m (c, b)) (Proc.devRef .tc main_v14) = _
  after_results
  rfl

/-- The first layer's embedding, on what the first launch finds, is the specification's. -/
theorem ego_first (c : Dev nD) :
    ego0 (V1 m ρ) bcast_S_S160000x32 Cert.ReferenceIdeal.Gen.bcast_S1x32_S160000x32_0_1 c
      = Cert.Spec.ego1 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  unfold Cert.Spec.ego1
  show layer _ _ _ (V1 m ρ c main_arg0) (V1 m ρ c main_v12) (V1 m ρ c main_arg4) (V1 m ρ c main_v13) (V1 m ρ c main_arg6) (V1 m ρ c main_v14) = _
  rw [V1_arg0, V1_side, V1_arg4, V1_bias1, V1_arg6, V1_bias2]

/-! ## What the second launch finds -/

/-- The first launch's first result, when the second host stretch starts. -/
theorem W2_ego (c : Dev nD) : W2 m ρ c (Proc.devRef .tc main_v15_0)
    = Cert.Spec.ego1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) :=
  (W2_arr m ρ c 6).trans ((final0_6 (V1 m ρ) bcast_S_S160000x32 Cert.ReferenceIdeal.Gen.bcast_S1x32_S160000x32_0_1 c).trans (ego_first m ρ c))

theorem V3_ego (c : Dev nD) : V3 m ρ c main_v15_0
    = Cert.Spec.ego1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) :=
  (W3_keep m ρ c main_v15_0 (by decide)).trans (W2_ego m ρ c)

theorem V3_arg8 (c : Dev nD) : V3 m ρ c main_arg8 = m ((c : Thread nD τ).loc main_arg8) :=
  (W3_keep m ρ c main_arg8 (by decide)).trans (W2_launch m ρ c main_arg8 (by decide) (by decide))
theorem V3_arg10 (c : Dev nD) : V3 m ρ c main_arg10 = m ((c : Thread nD τ).loc main_arg10) :=
  (W3_keep m ρ c main_arg10 (by decide)).trans (W2_launch m ρ c main_arg10 (by decide) (by decide))

set_option maxHeartbeats 4000000 in
/-- The second aggregation, of the first layer's embedding. -/
theorem V3_side (c : Dev nD) : V3 m ρ c main_v28
    = Cert.Spec.agg32 (Cert.Spec.ego1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)))
        (m ((c : Thread nD τ).loc main_arg1)) (m ((c : Thread nD τ).loc main_arg2)) (m ((c : Thread nD τ).loc main_arg3)) := by
  have e : V3 m ρ c main_v28 = Cert.Spec.agg32 (W2 m ρ c (Proc.devRef .tc main_v15_0)) (W2 m ρ c (Proc.devRef .tc main_arg1))
      (W2 m ρ c (Proc.devRef .tc main_arg2)) (W2 m ρ c (Proc.devRef .tc main_arg3)) := by
    show StableHlo.after hostOps1 (W2 m ρ c) (Proc.devRef .tc main_v28) = _
    after_results_simp <;> rfl
  rw [e, W2_ego, W2_launch m ρ c main_arg1 (by decide) (by decide), W2_launch m ρ c main_arg2 (by decide) (by decide),
    W2_launch m ρ c main_arg3 (by decide) (by decide)]

theorem V3_bias1 (c : Dev nD) : V3 m ρ c main_v29
    = broadcastInDim S1x16 ![1] Cert.ReferenceIdeal.Gen.bcast_S16_S1x16_1 (m ((c : Thread nD τ).loc main_arg9)) := by
  refine Eq.trans ?_ (Cert.BlockRows.reshape_row (m ((c : Thread nD τ).loc main_arg9)) shapeCasts_S16_S1x16 Cert.ReferenceIdeal.Gen.bcast_S16_S1x16_1)
  have e : V3 m ρ c main_v29 = shapeCast S1x16 (W2 m ρ c (Proc.devRef .tc main_arg9)) shapeCasts_S16_S1x16 := by
    show StableHlo.after hostOps1 (W2 m ρ c) (Proc.devRef .tc main_v29) = _
    after_results
    rfl
  rw [e, W2_launch m ρ c main_arg9 (by decide) (by decide)]

theorem V3_bias2 (c : Dev nD) : V3 m ρ c main_v30
    = broadcastInDim S1x16 ![1] Cert.ReferenceIdeal.Gen.bcast_S16_S1x16_1 (m ((c : Thread nD τ).loc main_arg11)) := by
  refine Eq.trans ?_ (Cert.BlockRows.reshape_row (m ((c : Thread nD τ).loc main_arg11)) shapeCasts_S16_S1x16 Cert.ReferenceIdeal.Gen.bcast_S16_S1x16_1)
  have e : V3 m ρ c main_v30 = shapeCast S1x16 (W2 m ρ c (Proc.devRef .tc main_arg11)) shapeCasts_S16_S1x16 := by
    show StableHlo.after hostOps1 (W2 m ρ c) (Proc.devRef .tc main_v30) = _
    after_results
    rfl
  rw [e, W2_launch m ρ c main_arg11 (by decide) (by decide)]

/-- The second layer's embedding, on what the second launch finds, is the specification's. -/
theorem ego_second (c : Dev nD) :
    ego1 (V3 m ρ) Cert.ReferenceIdeal.Gen.bcast_S_S160000x16 Cert.ReferenceIdeal.Gen.bcast_S1x16_S160000x16_0_1 c
      = Cert.Spec.ego2 (Cert.Spec.ego1 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)))
          (m ((c : Thread nD τ).loc main_arg1)) (m ((c : Thread nD τ).loc main_arg2)) (m ((c : Thread nD τ).loc main_arg3))
          (m ((c : Thread nD τ).loc main_arg8)) (m ((c : Thread nD τ).loc main_arg9)) (m ((c : Thread nD τ).loc main_arg10))
          (m ((c : Thread nD τ).loc main_arg11)) := by
  unfold Cert.Spec.ego2
  show layer _ _ _ (V3 m ρ c main_v15_0) (V3 m ρ c main_v28) (V3 m ρ c main_arg8) (V3 m ρ c main_v29) (V3 m ρ c main_arg10) (V3 m ρ c main_v30) = _
  rw [V3_ego, V3_side, V3_arg8, V3_bias1, V3_arg10, V3_bias2]

/-! ## The three tables the last host operation joins -/

theorem W4_nodes (c : Dev nD) : W4 m ρ c (Proc.devRef .tc main_arg0) = m ((c : Thread nD τ).loc main_arg0) :=
  (W4_of_ne m ρ c main_arg0 (by decide)).trans <| (W3_keep m ρ c main_arg0 (by decide)).trans <|
    (W2_of_in m ρ c 0 rfl).trans <| (W1_keep m ρ c main_arg0 (by decide)).trans rfl

theorem W4_unit1 (c : Dev nD) : W4 m ρ c (Proc.devRef .tc main_v15_1)
    = Cert.Spec.unit32 (Cert.Spec.ego1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7))) := by
  refine (W4_of_ne m ρ c main_v15_1 (by decide)).trans <| (W3_keep m ρ c main_v15_1 (by decide)).trans <| (W2_arr m ρ c 7).trans <|
    (final0_7 (V1 m ρ) bcast_S_S160000x32 Cert.ReferenceIdeal.Gen.bcast_S1x32_S160000x32_0_1
      Cert.ReferenceIdeal.Gen.reducesTo_S160000x32_S160000_d1 Cert.ReferenceIdeal.Gen.h_S_ Cert.ReferenceIdeal.Gen.bcast_S160000_S160000x1_0
      Cert.ReferenceIdeal.Gen.bcast_S_S160000x1 Cert.ReferenceIdeal.Gen.bcast_S160000x1_S160000x32_0_1 c).trans ?_
  unfold Cert.Spec.unit32
  exact congrArg (normalized (M := 160000) (N := 32) 0x2B8CBCCC#32 Cert.ReferenceIdeal.Gen.reducesTo_S160000x32_S160000_d1 Cert.ReferenceIdeal.Gen.h_S_
    Cert.ReferenceIdeal.Gen.bcast_S160000_S160000x1_0 Cert.ReferenceIdeal.Gen.bcast_S_S160000x1 Cert.ReferenceIdeal.Gen.bcast_S160000x1_S160000x32_0_1) (ego_first m ρ c)

theorem W4_unit2 (c : Dev nD) : W4 m ρ c (Proc.devRef .tc main_v31_1)
    = Cert.Spec.unit16 (Cert.Spec.ego2 (Cert.Spec.ego1 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)))
          (m ((c : Thread nD τ).loc main_arg1)) (m ((c : Thread nD τ).loc main_arg2)) (m ((c : Thread nD τ).loc main_arg3))
          (m ((c : Thread nD τ).loc main_arg8)) (m ((c : Thread nD τ).loc main_arg9)) (m ((c : Thread nD τ).loc main_arg10))
          (m ((c : Thread nD τ).loc main_arg11))) := by
  refine (W4_arr m ρ c 7).trans <|
    (final1_7 (V3 m ρ) Cert.ReferenceIdeal.Gen.bcast_S_S160000x16 Cert.ReferenceIdeal.Gen.bcast_S1x16_S160000x16_0_1
      Cert.ReferenceIdeal.Gen.reducesTo_S160000x16_S160000_d1 Cert.ReferenceIdeal.Gen.h_S_ Cert.ReferenceIdeal.Gen.bcast_S160000_S160000x1_0
      Cert.ReferenceIdeal.Gen.bcast_S_S160000x1 Cert.ReferenceIdeal.Gen.bcast_S160000x1_S160000x16_0_1 c).trans ?_
  unfold Cert.Spec.unit16
  exact congrArg (normalized (M := 160000) (N := 16) 0x2B8CBCCC#32 Cert.ReferenceIdeal.Gen.reducesTo_S160000x16_S160000_d1 Cert.ReferenceIdeal.Gen.h_S_
    Cert.ReferenceIdeal.Gen.bcast_S160000_S160000x1_0 Cert.ReferenceIdeal.Gen.bcast_S_S160000x1 Cert.ReferenceIdeal.Gen.bcast_S160000x1_S160000x16_0_1) (ego_second m ρ c)

/-- THE KERNEL PROGRAM'S RESULT is the specification's function of the arguments. -/
theorem kernel_value (c : Dev nD) : W5 m ρ c (Proc.devRef .tc main_v32)
    = Cert.Spec.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  have e : W5 m ρ c (Proc.devRef .tc main_v32) = concatenate S160000x112 1
      [⟨S160000x64, W4 m ρ c (Proc.devRef .tc main_arg0)⟩, ⟨S160000x32, W4 m ρ c (Proc.devRef .tc main_v15_1)⟩,
        ⟨S160000x16, W4 m ρ c (Proc.devRef .tc main_v31_1)⟩]
      concatenates_S160000x64_S160000x32_S160000x16_S160000x112_d1 := by
    show StableHlo.after hostOps2 (W4 m ρ c) (Proc.devRef .tc main_v32) = _
    after_results
    rfl
  rw [e, W4_nodes, W4_unit1, W4_unit2]
  rfl

end Cert.KernelIdeal.Layers

end
-- ==== Proof.RefRun.lean ====
/-
  The reference program's run. The program is a straight line of 103 host operations; in order they are seven stretches:
  the first neighbour aggregation, the first layer's embedding, its row normalisation, the second aggregation, the second
  layer's embedding, its row normalisation, and the join of three tables side by side. Every weakly fair execution
  terminates without a fault with every buffer at the operations' fold over its launch contents; what that fold is, stretch
  by stretch, is read in Proof/RefValue.lean.
-/
import proofs.«112415_j84722524881132_1_alg».proof.Proof.Gen.ReferenceIdeal
import Idealize.ShloMosaic.Lib.StableHlo.Run

noncomputable section

namespace Cert.ReferenceIdeal.Stretches

open Cert.ReferenceIdeal Cert.ReferenceIdeal.Gen Idealize.ShloMosaic Idealize.ShloMosaic.TcCoe Idealize.SL.Sem Idealize.ShloMosaic.StableHlo

variable {F : FTy → Type} [FloatOps F]

/-- The program's 103 operations, in order (a called function's operation stands in its call's place). -/
abbrev ops : List (HloOp τ sig (Elt F)) :=
  [ unary main_arg3 main_v0 (broadcastInDim S2560000x1 ![0] bcast_S2560000_S2560000x1_0 : (⟨S2560000, .f32⟩ : BufTy).Contents (Elt F) → (⟨S2560000x1, .f32⟩ : BufTy).Contents (Elt F)),
    nullary main_c (constantI S_ 32 0#32),
    unary main_c main_v1 (broadcastInDim S2560000 ![] bcast_S_S2560000 : (⟨S_, .i32⟩ : BufTy).Contents (Elt F) → (⟨S2560000, .i32⟩ : BufTy).Contents (Elt F)),
    binary main_arg2 main_v1 main_v2 (cmpi .slt : (⟨S2560000, .i32⟩ : BufTy).Contents (Elt F) → (⟨S2560000, .i32⟩ : BufTy).Contents (Elt F) → (⟨S2560000, .i1⟩ : BufTy).Contents (Elt F)),
    nullary main_c_0 (constantI S_ 32 160000#32),
    unary main_c_0 main_v3 (broadcastInDim S2560000 ![] bcast_S_S2560000 : (⟨S_, .i32⟩ : BufTy).Contents (Elt F) → (⟨S2560000, .i32⟩ : BufTy).Contents (Elt F)),
    binary main_arg2 main_v3 main_v4 (addi : (⟨S2560000, .i32⟩ : BufTy).Contents (Elt F) → (⟨S2560000, .i32⟩ : BufTy).Contents (Elt F) → (⟨S2560000, .i32⟩ : BufTy).Contents (Elt F)),
    ternary main_v2 main_v4 main_arg2 main_v5 (select : (⟨S2560000, .i1⟩ : BufTy).Contents (Elt F) → (⟨S2560000, .i32⟩ : BufTy).Contents (Elt F) → (⟨S2560000, .i32⟩ : BufTy).Contents (Elt F) → (⟨S2560000, .i32⟩ : BufTy).Contents (Elt F)),
    unary main_v5 main_v6 (broadcastInDim S2560000x1 ![0] bcast_S2560000_S2560000x1_0 : (⟨S2560000, .i32⟩ : BufTy).Contents (Elt F) → (⟨S2560000x1, .i32⟩ : BufTy).Contents (Elt F)),
    binary main_arg0 main_v6 main_v7 ((fun x i => Host.gather gather_S160000x64_S2560000x1_S2560000x64_1_0_n_n_0_1_164 x i) : (⟨S160000x64, .f32⟩ : BufTy).Contents (Elt F) → (⟨S2560000x1, .i32⟩ : BufTy).Contents (Elt F) → (⟨S2560000x64, .f32⟩ : BufTy).Contents (Elt F)),
    unary main_v0 main_v8 (broadcastInDim S2560000x64 ![0, 1] bcast_S2560000x1_S2560000x64_0_1 : (⟨S2560000x1, .f32⟩ : BufTy).Contents (Elt F) → (⟨S2560000x64, .f32⟩ : BufTy).Contents (Elt F)),
    binary main_v8 main_v7 main_v9 (mulf : (⟨S2560000x64, .f32⟩ : BufTy).Contents (Elt F) → (⟨S2560000x64, .f32⟩ : BufTy).Contents (Elt F) → (⟨S2560000x64, .f32⟩ : BufTy).Contents (Elt F)),
    nullary main_cst (constant S_ .f32 0x00000000#32),
    unary main_cst main_v10 (broadcastInDim S160000x64 ![] bcast_S_S160000x64 : (⟨S_, .f32⟩ : BufTy).Contents (Elt F) → (⟨S160000x64, .f32⟩ : BufTy).Contents (Elt F)),
    unary main_arg1 main_v11 (broadcastInDim S2560000x1 ![0] bcast_S2560000_S2560000x1_0 : (⟨S2560000, .i32⟩ : BufTy).Contents (Elt F) → (⟨S2560000x1, .i32⟩ : BufTy).Contents (Elt F)),
    ternary main_v10 main_v11 main_v9 main_v12 ((fun x i u => Host.scatterAdd scatter_S160000x64_S2560000x1_S2560000x64_1_0_0_1 x i u) : (⟨S160000x64, .f32⟩ : BufTy).Contents (Elt F) → (⟨S2560000x1, .i32⟩ : BufTy).Contents (Elt F) → (⟨S2560000x64, .f32⟩ : BufTy).Contents (Elt F) → (⟨S160000x64, .f32⟩ : BufTy).Contents (Elt F)),
    binary main_arg0 main_v12 main_v13 (addf : (⟨S160000x64, .f32⟩ : BufTy).Contents (Elt F) → (⟨S160000x64, .f32⟩ : BufTy).Contents (Elt F) → (⟨S160000x64, .f32⟩ : BufTy).Contents (Elt F)),
    binary main_v13 main_arg4 main_v14 ((fun l r => Host.dotGeneral dot_S160000x64_S64x32_S160000x32_1_0_0_1_n_n none l r) : (⟨S160000x64, .f32⟩ : BufTy).Contents (Elt F) → (⟨S64x32, .f32⟩ : BufTy).Contents (Elt F) → (⟨S160000x32, .f32⟩ : BufTy).Contents (Elt F)),
    unary main_arg5 main_v15 (broadcastInDim S1x32 ![1] bcast_S32_S1x32_1 : (⟨S32, .f32⟩ : BufTy).Contents (Elt F) → (⟨S1x32, .f32⟩ : BufTy).Contents (Elt F)),
    unary main_v15 main_v16 (broadcastInDim S160000x32 ![0, 1] bcast_S1x32_S160000x32_0_1 : (⟨S1x32, .f32⟩ : BufTy).Contents (Elt F) → (⟨S160000x32, .f32⟩ : BufTy).Contents (Elt F)),
    binary main_v14 main_v16 main_v17 (addf : (⟨S160000x32, .f32⟩ : BufTy).Contents (Elt F) → (⟨S160000x32, .f32⟩ : BufTy).Contents (Elt F) → (⟨S160000x32, .f32⟩ : BufTy).Contents (Elt F)),
    nullary main_cst_1 (constant S_ .f32 0x00000000#32),
    unary main_cst_1 main_v18 (broadcastInDim S160000x32 ![] bcast_S_S160000x32 : (⟨S_, .f32⟩ : BufTy).Contents (Elt F) → (⟨S160000x32, .f32⟩ : BufTy).Contents (Elt F)),
    binary main_v17 main_v18 main_v19 (cmpf .oge : (⟨S160000x32, .f32⟩ : BufTy).Contents (Elt F) → (⟨S160000x32, .f32⟩ : BufTy).Contents (Elt F) → (⟨S160000x32, .i1⟩ : BufTy).Contents (Elt F)),
    nullary main_cst_2 (constant S_ .f32 0x3C23D70A#32),
    unary main_cst_2 main_v20 (broadcastInDim S160000x32 ![] bcast_S_S160000x32 : (⟨S_, .f32⟩ : BufTy).Contents (Elt F) → (⟨S160000x32, .f32⟩ : BufTy).Contents (Elt F)),
    binary main_v20 main_v17 main_v21 (mulf : (⟨S160000x32, .f32⟩ : BufTy).Contents (Elt F) → (⟨S160000x32, .f32⟩ : BufTy).Contents (Elt F) → (⟨S160000x32, .f32⟩ : BufTy).Contents (Elt F)),
    TRef.ternary (TRef.of (T := ⟨S160000x32, .i1⟩) main_v19) (TRef.of (T := ⟨S160000x32, .f32⟩) main_v17) (TRef.of (T := ⟨S160000x32, .f32⟩) main_v21) (TRef.of (T := ⟨S160000x32, .f32⟩) main_v22) select,
    binary main_arg0 main_v12 main_v23 (mulf : (⟨S160000x64, .f32⟩ : BufTy).Contents (Elt F) → (⟨S160000x64, .f32⟩ : BufTy).Contents (Elt F) → (⟨S160000x64, .f32⟩ : BufTy).Contents (Elt F)),
    binary main_v23 main_arg6 main_v24 ((fun l r => Host.dotGeneral dot_S160000x64_S64x32_S160000x32_1_0_0_1_n_n none l r) : (⟨S160000x64, .f32⟩ : BufTy).Contents (Elt F) → (⟨S64x32, .f32⟩ : BufTy).Contents (Elt F) → (⟨S160000x32, .f32⟩ : BufTy).Contents (Elt F)),
    unary main_arg7 main_v25 (broadcastInDim S1x32 ![1] bcast_S32_S1x32_1 : (⟨S32, .f32⟩ : BufTy).Contents (Elt F) → (⟨S1x32, .f32⟩ : BufTy).Contents (Elt F)),
    unary main_v25 main_v26 (broadcastInDim S160000x32 ![0, 1] bcast_S1x32_S160000x32_0_1 : (⟨S1x32, .f32⟩ : BufTy).Contents (Elt F) → (⟨S160000x32, .f32⟩ : BufTy).Contents (Elt F)),
    binary main_v24 main_v26 main_v27 (addf : (⟨S160000x32, .f32⟩ : BufTy).Contents (Elt F) → (⟨S160000x32, .f32⟩ : BufTy).Contents (Elt F) → (⟨S160000x32, .f32⟩ : BufTy).Contents (Elt F)),
    nullary main_cst_3 (constant S_ .f32 0x00000000#32),
    unary main_cst_3 main_v28 (broadcastInDim S160000x32 ![] bcast_S_S160000x32 : (⟨S_, .f32⟩ : BufTy).Contents (Elt F) → (⟨S160000x32, .f32⟩ : BufTy).Contents (Elt F)),
    binary main_v27 main_v28 main_v29 (cmpf .oge : (⟨S160000x32, .f32⟩ : BufTy).Contents (Elt F) → (⟨S160000x32, .f32⟩ : BufTy).Contents (Elt F) → (⟨S160000x32, .i1⟩ : BufTy).Contents (Elt F)),
    nullary main_cst_4 (constant S_ .f32 0x3C23D70A#32),
    unary main_cst_4 main_v30 (broadcastInDim S160000x32 ![] bcast_S_S160000x32 : (⟨S_, .f32⟩ : BufTy).Contents (Elt F) → (⟨S160000x32, .f32⟩ : BufTy).Contents (Elt F)),
    binary main_v30 main_v27 main_v31 (mulf : (⟨S160000x32, .f32⟩ : BufTy).Contents (Elt F) → (⟨S160000x32, .f32⟩ : BufTy).Contents (Elt F) → (⟨S160000x32, .f32⟩ : BufTy).Contents (Elt F)),
    TRef.ternary (TRef.of (T := ⟨S160000x32, .i1⟩) main_v29) (TRef.of (T := ⟨S160000x32, .f32⟩) main_v27) (TRef.of (T := ⟨S160000x32, .f32⟩) main_v31) (TRef.of (T := ⟨S160000x32, .f32⟩) main_v32) select,
    binary main_v22 main_v32 main_v33 (addf : (⟨S160000x32, .f32⟩ : BufTy).Contents (Elt F) → (⟨S160000x32, .f32⟩ : BufTy).Contents (Elt F) → (⟨S160000x32, .f32⟩ : BufTy).Contents (Elt F)),
    binary main_v33 main_v33 main_v34 (mulf : (⟨S160000x32, .f32⟩ : BufTy).Contents (Elt F) → (⟨S160000x32, .f32⟩ : BufTy).Contents (Elt F) → (⟨S160000x32, .f32⟩ : BufTy).Contents (Elt F)),
    nullary main_cst_5 (constant S_ .f32 0x00000000#32),
    binary main_v34 main_cst_5 main_v35 ((fun x v => Host.reduceAdd x v reducesTo_S160000x32_S160000_d1 h_S_) : (⟨S160000x32, .f32⟩ : BufTy).Contents (Elt F) → (⟨S_, .f32⟩ : BufTy).Contents (Elt F) → (⟨S160000, .f32⟩ : BufTy).Contents (Elt F)),
    unary main_v35 main_v36 (broadcastInDim S160000x1 ![0] bcast_S160000_S160000x1_0 : (⟨S160000, .f32⟩ : BufTy).Contents (Elt F) → (⟨S160000x1, .f32⟩ : BufTy).Contents (Elt F)),
    unary main_v36 main_v37 (Host.sqrt : (⟨S160000x1, .f32⟩ : BufTy).Contents (Elt F) → (⟨S160000x1, .f32⟩ : BufTy).Contents (Elt F)),
    nullary main_cst_6 (constant S_ .f32 0x2B8CBCCC#32),
    unary main_cst_6 main_v38 (broadcastInDim S160000x1 ![] bcast_S_S160000x1 : (⟨S_, .f32⟩ : BufTy).Contents (Elt F) → (⟨S160000x1, .f32⟩ : BufTy).Contents (Elt F)),
    binary main_v37 main_v38 main_v39 (maximumf : (⟨S160000x1, .f32⟩ : BufTy).Contents (Elt F) → (⟨S160000x1, .f32⟩ : BufTy).Contents (Elt F) → (⟨S160000x1, .f32⟩ : BufTy).Contents (Elt F)),
    unary main_v39 main_v40 (broadcastInDim S160000x32 ![0, 1] bcast_S160000x1_S160000x32_0_1 : (⟨S160000x1, .f32⟩ : BufTy).Contents (Elt F) → (⟨S160000x32, .f32⟩ : BufTy).Contents (Elt F)),
    binary main_v33 main_v40 main_v41 (Host.divf : (⟨S160000x32, .f32⟩ : BufTy).Contents (Elt F) → (⟨S160000x32, .f32⟩ : BufTy).Contents (Elt F) → (⟨S160000x32, .f32⟩ : BufTy).Contents (Elt F)),
    unary main_arg3 main_v42 (broadcastInDim S2560000x1 ![0] bcast_S2560000_S2560000x1_0 : (⟨S2560000, .f32⟩ : BufTy).Contents (Elt F) → (⟨S2560000x1, .f32⟩ : BufTy).Contents (Elt F)),
    nullary main_c_7 (constantI S_ 32 0#32),
    unary main_c_7 main_v43 (broadcastInDim S2560000 ![] bcast_S_S2560000 : (⟨S_, .i32⟩ : BufTy).Contents (Elt F) → (⟨S2560000, .i32⟩ : BufTy).Contents (Elt F)),
    binary main_arg2 main_v43 main_v44 (cmpi .slt : (⟨S2560000, .i32⟩ : BufTy).Contents (Elt F) → (⟨S2560000, .i32⟩ : BufTy).Contents (Elt F) → (⟨S2560000, .i1⟩ : BufTy).Contents (Elt F)),
    nullary main_c_8 (constantI S_ 32 160000#32),
    unary main_c_8 main_v45 (broadcastInDim S2560000 ![] bcast_S_S2560000 : (⟨S_, .i32⟩ : BufTy).Contents (Elt F) → (⟨S2560000, .i32⟩ : BufTy).Contents (Elt F)),
    binary main_arg2 main_v45 main_v46 (addi : (⟨S2560000, .i32⟩ : BufTy).Contents (Elt F) → (⟨S2560000, .i32⟩ : BufTy).Contents (Elt F) → (⟨S2560000, .i32⟩ : BufTy).Contents (Elt F)),
    ternary main_v44 main_v46 main_arg2 main_v47 (select : (⟨S2560000, .i1⟩ : BufTy).Contents (Elt F) → (⟨S2560000, .i32⟩ : BufTy).Contents (Elt F) → (⟨S2560000, .i32⟩ : BufTy).Contents (Elt F) → (⟨S2560000, .i32⟩ : BufTy).Contents (Elt F)),
    unary main_v47 main_v48 (broadcastInDim S2560000x1 ![0] bcast_S2560000_S2560000x1_0 : (⟨S2560000, .i32⟩ : BufTy).Contents (Elt F) → (⟨S2560000x1, .i32⟩ : BufTy).Contents (Elt F)),
    binary main_v33 main_v48 main_v49 ((fun x i => Host.gather gather_S160000x32_S2560000x1_S2560000x32_1_0_n_n_0_1_132 x i) : (⟨S160000x32, .f32⟩ : BufTy).Contents (Elt F) → (⟨S2560000x1, .i32⟩ : BufTy).Contents (Elt F) → (⟨S2560000x32, .f32⟩ : BufTy).Contents (Elt F)),
    unary main_v42 main_v50 (broadcastInDim S2560000x32 ![0, 1] bcast_S2560000x1_S2560000x32_0_1 : (⟨S2560000x1, .f32⟩ : BufTy).Contents (Elt F) → (⟨S2560000x32, .f32⟩ : BufTy).Contents (Elt F)),
    binary main_v50 main_v49 main_v51 (mulf : (⟨S2560000x32, .f32⟩ : BufTy).Contents (Elt F) → (⟨S2560000x32, .f32⟩ : BufTy).Contents (Elt F) → (⟨S2560000x32, .f32⟩ : BufTy).Contents (Elt F)),
    nullary main_cst_9 (constant S_ .f32 0x00000000#32),
    unary main_cst_9 main_v52 (broadcastInDim S160000x32 ![] bcast_S_S160000x32 : (⟨S_, .f32⟩ : BufTy).Contents (Elt F) → (⟨S160000x32, .f32⟩ : BufTy).Contents (Elt F)),
    unary main_arg1 main_v53 (broadcastInDim S2560000x1 ![0] bcast_S2560000_S2560000x1_0 : (⟨S2560000, .i32⟩ : BufTy).Contents (Elt F) → (⟨S2560000x1, .i32⟩ : BufTy).Contents (Elt F)),
    ternary main_v52 main_v53 main_v51 main_v54 ((fun x i u => Host.scatterAdd scatter_S160000x32_S2560000x1_S2560000x32_1_0_0_1 x i u) : (⟨S160000x32, .f32⟩ : BufTy).Contents (Elt F) → (⟨S2560000x1, .i32⟩ : BufTy).Contents (Elt F) → (⟨S2560000x32, .f32⟩ : BufTy).Contents (Elt F) → (⟨S160000x32, .f32⟩ : BufTy).Contents (Elt F)),
    binary main_v33 main_v54 main_v55 (addf : (⟨S160000x32, .f32⟩ : BufTy).Contents (Elt F) → (⟨S160000x32, .f32⟩ : BufTy).Contents (Elt F) → (⟨S160000x32, .f32⟩ : BufTy).Contents (Elt F)),
    binary main_v55 main_arg8 main_v56 ((fun l r => Host.dotGeneral dot_S160000x32_S32x16_S160000x16_1_0_0_1_n_n none l r) : (⟨S160000x32, .f32⟩ : BufTy).Contents (Elt F) → (⟨S32x16, .f32⟩ : BufTy).Contents (Elt F) → (⟨S160000x16, .f32⟩ : BufTy).Contents (Elt F)),
    unary main_arg9 main_v57 (broadcastInDim S1x16 ![1] bcast_S16_S1x16_1 : (⟨S16, .f32⟩ : BufTy).Contents (Elt F) → (⟨S1x16, .f32⟩ : BufTy).Contents (Elt F)),
    unary main_v57 main_v58 (broadcastInDim S160000x16 ![0, 1] bcast_S1x16_S160000x16_0_1 : (⟨S1x16, .f32⟩ : BufTy).Contents (Elt F) → (⟨S160000x16, .f32⟩ : BufTy).Contents (Elt F)),
    binary main_v56 main_v58 main_v59 (addf : (⟨S160000x16, .f32⟩ : BufTy).Contents (Elt F) → (⟨S160000x16, .f32⟩ : BufTy).Contents (Elt F) → (⟨S160000x16, .f32⟩ : BufTy).Contents (Elt F)),
    nullary main_cst_10 (constant S_ .f32 0x00000000#32),
    unary main_cst_10 main_v60 (broadcastInDim S160000x16 ![] bcast_S_S160000x16 : (⟨S_, .f32⟩ : BufTy).Contents (Elt F) → (⟨S160000x16, .f32⟩ : BufTy).Contents (Elt F)),
    binary main_v59 main_v60 main_v61 (cmpf .oge : (⟨S160000x16, .f32⟩ : BufTy).Contents (Elt F) → (⟨S160000x16, .f32⟩ : BufTy).Contents (Elt F) → (⟨S160000x16, .i1⟩ : BufTy).Contents (Elt F)),
    nullary main_cst_11 (constant S_ .f32 0x3C23D70A#32),
    unary main_cst_11 main_v62 (broadcastInDim S160000x16 ![] bcast_S_S160000x16 : (⟨S_, .f32⟩ : BufTy).Contents (Elt F) → (⟨S160000x16, .f32⟩ : BufTy).Contents (Elt F)),
    binary main_v62 main_v59 main_v63 (mulf : (⟨S160000x16, .f32⟩ : BufTy).Contents (Elt F) → (⟨S160000x16, .f32⟩ : BufTy).Contents (Elt F) → (⟨S160000x16, .f32⟩ : BufTy).Contents (Elt F)),
    TRef.ternary (TRef.of (T := ⟨S160000x16, .i1⟩) main_v61) (TRef.of (T := ⟨S160000x16, .f32⟩) main_v59) (TRef.of (T := ⟨S160000x16, .f32⟩) main_v63) (TRef.of (T := ⟨S160000x16, .f32⟩) main_v64) select,
    binary main_v33 main_v54 main_v65 (mulf : (⟨S160000x32, .f32⟩ : BufTy).Contents (Elt F) → (⟨S160000x32, .f32⟩ : BufTy).Contents (Elt F) → (⟨S160000x32, .f32⟩ : BufTy).Contents (Elt F)),
    binary main_v65 main_arg10 main_v66 ((fun l r => Host.dotGeneral dot_S160000x32_S32x16_S160000x16_1_0_0_1_n_n none l r) : (⟨S160000x32, .f32⟩ : BufTy).Contents (Elt F) → (⟨S32x16, .f32⟩ : BufTy).Contents (Elt F) → (⟨S160000x16, .f32⟩ : BufTy).Contents (Elt F)),
    unary main_arg11 main_v67 (broadcastInDim S1x16 ![1] bcast_S16_S1x16_1 : (⟨S16, .f32⟩ : BufTy).Contents (Elt F) → (⟨S1x16, .f32⟩ : BufTy).Contents (Elt F)),
    unary main_v67 main_v68 (broadcastInDim S160000x16 ![0, 1] bcast_S1x16_S160000x16_0_1 : (⟨S1x16, .f32⟩ : BufTy).Contents (Elt F) → (⟨S160000x16, .f32⟩ : BufTy).Contents (Elt F)),
    binary main_v66 main_v68 main_v69 (addf : (⟨S160000x16, .f32⟩ : BufTy).Contents (Elt F) → (⟨S160000x16, .f32⟩ : BufTy).Contents (Elt F) → (⟨S160000x16, .f32⟩ : BufTy).Contents (Elt F)),
    nullary main_cst_12 (constant S_ .f32 0x00000000#32),
    unary main_cst_12 main_v70 (broadcastInDim S160000x16 ![] bcast_S_S160000x16 : (⟨S_, .f32⟩ : BufTy).Contents (Elt F) → (⟨S160000x16, .f32⟩ : BufTy).Contents (Elt F)),
    binary main_v69 main_v70 main_v71 (cmpf .oge : (⟨S160000x16, .f32⟩ : BufTy).Contents (Elt F) → (⟨S160000x16, .f32⟩ : BufTy).Contents (Elt F) → (⟨S160000x16, .i1⟩ : BufTy).Contents (Elt F)),
    nullary main_cst_13 (constant S_ .f32 0x3C23D70A#32),
    unary main_cst_13 main_v72 (broadcastInDim S160000x16 ![] bcast_S_S160000x16 : (⟨S_, .f32⟩ : BufTy).Contents (Elt F) → (⟨S160000x16, .f32⟩ : BufTy).Contents (Elt F)),
    binary main_v72 main_v69 main_v73 (mulf : (⟨S160000x16, .f32⟩ : BufTy).Contents (Elt F) → (⟨S160000x16, .f32⟩ : BufTy).Contents (Elt F) → (⟨S160000x16, .f32⟩ : BufTy).Contents (Elt F)),
    TRef.ternary (TRef.of (T := ⟨S160000x16, .i1⟩) main_v71) (TRef.of (T := ⟨S160000x16, .f32⟩) main_v69) (TRef.of (T := ⟨S160000x16, .f32⟩) main_v73) (TRef.of (T := ⟨S160000x16, .f32⟩) main_v74) select,
    binary main_v64 main_v74 main_v75 (addf : (⟨S160000x16, .f32⟩ : BufTy).Contents (Elt F) → (⟨S160000x16, .f32⟩ : BufTy).Contents (Elt F) → (⟨S160000x16, .f32⟩ : BufTy).Contents (Elt F)),
    binary main_v75 main_v75 main_v76 (mulf : (⟨S160000x16, .f32⟩ : BufTy).Contents (Elt F) → (⟨S160000x16, .f32⟩ : BufTy).Contents (Elt F) → (⟨S160000x16, .f32⟩ : BufTy).Contents (Elt F)),
    nullary main_cst_14 (constant S_ .f32 0x00000000#32),
    binary main_v76 main_cst_14 main_v77 ((fun x v => Host.reduceAdd x v reducesTo_S160000x16_S160000_d1 h_S_) : (⟨S160000x16, .f32⟩ : BufTy).Contents (Elt F) → (⟨S_, .f32⟩ : BufTy).Contents (Elt F) → (⟨S160000, .f32⟩ : BufTy).Contents (Elt F)),
    unary main_v77 main_v78 (broadcastInDim S160000x1 ![0] bcast_S160000_S160000x1_0 : (⟨S160000, .f32⟩ : BufTy).Contents (Elt F) → (⟨S160000x1, .f32⟩ : BufTy).Contents (Elt F)),
    unary main_v78 main_v79 (Host.sqrt : (⟨S160000x1, .f32⟩ : BufTy).Contents (Elt F) → (⟨S160000x1, .f32⟩ : BufTy).Contents (Elt F)),
    nullary main_cst_15 (constant S_ .f32 0x2B8CBCCC#32),
    unary main_cst_15 main_v80 (broadcastInDim S160000x1 ![] bcast_S_S160000x1 : (⟨S_, .f32⟩ : BufTy).Contents (Elt F) → (⟨S160000x1, .f32⟩ : BufTy).Contents (Elt F)),
    binary main_v79 main_v80 main_v81 (maximumf : (⟨S160000x1, .f32⟩ : BufTy).Contents (Elt F) → (⟨S160000x1, .f32⟩ : BufTy).Contents (Elt F) → (⟨S160000x1, .f32⟩ : BufTy).Contents (Elt F)),
    unary main_v81 main_v82 (broadcastInDim S160000x16 ![0, 1] bcast_S160000x1_S160000x16_0_1 : (⟨S160000x1, .f32⟩ : BufTy).Contents (Elt F) → (⟨S160000x16, .f32⟩ : BufTy).Contents (Elt F)),
    binary main_v75 main_v82 main_v83 (Host.divf : (⟨S160000x16, .f32⟩ : BufTy).Contents (Elt F) → (⟨S160000x16, .f32⟩ : BufTy).Contents (Elt F) → (⟨S160000x16, .f32⟩ : BufTy).Contents (Elt F)),
    nary ![main_arg0, main_v41, main_v83] main_v84 (fun u => concatenate S160000x112 1 [⟨S160000x64, u 0⟩, ⟨S160000x32, u 1⟩, ⟨S160000x16, u 2⟩] concatenates_S160000x64_S160000x32_S160000x16_S160000x112_d1) ]

/-- The first aggregation: the node table's rows gathered by column index (a negative index first shifted by the number of nodes), weighed, scatter-added by row index into zeros. -/
abbrev opsA : List (HloOp τ sig (Elt F)) :=
  [ unary main_arg3 main_v0 (broadcastInDim S2560000x1 ![0] bcast_S2560000_S2560000x1_0 : (⟨S2560000, .f32⟩ : BufTy).Contents (Elt F) → (⟨S2560000x1, .f32⟩ : BufTy).Contents (Elt F)),
    nullary main_c (constantI S_ 32 0#32),
    unary main_c main_v1 (broadcastInDim S2560000 ![] bcast_S_S2560000 : (⟨S_, .i32⟩ : BufTy).Contents (Elt F) → (⟨S2560000, .i32⟩ : BufTy).Contents (Elt F)),
    binary main_arg2 main_v1 main_v2 (cmpi .slt : (⟨S2560000, .i32⟩ : BufTy).Contents (Elt F) → (⟨S2560000, .i32⟩ : BufTy).Contents (Elt F) → (⟨S2560000, .i1⟩ : BufTy).Contents (Elt F)),
    nullary main_c_0 (constantI S_ 32 160000#32),
    unary main_c_0 main_v3 (broadcastInDim S2560000 ![] bcast_S_S2560000 : (⟨S_, .i32⟩ : BufTy).Contents (Elt F) → (⟨S2560000, .i32⟩ : BufTy).Contents (Elt F)),
    binary main_arg2 main_v3 main_v4 (addi : (⟨S2560000, .i32⟩ : BufTy).Contents (Elt F) → (⟨S2560000, .i32⟩ : BufTy).Contents (Elt F) → (⟨S2560000, .i32⟩ : BufTy).Contents (Elt F)),
    ternary main_v2 main_v4 main_arg2 main_v5 (select : (⟨S2560000, .i1⟩ : BufTy).Contents (Elt F) → (⟨S2560000, .i32⟩ : BufTy).Contents (Elt F) → (⟨S2560000, .i32⟩ : BufTy).Contents (Elt F) → (⟨S2560000, .i32⟩ : BufTy).Contents (Elt F)),
    unary main_v5 main_v6 (broadcastInDim S2560000x1 ![0] bcast_S2560000_S2560000x1_0 : (⟨S2560000, .i32⟩ : BufTy).Contents (Elt F) → (⟨S2560000x1, .i32⟩ : BufTy).Contents (Elt F)),
    binary main_arg0 main_v6 main_v7 ((fun x i => Host.gather gather_S160000x64_S2560000x1_S2560000x64_1_0_n_n_0_1_164 x i) : (⟨S160000x64, .f32⟩ : BufTy).Contents (Elt F) → (⟨S2560000x1, .i32⟩ : BufTy).Contents (Elt F) → (⟨S2560000x64, .f32⟩ : BufTy).Contents (Elt F)),
    unary main_v0 main_v8 (broadcastInDim S2560000x64 ![0, 1] bcast_S2560000x1_S2560000x64_0_1 : (⟨S2560000x1, .f32⟩ : BufTy).Contents (Elt F) → (⟨S2560000x64, .f32⟩ : BufTy).Contents (Elt F)),
    binary main_v8 main_v7 main_v9 (mulf : (⟨S2560000x64, .f32⟩ : BufTy).Contents (Elt F) → (⟨S2560000x64, .f32⟩ : BufTy).Contents (Elt F) → (⟨S2560000x64, .f32⟩ : BufTy).Contents (Elt F)),
    nullary main_cst (constant S_ .f32 0x00000000#32),
    unary main_cst main_v10 (broadcastInDim S160000x64 ![] bcast_S_S160000x64 : (⟨S_, .f32⟩ : BufTy).Contents (Elt F) → (⟨S160000x64, .f32⟩ : BufTy).Contents (Elt F)),
    unary main_arg1 main_v11 (broadcastInDim S2560000x1 ![0] bcast_S2560000_S2560000x1_0 : (⟨S2560000, .i32⟩ : BufTy).Contents (Elt F) → (⟨S2560000x1, .i32⟩ : BufTy).Contents (Elt F)),
    ternary main_v10 main_v11 main_v9 main_v12 ((fun x i u => Host.scatterAdd scatter_S160000x64_S2560000x1_S2560000x64_1_0_0_1 x i u) : (⟨S160000x64, .f32⟩ : BufTy).Contents (Elt F) → (⟨S2560000x1, .i32⟩ : BufTy).Contents (Elt F) → (⟨S2560000x64, .f32⟩ : BufTy).Contents (Elt F) → (⟨S160000x64, .f32⟩ : BufTy).Contents (Elt F)) ]

/-- The first layer's embedding: the two dense branches of E + A and E ⊙ A with the leaky rectifier, added. -/
abbrev opsB : List (HloOp τ sig (Elt F)) :=
  [ binary main_arg0 main_v12 main_v13 (addf : (⟨S160000x64, .f32⟩ : BufTy).Contents (Elt F) → (⟨S160000x64, .f32⟩ : BufTy).Contents (Elt F) → (⟨S160000x64, .f32⟩ : BufTy).Contents (Elt F)),
    binary main_v13 main_arg4 main_v14 ((fun l r => Host.dotGeneral dot_S160000x64_S64x32_S160000x32_1_0_0_1_n_n none l r) : (⟨S160000x64, .f32⟩ : BufTy).Contents (Elt F) → (⟨S64x32, .f32⟩ : BufTy).Contents (Elt F) → (⟨S160000x32, .f32⟩ : BufTy).Contents (Elt F)),
    unary main_arg5 main_v15 (broadcastInDim S1x32 ![1] bcast_S32_S1x32_1 : (⟨S32, .f32⟩ : BufTy).Contents (Elt F) → (⟨S1x32, .f32⟩ : BufTy).Contents (Elt F)),
    unary main_v15 main_v16 (broadcastInDim S160000x32 ![0, 1] bcast_S1x32_S160000x32_0_1 : (⟨S1x32, .f32⟩ : BufTy).Contents (Elt F) → (⟨S160000x32, .f32⟩ : BufTy).Contents (Elt F)),
    binary main_v14 main_v16 main_v17 (addf : (⟨S160000x32, .f32⟩ : BufTy).Contents (Elt F) → (⟨S160000x32, .f32⟩ : BufTy).Contents (Elt F) → (⟨S160000x32, .f32⟩ : BufTy).Contents (Elt F)),
    nullary main_cst_1 (constant S_ .f32 0x00000000#32),
    unary main_cst_1 main_v18 (broadcastInDim S160000x32 ![] bcast_S_S160000x32 : (⟨S_, .f32⟩ : BufTy).Contents (Elt F) → (⟨S160000x32, .f32⟩ : BufTy).Contents (Elt F)),
    binary main_v17 main_v18 main_v19 (cmpf .oge : (⟨S160000x32, .f32⟩ : BufTy).Contents (Elt F) → (⟨S160000x32, .f32⟩ : BufTy).Contents (Elt F) → (⟨S160000x32, .i1⟩ : BufTy).Contents (Elt F)),
    nullary main_cst_2 (constant S_ .f32 0x3C23D70A#32),
    unary main_cst_2 main_v20 (broadcastInDim S160000x32 ![] bcast_S_S160000x32 : (⟨S_, .f32⟩ : BufTy).Contents (Elt F) → (⟨S160000x32, .f32⟩ : BufTy).Contents (Elt F)),
    binary main_v20 main_v17 main_v21 (mulf : (⟨S160000x32, .f32⟩ : BufTy).Contents (Elt F) → (⟨S160000x32, .f32⟩ : BufTy).Contents (Elt F) → (⟨S160000x32, .f32⟩ : BufTy).Contents (Elt F)),
    TRef.ternary (TRef.of (T := ⟨S160000x32, .i1⟩) main_v19) (TRef.of (T := ⟨S160000x32, .f32⟩) main_v17) (TRef.of (T := ⟨S160000x32, .f32⟩) main_v21) (TRef.of (T := ⟨S160000x32, .f32⟩) main_v22) select,
    binary main_arg0 main_v12 main_v23 (mulf : (⟨S160000x64, .f32⟩ : BufTy).Contents (Elt F) → (⟨S160000x64, .f32⟩ : BufTy).Contents (Elt F) → (⟨S160000x64, .f32⟩ : BufTy).Contents (Elt F)),
    binary main_v23 main_arg6 main_v24 ((fun l r => Host.dotGeneral dot_S160000x64_S64x32_S160000x32_1_0_0_1_n_n none l r) : (⟨S160000x64, .f32⟩ : BufTy).Contents (Elt F) → (⟨S64x32, .f32⟩ : BufTy).Contents (Elt F) → (⟨S160000x32, .f32⟩ : BufTy).Contents (Elt F)),
    unary main_arg7 main_v25 (broadcastInDim S1x32 ![1] bcast_S32_S1x32_1 : (⟨S32, .f32⟩ : BufTy).Contents (Elt F) → (⟨S1x32, .f32⟩ : BufTy).Contents (Elt F)),
    unary main_v25 main_v26 (broadcastInDim S160000x32 ![0, 1] bcast_S1x32_S160000x32_0_1 : (⟨S1x32, .f32⟩ : BufTy).Contents (Elt F) → (⟨S160000x32, .f32⟩ : BufTy).Contents (Elt F)),
    binary main_v24 main_v26 main_v27 (addf : (⟨S160000x32, .f32⟩ : BufTy).Contents (Elt F) → (⟨S160000x32, .f32⟩ : BufTy).Contents (Elt F) → (⟨S160000x32, .f32⟩ : BufTy).Contents (Elt F)),
    nullary main_cst_3 (constant S_ .f32 0x00000000#32),
    unary main_cst_3 main_v28 (broadcastInDim S160000x32 ![] bcast_S_S160000x32 : (⟨S_, .f32⟩ : BufTy).Contents (Elt F) → (⟨S160000x32, .f32⟩ : BufTy).Contents (Elt F)),
    binary main_v27 main_v28 main_v29 (cmpf .oge : (⟨S160000x32, .f32⟩ : BufTy).Contents (Elt F) → (⟨S160000x32, .f32⟩ : BufTy).Contents (Elt F) → (⟨S160000x32, .i1⟩ : BufTy).Contents (Elt F)),
    nullary main_cst_4 (constant S_ .f32 0x3C23D70A#32),
    unary main_cst_4 main_v30 (broadcastInDim S160000x32 ![] bcast_S_S160000x32 : (⟨S_, .f32⟩ : BufTy).Contents (Elt F) → (⟨S160000x32, .f32⟩ : BufTy).Contents (Elt F)),
    binary main_v30 main_v27 main_v31 (mulf : (⟨S160000x32, .f32⟩ : BufTy).Contents (Elt F) → (⟨S160000x32, .f32⟩ : BufTy).Contents (Elt F) → (⟨S160000x32, .f32⟩ : BufTy).Contents (Elt F)),
    TRef.ternary (TRef.of (T := ⟨S160000x32, .i1⟩) main_v29) (TRef.of (T := ⟨S160000x32, .f32⟩) main_v27) (TRef.of (T := ⟨S160000x32, .f32⟩) main_v31) (TRef.of (T := ⟨S160000x32, .f32⟩) main_v32) select,
    binary main_v22 main_v32 main_v33 (addf : (⟨S160000x32, .f32⟩ : BufTy).Contents (Elt F) → (⟨S160000x32, .f32⟩ : BufTy).Contents (Elt F) → (⟨S160000x32, .f32⟩ : BufTy).Contents (Elt F)) ]

/-- Its row normalisation: each row divided by the larger of its Euclidean length and the floor. -/
abbrev opsC : List (HloOp τ sig (Elt F)) :=
  [ binary main_v33 main_v33 main_v34 (mulf : (⟨S160000x32, .f32⟩ : BufTy).Contents (Elt F) → (⟨S160000x32, .f32⟩ : BufTy).Contents (Elt F) → (⟨S160000x32, .f32⟩ : BufTy).Contents (Elt F)),
    nullary main_cst_5 (constant S_ .f32 0x00000000#32),
    binary main_v34 main_cst_5 main_v35 ((fun x v => Host.reduceAdd x v reducesTo_S160000x32_S160000_d1 h_S_) : (⟨S160000x32, .f32⟩ : BufTy).Contents (Elt F) → (⟨S_, .f32⟩ : BufTy).Contents (Elt F) → (⟨S160000, .f32⟩ : BufTy).Contents (Elt F)),
    unary main_v35 main_v36 (broadcastInDim S160000x1 ![0] bcast_S160000_S160000x1_0 : (⟨S160000, .f32⟩ : BufTy).Contents (Elt F) → (⟨S160000x1, .f32⟩ : BufTy).Contents (Elt F)),
    unary main_v36 main_v37 (Host.sqrt : (⟨S160000x1, .f32⟩ : BufTy).Contents (Elt F) → (⟨S160000x1, .f32⟩ : BufTy).Contents (Elt F)),
    nullary main_cst_6 (constant S_ .f32 0x2B8CBCCC#32),
    unary main_cst_6 main_v38 (broadcastInDim S160000x1 ![] bcast_S_S160000x1 : (⟨S_, .f32⟩ : BufTy).Contents (Elt F) → (⟨S160000x1, .f32⟩ : BufTy).Contents (Elt F)),
    binary main_v37 main_v38 main_v39 (maximumf : (⟨S160000x1, .f32⟩ : BufTy).Contents (Elt F) → (⟨S160000x1, .f32⟩ : BufTy).Contents (Elt F) → (⟨S160000x1, .f32⟩ : BufTy).Contents (Elt F)),
    unary main_v39 main_v40 (broadcastInDim S160000x32 ![0, 1] bcast_S160000x1_S160000x32_0_1 : (⟨S160000x1, .f32⟩ : BufTy).Contents (Elt F) → (⟨S160000x32, .f32⟩ : BufTy).Contents (Elt F)),
    binary main_v33 main_v40 main_v41 (Host.divf : (⟨S160000x32, .f32⟩ : BufTy).Contents (Elt F) → (⟨S160000x32, .f32⟩ : BufTy).Contents (Elt F) → (⟨S160000x32, .f32⟩ : BufTy).Contents (Elt F)) ]

/-- The second aggregation, of the first layer's embedding. -/
abbrev opsD : List (HloOp τ sig (Elt F)) :=
  [ unary main_arg3 main_v42 (broadcastInDim S2560000x1 ![0] bcast_S2560000_S2560000x1_0 : (⟨S2560000, .f32⟩ : BufTy).Contents (Elt F) → (⟨S2560000x1, .f32⟩ : BufTy).Contents (Elt F)),
    nullary main_c_7 (constantI S_ 32 0#32),
    unary main_c_7 main_v43 (broadcastInDim S2560000 ![] bcast_S_S2560000 : (⟨S_, .i32⟩ : BufTy).Contents (Elt F) → (⟨S2560000, .i32⟩ : BufTy).Contents (Elt F)),
    binary main_arg2 main_v43 main_v44 (cmpi .slt : (⟨S2560000, .i32⟩ : BufTy).Contents (Elt F) → (⟨S2560000, .i32⟩ : BufTy).Contents (Elt F) → (⟨S2560000, .i1⟩ : BufTy).Contents (Elt F)),
    nullary main_c_8 (constantI S_ 32 160000#32),
    unary main_c_8 main_v45 (broadcastInDim S2560000 ![] bcast_S_S2560000 : (⟨S_, .i32⟩ : BufTy).Contents (Elt F) → (⟨S2560000, .i32⟩ : BufTy).Contents (Elt F)),
    binary main_arg2 main_v45 main_v46 (addi : (⟨S2560000, .i32⟩ : BufTy).Contents (Elt F) → (⟨S2560000, .i32⟩ : BufTy).Contents (Elt F) → (⟨S2560000, .i32⟩ : BufTy).Contents (Elt F)),
    ternary main_v44 main_v46 main_arg2 main_v47 (select : (⟨S2560000, .i1⟩ : BufTy).Contents (Elt F) → (⟨S2560000, .i32⟩ : BufTy).Contents (Elt F) → (⟨S2560000, .i32⟩ : BufTy).Contents (Elt F) → (⟨S2560000, .i32⟩ : BufTy).Contents (Elt F)),
    unary main_v47 main_v48 (broadcastInDim S2560000x1 ![0] bcast_S2560000_S2560000x1_0 : (⟨S2560000, .i32⟩ : BufTy).Contents (Elt F) → (⟨S2560000x1, .i32⟩ : BufTy).Contents (Elt F)),
    binary main_v33 main_v48 main_v49 ((fun x i => Host.gather gather_S160000x32_S2560000x1_S2560000x32_1_0_n_n_0_1_132 x i) : (⟨S160000x32, .f32⟩ : BufTy).Contents (Elt F) → (⟨S2560000x1, .i32⟩ : BufTy).Contents (Elt F) → (⟨S2560000x32, .f32⟩ : BufTy).Contents (Elt F)),
    unary main_v42 main_v50 (broadcastInDim S2560000x32 ![0, 1] bcast_S2560000x1_S2560000x32_0_1 : (⟨S2560000x1, .f32⟩ : BufTy).Contents (Elt F) → (⟨S2560000x32, .f32⟩ : BufTy).Contents (Elt F)),
    binary main_v50 main_v49 main_v51 (mulf : (⟨S2560000x32, .f32⟩ : BufTy).Contents (Elt F) → (⟨S2560000x32, .f32⟩ : BufTy).Contents (Elt F) → (⟨S2560000x32, .f32⟩ : BufTy).Contents (Elt F)),
    nullary main_cst_9 (constant S_ .f32 0x00000000#32),
    unary main_cst_9 main_v52 (broadcastInDim S160000x32 ![] bcast_S_S160000x32 : (⟨S_, .f32⟩ : BufTy).Contents (Elt F) → (⟨S160000x32, .f32⟩ : BufTy).Contents (Elt F)),
    unary main_arg1 main_v53 (broadcastInDim S2560000x1 ![0] bcast_S2560000_S2560000x1_0 : (⟨S2560000, .i32⟩ : BufTy).Contents (Elt F) → (⟨S2560000x1, .i32⟩ : BufTy).Contents (Elt F)),
    ternary main_v52 main_v53 main_v51 main_v54 ((fun x i u => Host.scatterAdd scatter_S160000x32_S2560000x1_S2560000x32_1_0_0_1 x i u) : (⟨S160000x32, .f32⟩ : BufTy).Contents (Elt F) → (⟨S2560000x1, .i32⟩ : BufTy).Contents (Elt F) → (⟨S2560000x32, .f32⟩ : BufTy).Contents (Elt F) → (⟨S160000x32, .f32⟩ : BufTy).Contents (Elt F)) ]

/-- The second layer's embedding. -/
abbrev opsE : List (HloOp τ sig (Elt F)) :=
  [ binary main_v33 main_v54 main_v55 (addf : (⟨S160000x32, .f32⟩ : BufTy).Contents (Elt F) → (⟨S160000x32, .f32⟩ : BufTy).Contents (Elt F) → (⟨S160000x32, .f32⟩ : BufTy).Contents (Elt F)),
    binary main_v55 main_arg8 main_v56 ((fun l r => Host.dotGeneral dot_S160000x32_S32x16_S160000x16_1_0_0_1_n_n none l r) : (⟨S160000x32, .f32⟩ : BufTy).Contents (Elt F) → (⟨S32x16, .f32⟩ : BufTy).Contents (Elt F) → (⟨S160000x16, .f32⟩ : BufTy).Contents (Elt F)),
    unary main_arg9 main_v57 (broadcastInDim S1x16 ![1] bcast_S16_S1x16_1 : (⟨S16, .f32⟩ : BufTy).Contents (Elt F) → (⟨S1x16, .f32⟩ : BufTy).Contents (Elt F)),
    unary main_v57 main_v58 (broadcastInDim S160000x16 ![0, 1] bcast_S1x16_S160000x16_0_1 : (⟨S1x16, .f32⟩ : BufTy).Contents (Elt F) → (⟨S160000x16, .f32⟩ : BufTy).Contents (Elt F)),
    binary main_v56 main_v58 main_v59 (addf : (⟨S160000x16, .f32⟩ : BufTy).Contents (Elt F) → (⟨S160000x16, .f32⟩ : BufTy).Contents (Elt F) → (⟨S160000x16, .f32⟩ : BufTy).Contents (Elt F)),
    nullary main_cst_10 (constant S_ .f32 0x00000000#32),
    unary main_cst_10 main_v60 (broadcastInDim S160000x16 ![] bcast_S_S160000x16 : (⟨S_, .f32⟩ : BufTy).Contents (Elt F) → (⟨S160000x16, .f32⟩ : BufTy).Contents (Elt F)),
    binary main_v59 main_v60 main_v61 (cmpf .oge : (⟨S160000x16, .f32⟩ : BufTy).Contents (Elt F) → (⟨S160000x16, .f32⟩ : BufTy).Contents (Elt F) → (⟨S160000x16, .i1⟩ : BufTy).Contents (Elt F)),
    nullary main_cst_11 (constant S_ .f32 0x3C23D70A#32),
    unary main_cst_11 main_v62 (broadcastInDim S160000x16 ![] bcast_S_S160000x16 : (⟨S_, .f32⟩ : BufTy).Contents (Elt F) → (⟨S160000x16, .f32⟩ : BufTy).Contents (Elt F)),
    binary main_v62 main_v59 main_v63 (mulf : (⟨S160000x16, .f32⟩ : BufTy).Contents (Elt F) → (⟨S160000x16, .f32⟩ : BufTy).Contents (Elt F) → (⟨S160000x16, .f32⟩ : BufTy).Contents (Elt F)),
    TRef.ternary (TRef.of (T := ⟨S160000x16, .i1⟩) main_v61) (TRef.of (T := ⟨S160000x16, .f32⟩) main_v59) (TRef.of (T := ⟨S160000x16, .f32⟩) main_v63) (TRef.of (T := ⟨S160000x16, .f32⟩) main_v64) select,
    binary main_v33 main_v54 main_v65 (mulf : (⟨S160000x32, .f32⟩ : BufTy).Contents (Elt F) → (⟨S160000x32, .f32⟩ : BufTy).Contents (Elt F) → (⟨S160000x32, .f32⟩ : BufTy).Contents (Elt F)),
    binary main_v65 main_arg10 main_v66 ((fun l r => Host.dotGeneral dot_S160000x32_S32x16_S160000x16_1_0_0_1_n_n none l r) : (⟨S160000x32, .f32⟩ : BufTy).Contents (Elt F) → (⟨S32x16, .f32⟩ : BufTy).Contents (Elt F) → (⟨S160000x16, .f32⟩ : BufTy).Contents (Elt F)),
    unary main_arg11 main_v67 (broadcastInDim S1x16 ![1] bcast_S16_S1x16_1 : (⟨S16, .f32⟩ : BufTy).Contents (Elt F) → (⟨S1x16, .f32⟩ : BufTy).Contents (Elt F)),
    unary main_v67 main_v68 (broadcastInDim S160000x16 ![0, 1] bcast_S1x16_S160000x16_0_1 : (⟨S1x16, .f32⟩ : BufTy).Contents (Elt F) → (⟨S160000x16, .f32⟩ : BufTy).Contents (Elt F)),
    binary main_v66 main_v68 main_v69 (addf : (⟨S160000x16, .f32⟩ : BufTy).Contents (Elt F) → (⟨S160000x16, .f32⟩ : BufTy).Contents (Elt F) → (⟨S160000x16, .f32⟩ : BufTy).Contents (Elt F)),
    nullary main_cst_12 (constant S_ .f32 0x00000000#32),
    unary main_cst_12 main_v70 (broadcastInDim S160000x16 ![] bcast_S_S160000x16 : (⟨S_, .f32⟩ : BufTy).Contents (Elt F) → (⟨S160000x16, .f32⟩ : BufTy).Contents (Elt F)),
    binary main_v69 main_v70 main_v71 (cmpf .oge : (⟨S160000x16, .f32⟩ : BufTy).Contents (Elt F) → (⟨S160000x16, .f32⟩ : BufTy).Contents (Elt F) → (⟨S160000x16, .i1⟩ : BufTy).Contents (Elt F)),
    nullary main_cst_13 (constant S_ .f32 0x3C23D70A#32),
    unary main_cst_13 main_v72 (broadcastInDim S160000x16 ![] bcast_S_S160000x16 : (⟨S_, .f32⟩ : BufTy).Contents (Elt F) → (⟨S160000x16, .f32⟩ : BufTy).Contents (Elt F)),
    binary main_v72 main_v69 main_v73 (mulf : (⟨S160000x16, .f32⟩ : BufTy).Contents (Elt F) → (⟨S160000x16, .f32⟩ : BufTy).Contents (Elt F) → (⟨S160000x16, .f32⟩ : BufTy).Contents (Elt F)),
    TRef.ternary (TRef.of (T := ⟨S160000x16, .i1⟩) main_v71) (TRef.of (T := ⟨S160000x16, .f32⟩) main_v69) (TRef.of (T := ⟨S160000x16, .f32⟩) main_v73) (TRef.of (T := ⟨S160000x16, .f32⟩) main_v74) select,
    binary main_v64 main_v74 main_v75 (addf : (⟨S160000x16, .f32⟩ : BufTy).Contents (Elt F) → (⟨S160000x16, .f32⟩ : BufTy).Contents (Elt F) → (⟨S160000x16, .f32⟩ : BufTy).Contents (Elt F)) ]

/-- Its row normalisation. -/
abbrev opsF : List (HloOp τ sig (Elt F)) :=
  [ binary main_v75 main_v75 main_v76 (mulf : (⟨S160000x16, .f32⟩ : BufTy).Contents (Elt F) → (⟨S160000x16, .f32⟩ : BufTy).Contents (Elt F) → (⟨S160000x16, .f32⟩ : BufTy).Contents (Elt F)),
    nullary main_cst_14 (constant S_ .f32 0x00000000#32),
    binary main_v76 main_cst_14 main_v77 ((fun x v => Host.reduceAdd x v reducesTo_S160000x16_S160000_d1 h_S_) : (⟨S160000x16, .f32⟩ : BufTy).Contents (Elt F) → (⟨S_, .f32⟩ : BufTy).Contents (Elt F) → (⟨S160000, .f32⟩ : BufTy).Contents (Elt F)),
    unary main_v77 main_v78 (broadcastInDim S160000x1 ![0] bcast_S160000_S160000x1_0 : (⟨S160000, .f32⟩ : BufTy).Contents (Elt F) → (⟨S160000x1, .f32⟩ : BufTy).Contents (Elt F)),
    unary main_v78 main_v79 (Host.sqrt : (⟨S160000x1, .f32⟩ : BufTy).Contents (Elt F) → (⟨S160000x1, .f32⟩ : BufTy).Contents (Elt F)),
    nullary main_cst_15 (constant S_ .f32 0x2B8CBCCC#32),
    unary main_cst_15 main_v80 (broadcastInDim S160000x1 ![] bcast_S_S160000x1 : (⟨S_, .f32⟩ : BufTy).Contents (Elt F) → (⟨S160000x1, .f32⟩ : BufTy).Contents (Elt F)),
    binary main_v79 main_v80 main_v81 (maximumf : (⟨S160000x1, .f32⟩ : BufTy).Contents (Elt F) → (⟨S160000x1, .f32⟩ : BufTy).Contents (Elt F) → (⟨S160000x1, .f32⟩ : BufTy).Contents (Elt F)),
    unary main_v81 main_v82 (broadcastInDim S160000x16 ![0, 1] bcast_S160000x1_S160000x16_0_1 : (⟨S160000x1, .f32⟩ : BufTy).Contents (Elt F) → (⟨S160000x16, .f32⟩ : BufTy).Contents (Elt F)),
    binary main_v75 main_v82 main_v83 (Host.divf : (⟨S160000x16, .f32⟩ : BufTy).Contents (Elt F) → (⟨S160000x16, .f32⟩ : BufTy).Contents (Elt F) → (⟨S160000x16, .f32⟩ : BufTy).Contents (Elt F)) ]

/-- The node table and the two normalised tables joined side by side. -/
abbrev opsG : List (HloOp τ sig (Elt F)) :=
  [ nary ![main_arg0, main_v41, main_v83] main_v84 (fun u => concatenate S160000x112 1 [⟨S160000x64, u 0⟩, ⟨S160000x32, u 1⟩, ⟨S160000x16, u 2⟩] concatenates_S160000x64_S160000x32_S160000x16_S160000x112_d1) ]

set_option maxRecDepth 8192 in
/-- The operations are the seven stretches in order. -/
theorem ops_split : (ops : List (HloOp τ sig (Elt F))) = opsA ++ (opsB ++ (opsC ++ (opsD ++ (opsE ++ (opsF ++ opsG))))) := rfl

set_option maxRecDepth 8192 in
set_option maxHeartbeats 4000000 in
/-- The printed program is the sequence of these operations. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Each operation touches TensorCore references only. -/
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nary_bufs_sub ..⟩

/-- From any memory with zero counters every weakly fair execution of the program terminates, nothing faulting, with
    every buffer at the operations' fold over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.Stretches

end
-- ==== Proof.RefValue.lean ====
/-
  The reference program's result, as the specification's function of the arguments.

  The program's run leaves every buffer at the fold of its 103 operations over the launch contents (Proof/RefRun.lean).
  The fold is read one stretch at a time, each stretch at an ARBITRARY valuation W of the buffers, so that no stretch's
  term contains another's: the first aggregation of the node table; the first layer's embedding from the table and its
  aggregation; that embedding's row normalisation; the second aggregation, of the embedding; the second layer's
  embedding; its normalisation; the join. A stretch leaves alone every buffer it does not write, in particular every
  argument. Chaining the seven readings from the launch contents gives the specification's result, and every argument
  as launched.
-/
import proofs.«112415_j84722524881132_1_alg».proof.Proof.Spec
import proofs.«112415_j84722524881132_1_alg».proof.Proof.RefRun

set_option maxRecDepth 16384

noncomputable section

namespace Cert.ReferenceIdeal.Stretches

open Cert.ReferenceIdeal Cert.ReferenceIdeal.Gen Idealize.ShloMosaic Idealize.ShloMosaic.TcCoe Idealize.SL.Sem Idealize.ShloMosaic.StableHlo
open Cert.BiInteraction (layer normalized)

/-- Operations run one list after another. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-! ## What each stretch writes, and what it therefore leaves alone -/

abbrev writesA : List (Ref sig .tc) := [main_v0, main_c, main_v1, main_v2, main_c_0, main_v3, main_v4, main_v5, main_v6, main_v7, main_v8, main_v9, main_cst, main_v10, main_v11, main_v12]
theorem opsA_writes : (opsA : List (HloOp τ sig (Elt Ideal))).Forall fun op => op.writes ⊆ (writesA.map (Proc.devRef (τ := τ) .tc)).toFinset := by
  simp only [List.Forall]
  repeat' apply And.intro
  all_goals
    simp only [nullary_writes, unary_writes, binary_writes, ternary_writes, nary_writes, Finset.singleton_subset_iff, List.mem_toFinset]
    exact List.mem_map_of_mem (by decide)
theorem keepA (W : Valuation τ sig (Elt Ideal)) (r : Ref sig .tc) (h : r ∉ writesA) :
    after opsA W (Proc.devRef .tc r) = W (Proc.devRef .tc r) := after_of_writes_sub opsA W opsA_writes h

abbrev writesB : List (Ref sig .tc) := [main_v13, main_v14, main_v15, main_v16, main_v17, main_cst_1, main_v18, main_v19, main_cst_2, main_v20, main_v21, main_v22, main_v23, main_v24, main_v25, main_v26, main_v27, main_cst_3, main_v28, main_v29, main_cst_4, main_v30, main_v31, main_v32, main_v33]
theorem opsB_writes : (opsB : List (HloOp τ sig (Elt Ideal))).Forall fun op => op.writes ⊆ (writesB.map (Proc.devRef (τ := τ) .tc)).toFinset := by
  simp only [List.Forall]
  repeat' apply And.intro
  all_goals
    simp only [nullary_writes, unary_writes, binary_writes, ternary_writes, nary_writes, Finset.singleton_subset_iff, List.mem_toFinset]
    exact List.mem_map_of_mem (by decide)
theorem keepB (W : Valuation τ sig (Elt Ideal)) (r : Ref sig .tc) (h : r ∉ writesB) :
    after opsB W (Proc.devRef .tc r) = W (Proc.devRef .tc r) := after_of_writes_sub opsB W opsB_writes h

abbrev writesC : List (Ref sig .tc) := [main_v34, main_cst_5, main_v35, main_v36, main_v37, main_cst_6, main_v38, main_v39, main_v40, main_v41]
theorem opsC_writes : (opsC : List (HloOp τ sig (Elt Ideal))).Forall fun op => op.writes ⊆ (writesC.map (Proc.devRef (τ := τ) .tc)).toFinset := by
  simp only [List.Forall]
  repeat' apply And.intro
  all_goals
    simp only [nullary_writes, unary_writes, binary_writes, ternary_writes, nary_writes, Finset.singleton_subset_iff, List.mem_toFinset]
    exact List.mem_map_of_mem (by decide)
theorem keepC (W : Valuation τ sig (Elt Ideal)) (r : Ref sig .tc) (h : r ∉ writesC) :
    after opsC W (Proc.devRef .tc r) = W (Proc.devRef .tc r) := after_of_writes_sub opsC W opsC_writes h

abbrev writesD : List (Ref sig .tc) := [main_v42, main_c_7, main_v43, main_v44, main_c_8, main_v45, main_v46, main_v47, main_v48, main_v49, main_v50, main_v51, main_cst_9, main_v52, main_v53, main_v54]
theorem opsD_writes : (opsD : List (HloOp τ sig (Elt Ideal))).Forall fun op => op.writes ⊆ (writesD.map (Proc.devRef (τ := τ) .tc)).toFinset := by
  simp only [List.Forall]
  repeat' apply And.intro
  all_goals
    simp only [nullary_writes, unary_writes, binary_writes, ternary_writes, nary_writes, Finset.singleton_subset_iff, List.mem_toFinset]
    exact List.mem_map_of_mem (by decide)
theorem keepD (W : Valuation τ sig (Elt Ideal)) (r : Ref sig .tc) (h : r ∉ writesD) :
    after opsD W (Proc.devRef .tc r) = W (Proc.devRef .tc r) := after_of_writes_sub opsD W opsD_writes h

abbrev writesE : List (Ref sig .tc) := [main_v55, main_v56, main_v57, main_v58, main_v59, main_cst_10, main_v60, main_v61, main_cst_11, main_v62, main_v63, main_v64, main_v65, main_v66, main_v67, main_v68, main_v69, main_cst_12, main_v70, main_v71, main_cst_13, main_v72, main_v73, main_v74, main_v75]
theorem opsE_writes : (opsE : List (HloOp τ sig (Elt Ideal))).Forall fun op => op.writes ⊆ (writesE.map (Proc.devRef (τ := τ) .tc)).toFinset := by
  simp only [List.Forall]
  repeat' apply And.intro
  all_goals
    simp only [nullary_writes, unary_writes, binary_writes, ternary_writes, nary_writes, Finset.singleton_subset_iff, List.mem_toFinset]
    exact List.mem_map_of_mem (by decide)
theorem keepE (W : Valuation τ sig (Elt Ideal)) (r : Ref sig .tc) (h : r ∉ writesE) :
    after opsE W (Proc.devRef .tc r) = W (Proc.devRef .tc r) := after_of_writes_sub opsE W opsE_writes h

abbrev writesF : List (Ref sig .tc) := [main_v76, main_cst_14, main_v77, main_v78, main_v79, main_cst_15, main_v80, main_v81, main_v82, main_v83]
theorem opsF_writes : (opsF : List (HloOp τ sig (Elt Ideal))).Forall fun op => op.writes ⊆ (writesF.map (Proc.devRef (τ := τ) .tc)).toFinset := by
  simp only [List.Forall]
  repeat' apply And.intro
  all_goals
    simp only [nullary_writes, unary_writes, binary_writes, ternary_writes, nary_writes, Finset.singleton_subset_iff, List.mem_toFinset]
    exact List.mem_map_of_mem (by decide)
theorem keepF (W : Valuation τ sig (Elt Ideal)) (r : Ref sig .tc) (h : r ∉ writesF) :
    after opsF W (Proc.devRef .tc r) = W (Proc.devRef .tc r) := after_of_writes_sub opsF W opsF_writes h

abbrev writesG : List (Ref sig .tc) := [main_v84]
theorem opsG_writes : (opsG : List (HloOp τ sig (Elt Ideal))).Forall fun op => op.writes ⊆ (writesG.map (Proc.devRef (τ := τ) .tc)).toFinset := by
  simp only [List.Forall]
  repeat' apply And.intro
  all_goals
    simp only [nullary_writes, unary_writes, binary_writes, ternary_writes, nary_writes, Finset.singleton_subset_iff, List.mem_toFinset]
    exact List.mem_map_of_mem (by decide)
theorem keepG (W : Valuation τ sig (Elt Ideal)) (r : Ref sig .tc) (h : r ∉ writesG) :
    after opsG W (Proc.devRef .tc r) = W (Proc.devRef .tc r) := after_of_writes_sub opsG W opsG_writes h

/-! ## Each stretch's result, at any valuation of the buffers it reads -/

variable (W : Valuation τ sig (Elt Ideal))

/-- A layer's embedding from a table, its aggregation, the two weight tables and the two bias vectors (64 → 32). -/
abbrev embed1 (e s : (⟨S160000x64, .f32⟩ : BufTy).Contents (Elt Ideal)) (w1 : (⟨S64x32, .f32⟩ : BufTy).Contents (Elt Ideal))
    (b1 : (⟨S32, .f32⟩ : BufTy).Contents (Elt Ideal)) (w2 : (⟨S64x32, .f32⟩ : BufTy).Contents (Elt Ideal))
    (b2 : (⟨S32, .f32⟩ : BufTy).Contents (Elt Ideal)) : (⟨S160000x32, .f32⟩ : BufTy).Contents (Elt Ideal) :=
  layer (M := 160000) (K := 64) (N := 32) 0x3C23D70A#32 bcast_S_S160000x32 bcast_S1x32_S160000x32_0_1
    e s w1 (broadcastInDim S1x32 ![1] bcast_S32_S1x32_1 b1) w2 (broadcastInDim S1x32 ![1] bcast_S32_S1x32_1 b2)

/-- The same for the second layer (32 → 16). -/
abbrev embed2 (e s : (⟨S160000x32, .f32⟩ : BufTy).Contents (Elt Ideal)) (w1 : (⟨S32x16, .f32⟩ : BufTy).Contents (Elt Ideal))
    (b1 : (⟨S16, .f32⟩ : BufTy).Contents (Elt Ideal)) (w2 : (⟨S32x16, .f32⟩ : BufTy).Contents (Elt Ideal))
    (b2 : (⟨S16, .f32⟩ : BufTy).Contents (Elt Ideal)) : (⟨S160000x16, .f32⟩ : BufTy).Contents (Elt Ideal) :=
  layer (M := 160000) (K := 32) (N := 16) 0x3C23D70A#32 bcast_S_S160000x16 bcast_S1x16_S160000x16_0_1
    e s w1 (broadcastInDim S1x16 ![1] bcast_S16_S1x16_1 b1) w2 (broadcastInDim S1x16 ![1] bcast_S16_S1x16_1 b2)

set_option maxHeartbeats 4000000 in
theorem A_out : after opsA W (Proc.devRef .tc main_v12)
    = Cert.Spec.agg64 (W (Proc.devRef .tc main_arg0)) (W (Proc.devRef .tc main_arg1)) (W (Proc.devRef .tc main_arg2)) (W (Proc.devRef .tc main_arg3)) := by
  after_results_simp <;> rfl

set_option maxHeartbeats 4000000 in
theorem B_out : after opsB W (Proc.devRef .tc main_v33)
    = embed1 (W (Proc.devRef .tc main_arg0)) (W (Proc.devRef .tc main_v12)) (W (Proc.devRef .tc main_arg4)) (W (Proc.devRef .tc main_arg5))
        (W (Proc.devRef .tc main_arg6)) (W (Proc.devRef .tc main_arg7)) := by
  after_results_simp <;> rfl

set_option maxHeartbeats 4000000 in
theorem C_out : after opsC W (Proc.devRef .tc main_v41) = Cert.Spec.unit32 (W (Proc.devRef .tc main_v33)) := by
  after_results_simp <;> rfl

set_option maxHeartbeats 4000000 in
theorem D_out : after opsD W (Proc.devRef .tc main_v54)
    = Cert.Spec.agg32 (W (Proc.devRef .tc main_v33)) (W (Proc.devRef .tc main_arg1)) (W (Proc.devRef .tc main_arg2)) (W (Proc.devRef .tc main_arg3)) := by
  after_results_simp <;> rfl

set_option maxHeartbeats 4000000 in
theorem E_out : after opsE W (Proc.devRef .tc main_v75)
    = embed2 (W (Proc.devRef .tc main_v33)) (W (Proc.devRef .tc main_v54)) (W (Proc.devRef .tc main_arg8)) (W (Proc.devRef .tc main_arg9))
        (W (Proc.devRef .tc main_arg10)) (W (Proc.devRef .tc main_arg11)) := by
  after_results_simp <;> rfl

set_option maxHeartbeats 4000000 in
theorem F_out : after opsF W (Proc.devRef .tc main_v83) = Cert.Spec.unit16 (W (Proc.devRef .tc main_v75)) := by
  after_results_simp <;> rfl

theorem G_out : after opsG W (Proc.devRef .tc main_v84)
    = concatenate S160000x112 1 [⟨S160000x64, W (Proc.devRef .tc main_arg0)⟩, ⟨S160000x32, W (Proc.devRef .tc main_v41)⟩,
        ⟨S160000x16, W (Proc.devRef .tc main_v83)⟩] concatenates_S160000x64_S160000x32_S160000x16_S160000x112_d1 := by
  after_results
  rfl

/-! ## The seven stretches chained from the launch contents -/

variable (m : (ℓ : Loc nD τ sig) → Buf (Elt Ideal) ℓ) (c : Dev nD)

def WA : Valuation τ sig (Elt Ideal) := after opsA (launchContents m c)
def WB : Valuation τ sig (Elt Ideal) := after opsB (WA m c)
def WC : Valuation τ sig (Elt Ideal) := after opsC (WB m c)
def WD : Valuation τ sig (Elt Ideal) := after opsD (WC m c)
def WE : Valuation τ sig (Elt Ideal) := after opsE (WD m c)
def WF : Valuation τ sig (Elt Ideal) := after opsF (WE m c)

theorem fold_eq (b : DevRef τ sig) : after ops (launchContents m c) b = after opsG (WF m c) b := by
  rw [show (ops : List (HloOp τ sig (Elt Ideal))) = _ from ops_split]
  simp only [after_append]
  rfl

/-- A buffer no stretch so far has written holds its launch contents. -/
theorem WA_launch (r : Ref sig .tc) (hA : r ∉ writesA) : WA m c (Proc.devRef .tc r) = m ((c.tc : Thread nD τ).loc r) :=
  (keepA _ r hA).trans rfl
theorem WB_launch (r : Ref sig .tc) (hA : r ∉ writesA) (hB : r ∉ writesB) : WB m c (Proc.devRef .tc r) = m ((c.tc : Thread nD τ).loc r) :=
  (keepB _ r hB).trans (WA_launch m c r hA)
theorem WC_launch (r : Ref sig .tc) (hA : r ∉ writesA) (hB : r ∉ writesB) (hC : r ∉ writesC) : WC m c (Proc.devRef .tc r) = m ((c.tc : Thread nD τ).loc r) :=
  (keepC _ r hC).trans (WB_launch m c r hA hB)
theorem WD_launch (r : Ref sig .tc) (hA : r ∉ writesA) (hB : r ∉ writesB) (hC : r ∉ writesC) (hD : r ∉ writesD) :
    WD m c (Proc.devRef .tc r) = m ((c.tc : Thread nD τ).loc r) :=
  (keepD _ r hD).trans (WC_launch m c r hA hB hC)
theorem WE_launch (r : Ref sig .tc) (hA : r ∉ writesA) (hB : r ∉ writesB) (hC : r ∉ writesC) (hD : r ∉ writesD) (hE : r ∉ writesE) :
    WE m c (Proc.devRef .tc r) = m ((c.tc : Thread nD τ).loc r) :=
  (keepE _ r hE).trans (WD_launch m c r hA hB hC hD)
theorem WF_launch (r : Ref sig .tc) (hA : r ∉ writesA) (hB : r ∉ writesB) (hC : r ∉ writesC) (hD : r ∉ writesD) (hE : r ∉ writesE) (hF : r ∉ writesF) :
    WF m c (Proc.devRef .tc r) = m ((c.tc : Thread nD τ).loc r) :=
  (keepF _ r hF).trans (WE_launch m c r hA hB hC hD hE)

/-- Every buffer no operation writes ends as launched: in particular every argument. -/
theorem kept (r : Ref sig .tc) (hA : r ∉ writesA) (hB : r ∉ writesB) (hC : r ∉ writesC) (hD : r ∉ writesD) (hE : r ∉ writesE) (hF : r ∉ writesF)
    (hG : r ∉ writesG) : after ops (launchContents m c) (Proc.devRef .tc r) = m ((c.tc : Thread nD τ).loc r) :=
  (fold_eq m c _).trans ((keepG _ r hG).trans (WF_launch m c r hA hB hC hD hE hF))

/-- The first aggregation. -/
theorem WA_side : WA m c (Proc.devRef .tc main_v12) = Cert.Spec.agg64 (m ((c.tc : Thread nD τ).loc main_arg0)) (m ((c.tc : Thread nD τ).loc main_arg1)) (m ((c.tc : Thread nD τ).loc main_arg2)) (m ((c.tc : Thread nD τ).loc main_arg3)) :=
  (A_out (launchContents m c)).trans rfl

/-- The first layer's embedding. -/
theorem WB_ego : WB m c (Proc.devRef .tc main_v33)
    = Cert.Spec.ego1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show after opsB (WA m c) _ = _
  rw [B_out, WA_launch m c main_arg0 (by decide), WA_side, WA_launch m c main_arg4 (by decide), WA_launch m c main_arg5 (by decide),
    WA_launch m c main_arg6 (by decide), WA_launch m c main_arg7 (by decide)]
  rfl

theorem WC_ego : WC m c (Proc.devRef .tc main_v33)
    = Cert.Spec.ego1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (keepC _ main_v33 (by decide)).trans (WB_ego m c)

/-- Its row normalisation. -/
theorem WC_unit : WC m c (Proc.devRef .tc main_v41)
    = Cert.Spec.unit32 (Cert.Spec.ego1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  show after opsC (WB m c) _ = _
  rw [C_out, WB_ego]

/-- The second aggregation. -/
theorem WD_side : WD m c (Proc.devRef .tc main_v54)
    = Cert.Spec.agg32 (Cert.Spec.ego1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
        (m ((c.tc : Thread nD τ).loc main_arg1)) (m ((c.tc : Thread nD τ).loc main_arg2)) (m ((c.tc : Thread nD τ).loc main_arg3)) := by
  show after opsD (WC m c) _ = _
  rw [D_out, WC_ego, WC_launch m c main_arg1 (by decide) (by decide) (by decide), WC_launch m c main_arg2 (by decide) (by decide) (by decide),
    WC_launch m c main_arg3 (by decide) (by decide) (by decide)]

theorem WD_ego : WD m c (Proc.devRef .tc main_v33)
    = Cert.Spec.ego1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (keepD _ main_v33 (by decide)).trans (WC_ego m c)

/-- The second layer's embedding. -/
theorem WE_ego : WE m c (Proc.devRef .tc main_v75)
    = Cert.Spec.ego2 (Cert.Spec.ego1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
        (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) := by
  show after opsE (WD m c) _ = _
  rw [E_out, WD_ego, WD_side, WD_launch m c main_arg8 (by decide) (by decide) (by decide) (by decide),
    WD_launch m c main_arg9 (by decide) (by decide) (by decide) (by decide), WD_launch m c main_arg10 (by decide) (by decide) (by decide) (by decide),
    WD_launch m c main_arg11 (by decide) (by decide) (by decide) (by decide)]
  rfl

/-- Its row normalisation. -/
theorem WF_unit : WF m c (Proc.devRef .tc main_v83)
    = Cert.Spec.unit16 (Cert.Spec.ego2 (Cert.Spec.ego1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
        (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11))) := by
  show after opsF (WE m c) _ = _
  rw [F_out, WE_ego]

/-- The first normalised table is still there at the join. -/
theorem WF_unit1 : WF m c (Proc.devRef .tc main_v41)
    = Cert.Spec.unit32 (Cert.Spec.ego1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (keepF _ main_v41 (by decide)).trans ((keepE _ main_v41 (by decide)).trans ((keepD _ main_v41 (by decide)).trans (WC_unit m c)))

/-- THE REFERENCE'S RESULT is the specification's function of the arguments. -/
theorem value : after ops (launchContents m c) (Proc.devRef .tc main_v84)
    = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [fold_eq, G_out, WF_launch m c main_arg0 (by decide) (by decide) (by decide) (by decide) (by decide) (by decide), WF_unit1, WF_unit]
  rfl

/-- The reference's run, read: the result at the specification's function of the arguments, the arguments as launched. -/
theorem run_value (ρ : Dev nD → PrngReg) :
    θ_run defs (onTc (τ := τ) (main (F := Ideal))) ⟨m, fun _ => 0, ρ⟩ fun r => ∀ c : Dev nD,
      r.2.mem ((c.tc : Thread nD τ).loc main_v84) = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v84).trans (value m c),
      (h c main_arg0).trans (kept m c main_arg0 (by decide) (by decide) (by decide) (by decide) (by decide) (by decide) (by decide)),
      (h c main_arg1).trans (kept m c main_arg1 (by decide) (by decide) (by decide) (by decide) (by decide) (by decide) (by decide)),
      (h c main_arg2).trans (kept m c main_arg2 (by decide) (by decide) (by decide) (by decide) (by decide) (by decide) (by decide)),
      (h c main_arg3).trans (kept m c main_arg3 (by decide) (by decide) (by decide) (by decide) (by decide) (by decide) (by decide)),
      (h c main_arg4).trans (kept m c main_arg4 (by decide) (by decide) (by decide) (by decide) (by decide) (by decide) (by decide)),
      (h c main_arg5).trans (kept m c main_arg5 (by decide) (by decide) (by decide) (by decide) (by decide) (by decide) (by decide)),
      (h c main_arg6).trans (kept m c main_arg6 (by decide) (by decide) (by decide) (by decide) (by decide) (by decide) (by decide)),
      (h c main_arg7).trans (kept m c main_arg7 (by decide) (by decide) (by decide) (by decide) (by decide) (by decide) (by decide)),
      (h c main_arg8).trans (kept m c main_arg8 (by decide) (by decide) (by decide) (by decide) (by decide) (by decide) (by decide)),
      (h c main_arg9).trans (kept m c main_arg9 (by decide) (by decide) (by decide) (by decide) (by decide) (by decide) (by decide)),
      (h c main_arg10).trans (kept m c main_arg10 (by decide) (by decide) (by decide) (by decide) (by decide) (by decide) (by decide)),
      (h c main_arg11).trans (kept m c main_arg11 (by decide) (by decide) (by decide) (by decide) (by decide) (by decide) (by decide))⟩)
    (run m ρ)

end Cert.ReferenceIdeal.Stretches

end
-- ==== Proof.lean ====
/-
  The certificate of a two-layer bi-interaction graph network (160000 nodes, 2560000 edges, widths 64 → 32 → 16) whose
  dense per-node layers run as two kernel launches over 50 blocks of 3200 rows, against the plain array program.

  * The three programs run to the end without a fault and leave their arguments alone. For the two kernel programs
    (read at the word level and on the extended reals) this is the run of their five stretches — host operations, a
    launch, host operations, a launch, one last host operation — proved once for any float instance
    (Proof/Kernel/Run.lean, Proof/KernelIdeal/Run.lean over the two launches' block arguments Layer0 / Layer1); for the
    reference it is its run with the result dropped.
  * The idealisation rewrote nothing, so there is nothing to preserve.
  * On the extended reals both programs end with the same table: the node table, the first layer's row-normalised
    embedding and the second layer's, side by side (Proof/Spec.lean). The kernel program reaches it block by block — a
    layer that acts on every row separately gives on a block of rows the same rows as on the whole table
    (Proof/LibBiInteraction.lean, Proof/KernelIdeal/Value0.lean, Value1.lean, Proof/KernelValue.lean) — and the
    reference's 103 host operations, read in seven short stretches, compose to the specification (Proof/RefRun.lean,
    Proof/RefValue.lean). No step needs
    the inputs finite: the two sides apply the same operations to the same sums.
-/
import proofs.«112415_j84722524881132_1_alg».proof.Defs
import proofs.«112415_j84722524881132_1_alg».proof.Proof.Gen.Kernel
import proofs.«112415_j84722524881132_1_alg».proof.Proof.Gen.KernelIdeal
import proofs.«112415_j84722524881132_1_alg».proof.Proof.Gen.ReferenceIdeal
import proofs.«112415_j84722524881132_1_alg».proof.Proof.Gen.Pre_finite_inputs
import proofs.«112415_j84722524881132_1_alg».proof.Proof.Kernel.Run
import proofs.«112415_j84722524881132_1_alg».proof.Proof.KernelIdeal.Run
import proofs.«112415_j84722524881132_1_alg».proof.Proof.KernelValue
import proofs.«112415_j84722524881132_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Layers.frame m ρ

theorem frame_kernelIdeal : Cert.frame_KernelIdeal := fun m ρ _ => Cert.KernelIdeal.Layers.frame m ρ

theorem frame_reference : Cert.frame_ReferenceIdeal := fun m ρ _ =>
  (θ_run Cert.ReferenceIdeal.defs _ _).mono (fun _ h c => (h c).2) (Cert.ReferenceIdeal.Stretches.run_value m ρ)

theorem preserves : Cert.preserves_Kernel_KernelIdeal := trivial

/-- Both programs, from memories agreeing on the arguments, end with the specification's table. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ?_) (Cert.KernelIdeal.Layers.run m ρ)
    exact ⟨(h c _ (Cert.KernelIdeal.Layers.mem_uc Cert.KernelIdeal.main_v32 (by decide))).trans (Cert.KernelIdeal.Layers.kernel_value m ρ c),
      (h c _ (Cert.KernelIdeal.Layers.mem_uc Cert.KernelIdeal.main_arg0 (by decide))).trans (Cert.KernelIdeal.Layers.W5_main_arg0 m ρ c),
      (h c _ (Cert.KernelIdeal.Layers.mem_uc Cert.KernelIdeal.main_arg1 (by decide))).trans (Cert.KernelIdeal.Layers.W5_main_arg1 m ρ c),
      (h c _ (Cert.KernelIdeal.Layers.mem_uc Cert.KernelIdeal.main_arg2 (by decide))).trans (Cert.KernelIdeal.Layers.W5_main_arg2 m ρ c),
      (h c _ (Cert.KernelIdeal.Layers.mem_uc Cert.KernelIdeal.main_arg3 (by decide))).trans (Cert.KernelIdeal.Layers.W5_main_arg3 m ρ c),
      (h c _ (Cert.KernelIdeal.Layers.mem_uc Cert.KernelIdeal.main_arg4 (by decide))).trans (Cert.KernelIdeal.Layers.W5_main_arg4 m ρ c),
      (h c _ (Cert.KernelIdeal.Layers.mem_uc Cert.KernelIdeal.main_arg5 (by decide))).trans (Cert.KernelIdeal.Layers.W5_main_arg5 m ρ c),
      (h c _ (Cert.KernelIdeal.Layers.mem_uc Cert.KernelIdeal.main_arg6 (by decide))).trans (Cert.KernelIdeal.Layers.W5_main_arg6 m ρ c),
      (h c _ (Cert.KernelIdeal.Layers.mem_uc Cert.KernelIdeal.main_arg7 (by decide))).trans (Cert.KernelIdeal.Layers.W5_main_arg7 m ρ c),
      (h c _ (Cert.KernelIdeal.Layers.mem_uc Cert.KernelIdeal.main_arg8 (by decide))).trans (Cert.KernelIdeal.Layers.W5_main_arg8 m ρ c),
      (h c _ (Cert.KernelIdeal.Layers.mem_uc Cert.KernelIdeal.main_arg9 (by decide))).trans (Cert.KernelIdeal.Layers.W5_main_arg9 m ρ c),
      (h c _ (Cert.KernelIdeal.Layers.mem_uc Cert.KernelIdeal.main_arg10 (by decide))).trans (Cert.KernelIdeal.Layers.W5_main_arg10 m ρ c),
      (h c _ (Cert.KernelIdeal.Layers.mem_uc Cert.KernelIdeal.main_arg11 (by decide))).trans (Cert.KernelIdeal.Layers.W5_main_arg11 m ρ c)⟩
  · refine (θ_run Cert.ReferenceIdeal.defs _ _).mono (fun _ h c => ⟨(h c).1.trans ?_, (h c).2⟩)
      (Cert.ReferenceIdeal.Stretches.run_value m' ρ')
    obtain ⟨e0, e1, e2, e3, e4, e5, e6, e7, e8, e9, e10, e11⟩ := hagree c
    rw [e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
